-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_tau" .f32 0x3FA00000#32 ((16777216 / 13421773 : ℝ) : EReal)
  ∧ IdealRules.named_const.Statement Cert.KernelIdeal.κ "inv_tau" .f32 0x3FA00000#32 ((16777216 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64x64 : Shape := ⟨2, ![64, 64]⟩
abbrev S64 : Shape := ⟨1, ![64]⟩
abbrev S8192x8192 : Shape := ⟨2, ![8192, 8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg4 : FVec F S64x64 .f32) (main_arg5 : FVec F S64 .f32) (main_arg6 : FVec F S8192x8192 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  main_v33

def fn {F : FTy → Type} [FloatOps F] (main_arg0 : FVec F S8192x64 .f32) (main_arg1 : FVec F S8192x64 .f32) (main_arg2 : FVec F S64x64 .f32) (main_arg3 : FVec F S64 .f32) (main_arg4 : FVec F S64x64 .f32) (main_arg5 : FVec F S64 .f32) (main_arg6 : FVec F S8192x8192 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S8192x64 : Shape := ⟨2, ![8192, 64]⟩
abbrev S64x64 : Shape := ⟨2, ![64, 64]⟩
abbrev S64 : Shape := ⟨1, ![64]⟩
abbrev S8192x8192 : Shape := ⟨2, ![8192, 8192]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512x1 : Shape := ⟨2, ![512, 1]⟩
abbrev S512x64 : Shape := ⟨2, ![512, 64]⟩
abbrev S1024x64 : Shape := ⟨2, ![1024, 64]⟩
abbrev S64x1024 : Shape := ⟨2, ![64, 1024]⟩
abbrev S512 : Shape := ⟨1, ![512]⟩

abbrev nBuf : Space → Nat
  | .hbm => 92
  | .vmem => 12
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S8192x8192, .f32⟩
  | .hbm, ⟨7, _⟩ => ⟨S64x64, .f32⟩
  | .hbm, ⟨8, _⟩ => ⟨S8192x64, .f32⟩
  | .hbm, ⟨9, _⟩ => ⟨S1x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192x64, .f32⟩
  | .hbm, ⟨14, _⟩ => ⟨S8192x64, .i1⟩
  | .hbm, ⟨15, _⟩ => ⟨S_, .f32⟩
  | .hbm, ⟨16, _⟩ => ⟨S8192x64, .f32⟩
  | .hbm, ⟨17, _⟩ => ⟨S8192x64, .i1⟩
  | .hbm, ⟨18, _⟩ => ⟨S_, .f32⟩
  | .hbm, ⟨19, _⟩ => ⟨S_, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S_, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S64x64, .f32⟩
  | .hbm, ⟨28, _⟩ => ⟨S8192x64, .f32⟩
  | .hbm, ⟨29, _⟩ => ⟨S1x64, .f32⟩
  | .hbm, ⟨30, _⟩ => ⟨S8192x64, .f32⟩
  | .hbm, ⟨31, _⟩ => ⟨S8192x64, .f32⟩
  | .hbm, ⟨32, _⟩ => ⟨S64x64, .f32⟩
  | .hbm, ⟨33, _⟩ => ⟨S8192x64, .f32⟩
  | .hbm, ⟨34, _⟩ => ⟨S1x64, .f32⟩
  | .hbm, ⟨35, _⟩ => ⟨S8192x64, .f32⟩
  | .hbm, ⟨36, _⟩ => ⟨S8192x64, .f32⟩
  | .hbm, ⟨37, _⟩ => ⟨S_, .f32⟩
  | .hbm, ⟨38, _⟩ => ⟨S8192x64, .f32⟩
  | .hbm, ⟨39, _⟩ => ⟨S8192x64, .i1⟩
  | .hbm, ⟨40, _⟩ => ⟨S_, .f32⟩
  | .hbm, ⟨41, _⟩ => ⟨S8192x64, .f32⟩
  | .hbm, ⟨42, _⟩ => ⟨S8192x64, .i1⟩
  | .hbm, ⟨43, _⟩ => ⟨S_, .f32⟩
  | .hbm, ⟨44, _⟩ => ⟨S_, .f32⟩
  | .hbm, ⟨45, _⟩ => ⟨S8192x64, .f32⟩
  | .hbm, ⟨46, _⟩ => ⟨S8192x64, .f32⟩
  | .hbm, ⟨47, _⟩ => ⟨S8192x64, .f32⟩
  | .hbm, ⟨48, _⟩ => ⟨S_, .f32⟩
  | .hbm, ⟨49, _⟩ => ⟨S8192x64, .f32⟩
  | .hbm, ⟨50, _⟩ => ⟨S8192x64, .f32⟩
  | .hbm, ⟨51, _⟩ => ⟨S8192x64, .f32⟩
  | .hbm, ⟨52, _⟩ => ⟨S64x64, .f32⟩
  | .hbm, ⟨53, _⟩ => ⟨S8192x64, .f32⟩
  | .hbm, ⟨54, _⟩ => ⟨S1x64, .f32⟩
  | .hbm, ⟨55, _⟩ => ⟨S8192x64, .f32⟩
  | .hbm, ⟨56, _⟩ => ⟨S8192x64, .f32⟩
  | .hbm, ⟨57, _⟩ => ⟨S8192x64, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x64, .f32⟩
  | .hbm, ⟨66, _⟩ => ⟨S8192x64, .f32⟩
  | .hbm, ⟨67, _⟩ => ⟨S8192x64, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S8192x64, .f32⟩
  | .hbm, ⟨76, _⟩ => ⟨S8192x64, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .local _ .vmem, ⟨0, _⟩ => ⟨S8192x64, .f32⟩
  | .local _ .vmem, ⟨1, _⟩ => ⟨S8192x64, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_cst_1 : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_v4 : Ref sig .tc := ⟨.hbm, 21, rfl⟩
abbrev main_call0_v5 : Ref sig .tc := ⟨.hbm, 22, rfl⟩
abbrev main_call0_cst_2 : Ref sig .tc := ⟨.hbm, 23, rfl⟩
abbrev main_call0_v6 : Ref sig .tc := ⟨.hbm, 24, rfl⟩
abbrev main_call0_v7 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_cst_1 : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_v4 : Ref sig .tc := ⟨.hbm, 46, rfl⟩
abbrev main_call1_v5 : Ref sig .tc := ⟨.hbm, 47, rfl⟩
abbrev main_call1_cst_2 : Ref sig .tc := ⟨.hbm, 48, rfl⟩
abbrev main_call1_v6 : Ref sig .tc := ⟨.hbm, 49, rfl⟩
abbrev main_call1_v7 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_call2_v0 : Ref sig .tc := ⟨.hbm, 57, rfl⟩
abbrev main_call2_cst : Ref sig .tc := ⟨.hbm, 58, rfl⟩
abbrev main_call2_v1 : Ref sig .tc := ⟨.hbm, 59, rfl⟩
abbrev main_call2_v2 : Ref sig .tc := ⟨.hbm, 60, rfl⟩
abbrev main_v22 : Ref sig .tc := ⟨.hbm, 61, rfl⟩
abbrev main_cst : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_call3_v0 : Ref sig .tc := ⟨.hbm, 67, rfl⟩
abbrev main_call3_cst : Ref sig .tc := ⟨.hbm, 68, rfl⟩
abbrev main_call3_v1 : Ref sig .tc := ⟨.hbm, 69, rfl⟩
abbrev main_call3_v2 : Ref sig .tc := ⟨.hbm, 70, rfl⟩
abbrev main_v27 : Ref sig .tc := ⟨.hbm, 71, rfl⟩
abbrev main_cst_0 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32_0 : Ref sig .tc := ⟨.hbm, 77, rfl⟩
abbrev main_v32_1 : Ref sig .tc := ⟨.hbm, 78, rfl⟩
abbrev main_cst_1 : Ref sig .tc := ⟨.hbm, 79, rfl⟩
abbrev main_v33 : Ref sig .tc := ⟨.hbm, 80, rfl⟩
abbrev main_cst_2 : Ref sig .tc := ⟨.hbm, 81, rfl⟩
abbrev main_v34 : Ref sig .tc := ⟨.hbm, 82, rfl⟩
abbrev main_cst_3 : Ref sig .tc := ⟨.hbm, 83, rfl⟩
abbrev main_v35 : Ref sig .tc := ⟨.hbm, 84, rfl⟩
abbrev main_cst_4 : Ref sig .tc := ⟨.hbm, 85, rfl⟩
abbrev main_v36 : Ref sig .tc := ⟨.hbm, 86, rfl⟩
abbrev main_cst_5 : Ref sig .tc := ⟨.hbm, 87, rfl⟩
abbrev main_v37 : Ref sig .tc := ⟨.hbm, 88, rfl⟩
abbrev main_cst_6 : Ref sig .tc := ⟨.hbm, 89, rfl⟩
abbrev main_v38 : Ref sig .tc := ⟨.hbm, 90, rfl⟩
abbrev main_v39 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg0 : BitVec 32 := BitVec.ofNat 32 (i 0).val
  let c512_i32 : BitVec 32 := 512#32
  let v3 : BitVec 32 := Scalar.muli arg0 c512_i32
  v3
def k0_mult2 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : BitVec 32 := v3
  let v7 : Index := Scalar.indexCast v4
  let c0 : Index := 0#32
  ![v7.toNat, 0]
def k0_off2 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v13 : Index := Scalar.indexCast v6
  let c0_2 : Index := 0#32
  ![v13.toNat, 0]
def k0_cond2 (i : grid0.Coords) : BitVec 1 :=
  let arg1 : BitVec 32 := BitVec.ofNat 32 (i 1).val
  let c7_i32 : BitVec 32 := 7#32
  let v64 : BitVec 1 := Scalar.cmpi .eq arg1 c7_i32
  let v65 : BitVec 32 := Scalar.extui v64
  let c0_i32_29 : BitVec 32 := 0#32
  let v66 : BitVec 1 := Scalar.cmpi .ne v65 c0_i32_29
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S64x64_S64x64_1_0 : S64x64.Transposes [1, 0] S64x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S512x64 : 0 < S512x64.numel
  shapeCasts_S512x64_S512x64 : S512x64.ShapeCasts S512x64
  h_S1024x64 : 0 < S1024x64.numel
  shapeCasts_S1024x64_S1024x64 : S1024x64.ShapeCasts S1024x64
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  transposes_S1024x64_p1_0_S64x1024 : S1024x64.Transposes [1, 0] S64x1024
  reduces_S512x1024_S512 : S512x1024.Reduces [1] S512
  shapeCasts_S512_S512x1 : S512.ShapeCasts S512x1
  reducesTo_S8192x1_S_d0_1 : S8192x1.ReducesTo [0, 1] S_
  dot_S8192x64_S64x64_S8192x64_1_0_0_1_n_n_wf : DotDims.WF S8192x64 S64x64 S8192x64 [1] [0] [0] [1] [] []
  dot_S512x64_S64x1024_S512x1024_1_0_0_1_n_n_wf : DotDims.WF S512x64 S64x1024 S512x1024 [1] [0] [0] [1] [] []
  hrank0 : 0 < grid0.rank
  k0_mult1_dvd : ∀ i : grid0.Coords, 512 ∣ (k0_mult1 i).toNat
  k0_mult2_dvd : ∀ i : grid0.Coords, 1024 ∣ (k0_mult2 i).toNat
  k0_off1_inb : ∀ i : grid0.Coords, ∀ a, (k0_off1 i) a + S512x64.size a ≤ S8192x64.size a
  k0_off2_inb : ∀ i : grid0.Coords, ∀ a, (k0_off2 i) a + S1024x64.size a ≤ S8192x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S8192x64.size a
  hwx0_0 : ∀ i : grid0.Coords, EltTy.bits .f32 = 32 ∨ (Rect.block (s := S8192x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x8192.size a
  hwx0_2 : ∀ i : grid0.Coords, EltTy.bits .f32 = 32 ∨ (Rect.block (s := S8192x8192) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v26) S8192x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v31) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x64 : Shape := ⟨2, ![8192, 64]⟩
abbrev S64x64 : Shape := ⟨2, ![64, 64]⟩
abbrev S64 : Shape := ⟨1, ![64]⟩
abbrev S8192x8192 : Shape := ⟨2, ![8192, 8192]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S64x8192 : Shape := ⟨2, ![64, 8192]⟩

abbrev nBuf : Space → Nat
  | .hbm => 154
  | .vmem => 0
  | .smem => 0
  | _ => 0

abbrev hbmTy0_0 (i : Nat) : BufTy := match i % 128 with
  | 0 => ⟨S8192x64, .f32⟩
  | 1 => ⟨S8192x64, .f32⟩
  | 2 => ⟨S64x64, .f32⟩
  | 3 => ⟨S64, .f32⟩
  | 4 => ⟨S64x64, .f32⟩
  | 5 => ⟨S64, .f32⟩
  | 6 => ⟨S8192x8192, .f32⟩
  | 7 => ⟨S64x64, .f32⟩
  | 8 => ⟨S8192x64, .f32⟩
  | 9 => ⟨S1x64, .f32⟩
  | 10 => ⟨S8192x64, .f32⟩
  | 11 => ⟨S8192x64, .f32⟩
  | 12 => ⟨S_, .f32⟩
  | 13 => ⟨S8192x64, .f32⟩
  | 14 => ⟨S8192x64, .i1⟩
  | 15 => ⟨S_, .f32⟩
  | 16 => ⟨S8192x64, .f32⟩
  | 17 => ⟨S8192x64, .i1⟩
  | 18 => ⟨S_, .f32⟩
  | 19 => ⟨S_, .f32⟩
  | 20 => ⟨S8192x64, .f32⟩
  | 21 => ⟨S8192x64, .f32⟩
  | 22 => ⟨S8192x64, .f32⟩
  | 23 => ⟨S_, .f32⟩
  | 24 => ⟨S8192x64, .f32⟩
  | 25 => ⟨S8192x64, .f32⟩
  | 26 => ⟨S8192x64, .f32⟩
  | 27 => ⟨S64x64, .f32⟩
  | 28 => ⟨S8192x64, .f32⟩
  | 29 => ⟨S1x64, .f32⟩
  | 30 => ⟨S8192x64, .f32⟩
  | 31 => ⟨S8192x64, .f32⟩
  | 32 => ⟨S64x64, .f32⟩
  | 33 => ⟨S8192x64, .f32⟩
  | 34 => ⟨S1x64, .f32⟩
  | 35 => ⟨S8192x64, .f32⟩
  | 36 => ⟨S8192x64, .f32⟩
  | 37 => ⟨S_, .f32⟩
  | 38 => ⟨S8192x64, .f32⟩
  | 39 => ⟨S8192x64, .i1⟩
  | 40 => ⟨S_, .f32⟩
  | 41 => ⟨S8192x64, .f32⟩
  | 42 => ⟨S8192x64, .i1⟩
  | 43 => ⟨S_, .f32⟩
  | 44 => ⟨S_, .f32⟩
  | 45 => ⟨S8192x64, .f32⟩
  | 46 => ⟨S8192x64, .f32⟩
  | 47 => ⟨S8192x64, .f32⟩
  | 48 => ⟨S_, .f32⟩
  | 49 => ⟨S8192x64, .f32⟩
  | 50 => ⟨S8192x64, .f32⟩
  | 51 => ⟨S8192x64, .f32⟩
  | 52 => ⟨S64x64, .f32⟩
  | 53 => ⟨S8192x64, .f32⟩
  | 54 => ⟨S1x64, .f32⟩
  | 55 => ⟨S8192x64, .f32⟩
  | 56 => ⟨S8192x64, .f32⟩
  | 57 => ⟨S8192x64, .f32⟩
  | 58 => ⟨S_, .f32⟩
  | 59 => ⟨S8192, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x64, .f32⟩
  | 66 => ⟨S8192x64, .f32⟩
  | 67 => ⟨S8192x64, .f32⟩
  | 68 => ⟨S_, .f32⟩
  | 69 => ⟨S8192, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x64, .f32⟩
  | 76 => ⟨S8192x64, .f32⟩
  | 77 => ⟨S64x8192, .f32⟩
  | 78 => ⟨S8192x8192, .f32⟩
  | 79 => ⟨S_, .f32⟩
  | 80 => ⟨S8192x8192, .f32⟩
  | 81 => ⟨S8192x8192, .f32⟩
  | 82 => ⟨S8192x8192, .f32⟩
  | 83 => ⟨S8192x64, .f32⟩
  | 84 => ⟨S_, .f32⟩
  | 85 => ⟨S8192, .f32⟩
  | 86 => ⟨S8192x1, .f32⟩
  | 87 => ⟨S8192x1, .f32⟩
  | 88 => ⟨S_, .f32⟩
  | 89 => ⟨S8192x1, .f32⟩
  | 90 => ⟨S8192x1, .f32⟩
  | 91 => ⟨S8192x64, .f32⟩
  | 92 => ⟨S8192x64, .f32⟩
  | 93 => ⟨S8192x64, .f32⟩
  | 94 => ⟨S_, .f32⟩
  | 95 => ⟨S8192, .f32⟩
  | 96 => ⟨S8192x1, .f32⟩
  | 97 => ⟨S8192x1, .f32⟩
  | 98 => ⟨S_, .f32⟩
  | 99 => ⟨S8192x1, .f32⟩
  | 100 => ⟨S8192x1, .f32⟩
  | 101 => ⟨S8192x64, .f32⟩
  | 102 => ⟨S8192x64, .f32⟩
  | 103 => ⟨S64x8192, .f32⟩
  | 104 => ⟨S8192x8192, .f32⟩
  | 105 => ⟨S_, .f32⟩
  | 106 => ⟨S8192x8192, .f32⟩
  | 107 => ⟨S8192x8192, .f32⟩
  | 108 => ⟨S8192x8192, .f32⟩
  | 109 => ⟨S_, .f32⟩
  | 110 => ⟨S8192, .f32⟩
  | 111 => ⟨S8192x1, .f32⟩
  | 112 => ⟨S_, .f32⟩
  | 113 => ⟨S8192x1, .f32⟩
  | 114 => ⟨S8192x1, .f32⟩
  | 115 => ⟨S8192x8192, .f32⟩
  | 116 => ⟨S8192x8192, .f32⟩
  | 117 => ⟨S8192x8192, .f32⟩
  | 118 => ⟨S_, .f32⟩
  | 119 => ⟨S8192, .f32⟩
  | 120 => ⟨S_, .f32⟩
  | 121 => ⟨S8192, .f32⟩
  | 122 => ⟨S8192, .f32⟩
  | 123 => ⟨S8192, .f32⟩
  | 124 => ⟨S_, .f32⟩
  | 125 => ⟨S_, .f32⟩
  | 126 => ⟨S_, .f32⟩
  | 127 => ⟨S_, .f32⟩
  | _ => ⟨S8192x64, .f32⟩

abbrev hbmTy0_1 (i : Nat) : BufTy := match i % 128 with
  | 0 => ⟨S_, .f32⟩
  | 1 => ⟨S_, .f32⟩
  | 2 => ⟨S8192, .f32⟩
  | 3 => ⟨S8192x1, .f32⟩
  | 4 => ⟨S_, .f32⟩
  | 5 => ⟨S8192x1, .f32⟩
  | 6 => ⟨S8192x1, .f32⟩
  | 7 => ⟨S8192x8192, .f32⟩
  | 8 => ⟨S8192x8192, .f32⟩
  | 9 => ⟨S8192x8192, .f32⟩
  | 10 => ⟨S_, .f32⟩
  | 11 => ⟨S8192, .f32⟩
  | 12 => ⟨S_, .f32⟩
  | 13 => ⟨S8192, .f32⟩
  | 14 => ⟨S8192, .f32⟩
  | 15 => ⟨S8192, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_cst_1 : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_v4 : Ref sig .tc := ⟨.hbm, 21, rfl⟩
abbrev main_call0_v5 : Ref sig .tc := ⟨.hbm, 22, rfl⟩
abbrev main_call0_cst_2 : Ref sig .tc := ⟨.hbm, 23, rfl⟩
abbrev main_call0_v6 : Ref sig .tc := ⟨.hbm, 24, rfl⟩
abbrev main_call0_v7 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_cst_1 : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_v4 : Ref sig .tc := ⟨.hbm, 46, rfl⟩
abbrev main_call1_v5 : Ref sig .tc := ⟨.hbm, 47, rfl⟩
abbrev main_call1_cst_2 : Ref sig .tc := ⟨.hbm, 48, rfl⟩
abbrev main_call1_v6 : Ref sig .tc := ⟨.hbm, 49, rfl⟩
abbrev main_call1_v7 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_call2_v0 : Ref sig .tc := ⟨.hbm, 57, rfl⟩
abbrev main_call2_cst : Ref sig .tc := ⟨.hbm, 58, rfl⟩
abbrev main_call2_v1 : Ref sig .tc := ⟨.hbm, 59, rfl⟩
abbrev main_call2_v2 : Ref sig .tc := ⟨.hbm, 60, rfl⟩
abbrev main_v22 : Ref sig .tc := ⟨.hbm, 61, rfl⟩
abbrev main_cst : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_call3_v0 : Ref sig .tc := ⟨.hbm, 67, rfl⟩
abbrev main_call3_cst : Ref sig .tc := ⟨.hbm, 68, rfl⟩
abbrev main_call3_v1 : Ref sig .tc := ⟨.hbm, 69, rfl⟩
abbrev main_call3_v2 : Ref sig .tc := ⟨.hbm, 70, rfl⟩
abbrev main_v27 : Ref sig .tc := ⟨.hbm, 71, rfl⟩
abbrev main_cst_0 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_1 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_call4_v0 : Ref sig .tc := ⟨.hbm, 83, rfl⟩
abbrev main_call4_cst : Ref sig .tc := ⟨.hbm, 84, rfl⟩
abbrev main_call4_v1 : Ref sig .tc := ⟨.hbm, 85, rfl⟩
abbrev main_call4_v2 : Ref sig .tc := ⟨.hbm, 86, rfl⟩
abbrev main_v37 : Ref sig .tc := ⟨.hbm, 87, rfl⟩
abbrev main_cst_2 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_call5_v0 : Ref sig .tc := ⟨.hbm, 93, rfl⟩
abbrev main_call5_cst : Ref sig .tc := ⟨.hbm, 94, rfl⟩
abbrev main_call5_v1 : Ref sig .tc := ⟨.hbm, 95, rfl⟩
abbrev main_call5_v2 : Ref sig .tc := ⟨.hbm, 96, rfl⟩
abbrev main_v42 : Ref sig .tc := ⟨.hbm, 97, rfl⟩
abbrev main_cst_3 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_cst_4 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_cst_5 : Ref sig .tc := ⟨.hbm, 109, rfl⟩
abbrev main_v52 : Ref sig .tc := ⟨.hbm, 110, rfl⟩
abbrev main_v53 : Ref sig .tc := ⟨.hbm, 111, rfl⟩
abbrev main_cst_6 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_cst_7 : Ref sig .tc := ⟨.hbm, 118, rfl⟩
abbrev main_v59 : Ref sig .tc := ⟨.hbm, 119, rfl⟩
abbrev main_cst_8 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_cst_9 : Ref sig .tc := ⟨.hbm, 124, rfl⟩
abbrev main_v63 : Ref sig .tc := ⟨.hbm, 125, rfl⟩
abbrev main_cst_10 : Ref sig .tc := ⟨.hbm, 126, rfl⟩
abbrev main_v64 : Ref sig .tc := ⟨.hbm, 127, rfl⟩
abbrev main_v65 : Ref sig .tc := ⟨.hbm, 128, rfl⟩
abbrev main_cst_11 : Ref sig .tc := ⟨.hbm, 129, rfl⟩
abbrev main_v66 : Ref sig .tc := ⟨.hbm, 130, rfl⟩
abbrev main_v67 : Ref sig .tc := ⟨.hbm, 131, rfl⟩
abbrev main_cst_12 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_cst_13 : Ref sig .tc := ⟨.hbm, 138, rfl⟩
abbrev main_v73 : Ref sig .tc := ⟨.hbm, 139, rfl⟩
abbrev main_cst_14 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_cst_15 : Ref sig .tc := ⟨.hbm, 144, rfl⟩
abbrev main_v77 : Ref sig .tc := ⟨.hbm, 145, rfl⟩
abbrev main_cst_16 : Ref sig .tc := ⟨.hbm, 146, rfl⟩
abbrev main_v78 : Ref sig .tc := ⟨.hbm, 147, rfl⟩
abbrev main_v79 : Ref sig .tc := ⟨.hbm, 148, rfl⟩
abbrev main_cst_17 : Ref sig .tc := ⟨.hbm, 149, rfl⟩
abbrev main_v80 : Ref sig .tc := ⟨.hbm, 150, rfl⟩
abbrev main_cst_18 : Ref sig .tc := ⟨.hbm, 151, rfl⟩
abbrev main_v81 : Ref sig .tc := ⟨.hbm, 152, rfl⟩
abbrev main_v82 : Ref sig .tc := ⟨.hbm, 153, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  bcast_S8192x1_S8192x8192_0_1 : S8192x1.BroadcastsInDim S8192x8192 (![0, 1] : Fin 2 → Fin S8192x8192.rank)
  bcast_S_S8192 : S_.BroadcastsInDim S8192 (![] : Fin 0 → Fin S8192.rank)
  reducesTo_S8192_S_d0 : S8192.ReducesTo [0] S_
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KerPieces.lean ====
/-
  What one grid point leaves in the four running totals and, at a row block's last column block, in the two outputs.

  A point (row block, column block) loads 512 rows of each embedding array at the row block's offset and 1024 rows at the
  column block's offset, forms the two 512 x 1024 blocks of weights, and rewrites each running total WHOLE: its previous
  contents plus this block's row sums. At a row block's first column block the previous contents are the zeros stored
  just before; elsewhere they are what the point before left. At the last column block the two outputs are then computed
  from the totals just rewritten. Because every store rewrites its whole block, a buffer read back after the point's
  stores is the last store's payload, and that payload is a fixed function (advT1, advM1, advT2, advM2 below) of the
  blocks the point found and of the previous contents.
-/
import proofs.«154604_j34720515621627_1_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F] [Named F]

/-- The offset of a whole-block rectangle of a [512, 1] buffer is zero on both axes. -/
theorem hz2 : (![0, 0] : Fin S512x1.rank → ℕ) = fun _ => 0 := by
  funext a; match a with | ⟨0, _⟩ => rfl | ⟨1, _⟩ => rfl
/-- The same for the [512, 1024] mask block. -/
theorem hzP : (![0, 0] : Fin S512x1024.rank → ℕ) = fun _ => 0 := by
  funext a; match a with | ⟨0, _⟩ => rfl | ⟨1, _⟩ => rfl

/-- A [512, 1] buffer loaded whole after one whole-block store reads the stored value. -/
theorem readCov_whole {κ : Kind} {sp : Space} (v : View sig κ sp S512x1 .f32) (w : S512x1.Idx → Elt F .f32) :
    v.readCov [(⟨Rect.unit (s := S512x1) ![0, 0] ![512, 1] inb_S512x1_S512x1_0_0, w⟩ : View.Piece (Elt F) S512x1 .f32)]
      (Rect.unit (s := S512x1) ![0, 0] ![512, 1] inb_S512x1_S512x1_0_0).toLoadRect = w :=
  View.readCov_unit_zero v hz2 inb_S512x1_S512x1_0_0 w

/-- The 512 rows of an embedding array that belong to the point's row block. -/
def rowsI (i : grid0.Coords) (x : Vec F S8192x64 .f32) : Vec F S512x64 .f32 :=
  View.ld x (Rect.unit (k0_off1 i) S512x64.size (k0_off1_inb i))
/-- The 1024 rows of an embedding array that belong to the point's column block. -/
def rowsJ (i : grid0.Coords) (x : Vec F S8192x64 .f32) : Vec F S1024x64 .f32 :=
  View.ld x (Rect.unit (k0_off2 i) S1024x64.size (k0_off2_inb i))

/-- The first direction's row totals, advanced by this point's block of weights. -/
def advT1 (i : grid0.Coords) (x0 x1 : Vec F S8192x64 .f32) (prev : Vec F S512x1 .f32) : Vec F S512x1 .f32 :=
  k0_pay1 (k0_pay13 (rowsI i x0) (rowsJ i x1) prev)
/-- The first direction's masked totals, advanced. -/
def advM1 (i : grid0.Coords) (x0 x1 : Vec F S8192x64 .f32) (x2 : Vec F S512x1024 .f32) (prev : Vec F S512x1 .f32) :
    Vec F S512x1 .f32 :=
  k0_pay2 x2 (k0_pay11 (rowsI i x0) (rowsJ i x1)) prev
/-- The second direction's row totals, advanced (the two arrays change roles). -/
def advT2 (i : grid0.Coords) (x0 x1 : Vec F S8192x64 .f32) (prev : Vec F S512x1 .f32) : Vec F S512x1 .f32 :=
  k0_pay3 (k0_pay12 (rowsI i x1) (rowsJ i x0)) prev
/-- The second direction's masked totals, advanced. -/
def advM2 (i : grid0.Coords) (x0 x1 : Vec F S8192x64 .f32) (x2 : Vec F S512x1024 .f32) (prev : Vec F S512x1 .f32) :
    Vec F S512x1 .f32 :=
  k0_pay4 x2 (k0_pay12 (rowsI i x1) (rowsJ i x0)) prev

/-- Reads a buffer back after a case's stores: the stores cover the block and the last one rewrote it whole, so the
    contents are that store's payload; the payload's operands are the blocks as the point found them, each input read
    back from its whole staging buffer, each total read back after the store before it. -/
local macro "read_back " d:ident " covered_by " cov:term : tactic => `(tactic| (
  unfold $d
  rw [View.read_writes_eq_canon _ _ _ $cov]
  first | unfold kernelRun0_A | unfold kernelRun0_B | unfold kernelRun0_C
  dsimp only
  sl_unfold_run_names
  rw [View.canon_cons_unit_zero hz2]
  simp only [readCov_whole, View.readAt_eq_ld, Memref.IsWhole.read_unread,
    View.ld_unit_zero (S := S512x1) hz2, View.ld_unit_zero (S := S512x1024) hzP]
  rfl))

/-! ## A row block's first column block: the totals start from the zeros just stored -/

theorem sout0_A_0_eq (c : Dev nD) (i : grid0.Coords) (arg2 : Memref sig .tc .vmem S8192x64 .f32) (harg2 : arg2.IsWhole) (arg3 : Memref sig .tc .vmem S8192x64 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S8192x64 .f32) (x1 : Vec F S8192x64 .f32) (x2 : Vec F S512x1024 .f32) :
    sout0_A_0 c i arg2 harg2 arg3 harg3 arg4 harg4 arg5 harg5 arg6 harg6 arg7 harg7 arg8 harg8 arg9 harg9 arg10 harg10 hc0 hc1 x0 x1 x2 = advT1 i x0 x1 (k0_pay7 (F := F)) := by
  read_back sout0_A_0 covered_by (scover0_A_0 c i arg2 harg2 arg3 harg3 arg4 harg4 arg5 harg5 arg6 harg6 arg7 harg7 arg8 harg8 arg9 harg9 arg10 harg10 hc0 hc1 x0 x1 x2)

theorem sout0_A_1_eq (c : Dev nD) (i : grid0.Coords) (arg2 : Memref sig .tc .vmem S8192x64 .f32) (harg2 : arg2.IsWhole) (arg3 : Memref sig .tc .vmem S8192x64 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S8192x64 .f32) (x1 : Vec F S8192x64 .f32) (x2 : Vec F S512x1024 .f32) :
    sout0_A_1 c i arg2 harg2 arg3 harg3 arg4 harg4 arg5 harg5 arg6 harg6 arg7 harg7 arg8 harg8 arg9 harg9 arg10 harg10 hc0 hc1 x0 x1 x2 = advM1 i x0 x1 x2 (k0_pay8 (F := F)) := by
  read_back sout0_A_1 covered_by (scover0_A_1 c i arg2 harg2 arg3 harg3 arg4 harg4 arg5 harg5 arg6 harg6 arg7 harg7 arg8 harg8 arg9 harg9 arg10 harg10 hc0 hc1 x0 x1 x2)

theorem sout0_A_2_eq (c : Dev nD) (i : grid0.Coords) (arg2 : Memref sig .tc .vmem S8192x64 .f32) (harg2 : arg2.IsWhole) (arg3 : Memref sig .tc .vmem S8192x64 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S8192x64 .f32) (x1 : Vec F S8192x64 .f32) (x2 : Vec F S512x1024 .f32) :
    sout0_A_2 c i arg2 harg2 arg3 harg3 arg4 harg4 arg5 harg5 arg6 harg6 arg7 harg7 arg8 harg8 arg9 harg9 arg10 harg10 hc0 hc1 x0 x1 x2 = advT2 i x0 x1 (k0_pay9 (F := F)) := by
  read_back sout0_A_2 covered_by (scover0_A_2 c i arg2 harg2 arg3 harg3 arg4 harg4 arg5 harg5 arg6 harg6 arg7 harg7 arg8 harg8 arg9 harg9 arg10 harg10 hc0 hc1 x0 x1 x2)

theorem sout0_A_3_eq (c : Dev nD) (i : grid0.Coords) (arg2 : Memref sig .tc .vmem S8192x64 .f32) (harg2 : arg2.IsWhole) (arg3 : Memref sig .tc .vmem S8192x64 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S8192x64 .f32) (x1 : Vec F S8192x64 .f32) (x2 : Vec F S512x1024 .f32) :
    sout0_A_3 c i arg2 harg2 arg3 harg3 arg4 harg4 arg5 harg5 arg6 harg6 arg7 harg7 arg8 harg8 arg9 harg9 arg10 harg10 hc0 hc1 x0 x1 x2 = advM2 i x0 x1 x2 (k0_pay10 (F := F)) := by
  read_back sout0_A_3 covered_by (scover0_A_3 c i arg2 harg2 arg3 harg3 arg4 harg4 arg5 harg5 arg6 harg6 arg7 harg7 arg8 harg8 arg9 harg9 arg10 harg10 hc0 hc1 x0 x1 x2)

/-! ## A middle column block: the totals advance from what the point before left -/

theorem sout0_B_0_eq (c : Dev nD) (i : grid0.Coords) (arg2 : Memref sig .tc .vmem S8192x64 .f32) (harg2 : arg2.IsWhole) (arg3 : Memref sig .tc .vmem S8192x64 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S8192x64 .f32) (x1 : Vec F S8192x64 .f32) (x2 : Vec F S512x1024 .f32) (xs0 : Vec F S512x1 .f32) (xs1 : Vec F S512x1 .f32) (xs2 : Vec F S512x1 .f32) (xs3 : Vec F S512x1 .f32) :
    sout0_B_0 c i arg2 harg2 arg3 harg3 arg4 harg4 arg5 harg5 arg6 harg6 arg7 harg7 arg8 harg8 arg9 harg9 arg10 harg10 hc0 hc1 x0 x1 x2 xs0 xs1 xs2 xs3 = advT1 i x0 x1 xs0 := by
  read_back sout0_B_0 covered_by (scover0_B_0 c i arg2 harg2 arg3 harg3 arg4 harg4 arg5 harg5 arg6 harg6 arg7 harg7 arg8 harg8 arg9 harg9 arg10 harg10 hc0 hc1 x0 x1 x2 xs0 xs1 xs2 xs3)

theorem sout0_B_1_eq (c : Dev nD) (i : grid0.Coords) (arg2 : Memref sig .tc .vmem S8192x64 .f32) (harg2 : arg2.IsWhole) (arg3 : Memref sig .tc .vmem S8192x64 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S8192x64 .f32) (x1 : Vec F S8192x64 .f32) (x2 : Vec F S512x1024 .f32) (xs0 : Vec F S512x1 .f32) (xs1 : Vec F S512x1 .f32) (xs2 : Vec F S512x1 .f32) (xs3 : Vec F S512x1 .f32) :
    sout0_B_1 c i arg2 harg2 arg3 harg3 arg4 harg4 arg5 harg5 arg6 harg6 arg7 harg7 arg8 harg8 arg9 harg9 arg10 harg10 hc0 hc1 x0 x1 x2 xs0 xs1 xs2 xs3 = advM1 i x0 x1 x2 xs1 := by
  read_back sout0_B_1 covered_by (scover0_B_1 c i arg2 harg2 arg3 harg3 arg4 harg4 arg5 harg5 arg6 harg6 arg7 harg7 arg8 harg8 arg9 harg9 arg10 harg10 hc0 hc1 x0 x1 x2 xs0 xs1 xs2 xs3)

theorem sout0_B_2_eq (c : Dev nD) (i : grid0.Coords) (arg2 : Memref sig .tc .vmem S8192x64 .f32) (harg2 : arg2.IsWhole) (arg3 : Memref sig .tc .vmem S8192x64 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S8192x64 .f32) (x1 : Vec F S8192x64 .f32) (x2 : Vec F S512x1024 .f32) (xs0 : Vec F S512x1 .f32) (xs1 : Vec F S512x1 .f32) (xs2 : Vec F S512x1 .f32) (xs3 : Vec F S512x1 .f32) :
    sout0_B_2 c i arg2 harg2 arg3 harg3 arg4 harg4 arg5 harg5 arg6 harg6 arg7 harg7 arg8 harg8 arg9 harg9 arg10 harg10 hc0 hc1 x0 x1 x2 xs0 xs1 xs2 xs3 = advT2 i x0 x1 xs2 := by
  read_back sout0_B_2 covered_by (scover0_B_2 c i arg2 harg2 arg3 harg3 arg4 harg4 arg5 harg5 arg6 harg6 arg7 harg7 arg8 harg8 arg9 harg9 arg10 harg10 hc0 hc1 x0 x1 x2 xs0 xs1 xs2 xs3)

theorem sout0_B_3_eq (c : Dev nD) (i : grid0.Coords) (arg2 : Memref sig .tc .vmem S8192x64 .f32) (harg2 : arg2.IsWhole) (arg3 : Memref sig .tc .vmem S8192x64 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S8192x64 .f32) (x1 : Vec F S8192x64 .f32) (x2 : Vec F S512x1024 .f32) (xs0 : Vec F S512x1 .f32) (xs1 : Vec F S512x1 .f32) (xs2 : Vec F S512x1 .f32) (xs3 : Vec F S512x1 .f32) :
    sout0_B_3 c i arg2 harg2 arg3 harg3 arg4 harg4 arg5 harg5 arg6 harg6 arg7 harg7 arg8 harg8 arg9 harg9 arg10 harg10 hc0 hc1 x0 x1 x2 xs0 xs1 xs2 xs3 = advM2 i x0 x1 x2 xs3 := by
  read_back sout0_B_3 covered_by (scover0_B_3 c i arg2 harg2 arg3 harg3 arg4 harg4 arg5 harg5 arg6 harg6 arg7 harg7 arg8 harg8 arg9 harg9 arg10 harg10 hc0 hc1 x0 x1 x2 xs0 xs1 xs2 xs3)

/-! ## The last column block: the totals advance once more, and the outputs are computed from them -/

theorem sout0_C_0_eq (c : Dev nD) (i : grid0.Coords) (arg2 : Memref sig .tc .vmem S8192x64 .f32) (harg2 : arg2.IsWhole) (arg3 : Memref sig .tc .vmem S8192x64 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S8192x64 .f32) (x1 : Vec F S8192x64 .f32) (x2 : Vec F S512x1024 .f32) (xs0 : Vec F S512x1 .f32) (xs1 : Vec F S512x1 .f32) (xs2 : Vec F S512x1 .f32) (xs3 : Vec F S512x1 .f32) :
    sout0_C_0 c i arg2 harg2 arg3 harg3 arg4 harg4 arg5 harg5 arg6 harg6 arg7 harg7 arg8 harg8 arg9 harg9 arg10 harg10 hc0 hc1 x0 x1 x2 xs0 xs1 xs2 xs3 = advT1 i x0 x1 xs0 := by
  read_back sout0_C_0 covered_by (scover0_C_0 c i arg2 harg2 arg3 harg3 arg4 harg4 arg5 harg5 arg6 harg6 arg7 harg7 arg8 harg8 arg9 harg9 arg10 harg10 hc0 hc1 x0 x1 x2 xs0 xs1 xs2 xs3)

theorem sout0_C_1_eq (c : Dev nD) (i : grid0.Coords) (arg2 : Memref sig .tc .vmem S8192x64 .f32) (harg2 : arg2.IsWhole) (arg3 : Memref sig .tc .vmem S8192x64 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S8192x64 .f32) (x1 : Vec F S8192x64 .f32) (x2 : Vec F S512x1024 .f32) (xs0 : Vec F S512x1 .f32) (xs1 : Vec F S512x1 .f32) (xs2 : Vec F S512x1 .f32) (xs3 : Vec F S512x1 .f32) :
    sout0_C_1 c i arg2 harg2 arg3 harg3 arg4 harg4 arg5 harg5 arg6 harg6 arg7 harg7 arg8 harg8 arg9 harg9 arg10 harg10 hc0 hc1 x0 x1 x2 xs0 xs1 xs2 xs3 = advM1 i x0 x1 x2 xs1 := by
  read_back sout0_C_1 covered_by (scover0_C_1 c i arg2 harg2 arg3 harg3 arg4 harg4 arg5 harg5 arg6 harg6 arg7 harg7 arg8 harg8 arg9 harg9 arg10 harg10 hc0 hc1 x0 x1 x2 xs0 xs1 xs2 xs3)

theorem sout0_C_2_eq (c : Dev nD) (i : grid0.Coords) (arg2 : Memref sig .tc .vmem S8192x64 .f32) (harg2 : arg2.IsWhole) (arg3 : Memref sig .tc .vmem S8192x64 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S8192x64 .f32) (x1 : Vec F S8192x64 .f32) (x2 : Vec F S512x1024 .f32) (xs0 : Vec F S512x1 .f32) (xs1 : Vec F S512x1 .f32) (xs2 : Vec F S512x1 .f32) (xs3 : Vec F S512x1 .f32) :
    sout0_C_2 c i arg2 harg2 arg3 harg3 arg4 harg4 arg5 harg5 arg6 harg6 arg7 harg7 arg8 harg8 arg9 harg9 arg10 harg10 hc0 hc1 x0 x1 x2 xs0 xs1 xs2 xs3 = advT2 i x0 x1 xs2 := by
  read_back sout0_C_2 covered_by (scover0_C_2 c i arg2 harg2 arg3 harg3 arg4 harg4 arg5 harg5 arg6 harg6 arg7 harg7 arg8 harg8 arg9 harg9 arg10 harg10 hc0 hc1 x0 x1 x2 xs0 xs1 xs2 xs3)

theorem sout0_C_3_eq (c : Dev nD) (i : grid0.Coords) (arg2 : Memref sig .tc .vmem S8192x64 .f32) (harg2 : arg2.IsWhole) (arg3 : Memref sig .tc .vmem S8192x64 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S8192x64 .f32) (x1 : Vec F S8192x64 .f32) (x2 : Vec F S512x1024 .f32) (xs0 : Vec F S512x1 .f32) (xs1 : Vec F S512x1 .f32) (xs2 : Vec F S512x1 .f32) (xs3 : Vec F S512x1 .f32) :
    sout0_C_3 c i arg2 harg2 arg3 harg3 arg4 harg4 arg5 harg5 arg6 harg6 arg7 harg7 arg8 harg8 arg9 harg9 arg10 harg10 hc0 hc1 x0 x1 x2 xs0 xs1 xs2 xs3 = advM2 i x0 x1 x2 xs3 := by
  read_back sout0_C_3 covered_by (scover0_C_3 c i arg2 harg2 arg3 harg3 arg4 harg4 arg5 harg5 arg6 harg6 arg7 harg7 arg8 harg8 arg9 harg9 arg10 harg10 hc0 hc1 x0 x1 x2 xs0 xs1 xs2 xs3)

theorem out0_C_3_eq (c : Dev nD) (i : grid0.Coords) (arg2 : Memref sig .tc .vmem S8192x64 .f32) (harg2 : arg2.IsWhole) (arg3 : Memref sig .tc .vmem S8192x64 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S8192x64 .f32) (x1 : Vec F S8192x64 .f32) (x2 : Vec F S512x1024 .f32) (xs0 : Vec F S512x1 .f32) (xs1 : Vec F S512x1 .f32) (xs2 : Vec F S512x1 .f32) (xs3 : Vec F S512x1 .f32) :
    out0_C_3 c i arg2 harg2 arg3 harg3 arg4 harg4 arg5 harg5 arg6 harg6 arg7 harg7 arg8 harg8 arg9 harg9 arg10 harg10 hc0 hc1 x0 x1 x2 xs0 xs1 xs2 xs3 = k0_pay5 (advM1 i x0 x1 x2 xs1) (advT1 i x0 x1 xs0) := by
  read_back out0_C_3 covered_by (cover0_C_3 c i arg2 harg2 arg3 harg3 arg4 harg4 arg5 harg5 arg6 harg6 arg7 harg7 arg8 harg8 arg9 harg9 arg10 harg10 hc0 hc1 x0 x1 x2 xs0 xs1 xs2 xs3)

theorem out0_C_4_eq (c : Dev nD) (i : grid0.Coords) (arg2 : Memref sig .tc .vmem S8192x64 .f32) (harg2 : arg2.IsWhole) (arg3 : Memref sig .tc .vmem S8192x64 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S8192x64 .f32) (x1 : Vec F S8192x64 .f32) (x2 : Vec F S512x1024 .f32) (xs0 : Vec F S512x1 .f32) (xs1 : Vec F S512x1 .f32) (xs2 : Vec F S512x1 .f32) (xs3 : Vec F S512x1 .f32) :
    out0_C_4 c i arg2 harg2 arg3 harg3 arg4 harg4 arg5 harg5 arg6 harg6 arg7 harg7 arg8 harg8 arg9 harg9 arg10 harg10 hc0 hc1 x0 x1 x2 xs0 xs1 xs2 xs3 = k0_pay6 (advM2 i x0 x1 x2 xs3) (advT2 i x0 x1 xs2) := by
  read_back out0_C_4 covered_by (cover0_C_4 c i arg2 harg2 arg3 harg3 arg4 harg4 arg5 harg5 arg6 harg6 arg7 harg7 arg8 harg8 arg9 harg9 arg10 harg10 hc0 hc1 x0 x1 x2 xs0 xs1 xs2 xs3)

end Cert.KernelIdeal.Gen

end
-- ==== Proof.Spec.lean ====
/-
  The contrastive loss of two sets of 8192 row-normalised embeddings of width 64 against a mask, written twice as a
  function of the embeddings A, B and the mask P, index by index on the extended reals.

  With s i j = ∑ k, A i k * B j k (row i of A against row j of B):

  * the accumulated form: the weight is exp (s i j * c) with c the exact reciprocal of the temperature word; a row's
    weights are summed, and so are its weights times the mask; the row's term is 0 - log (masked / (total + ε) + ε);
    the loss is the mean of the rows' terms (the sum divided by 8192).
  * the normalised form: the weight is exp (s i j / τ); every weight of a row is divided by (row total + ε), the
    quotients times the mask are summed; the row's term is log (that sum + ε); the loss is minus the mean of the rows' terms.

  Either way the result is loss A B P * ½ + loss B A P * ½. The two forms are equal when every mask entry is a real
  number: division by (total + ε), which lies in (0, ⊤], is multiplication by a non-negative real, and that distributes
  over any sum of extended reals; and log of a real number is never ⊤, so negation commutes with the rows' sum.
-/
import Idealize.ShloMosaic.PureOps.Ideal
import Idealize.ShloMosaic.Lib.ValueIdx

noncomputable section

open scoped BigOperators
open Idealize.ShloMosaic Idealize.ShloMosaic.ValueIdx

namespace Cert.Contrast

/-- 8192 embeddings of width 64. -/
abbrev Emb : Type := FVec Ideal (⟨2, ![8192, 64]⟩ : Shape) .f32
/-- The 8192 × 8192 mask of positives. -/
abbrev Mask : Type := FVec Ideal (⟨2, ![8192, 8192]⟩ : Shape) .f32

/-- The guard ε both programs add (the word of 1e-8). -/
def eps : EReal := Ideal.ofBits .f32 0x322BCC77#32
/-- The temperature word the reference divides by. -/
def tau : EReal := Ideal.ofBits .f32 0x3F4CCCCD#32
/-- The exact reciprocal of the temperature word, which the kernel multiplies by. -/
def invTau : EReal := ((16777216 / 13421773 : ℝ) : EReal)
/-- The number of rows, as the word both programs divide the rows' sum by. -/
def nRows : EReal := Ideal.ofBits .f32 0x46000000#32
/-- The weight ½ of each of the two losses. -/
def half : EReal := Ideal.ofBits .f32 0x3F000000#32

/-- Row i of A against row j of B. -/
def dotRows (A B : Emb) (i j : Fin 8192) : EReal := ∑ k : Fin 64, A (ix2 i k) * B (ix2 j k)

/-! ## The accumulated form -/

/-- The weight of the pair (i, j): exp (s * c). -/
def wK (A B : Emb) (i j : Fin 8192) : EReal := Ideal.exp (dotRows A B i j * invTau)

/-- Row i's term: 0 - log (masked total / (total + ε) + ε). -/
def rowK (A B : Emb) (P : Mask) (i : Fin 8192) : EReal :=
  0 - Ideal.log (Ideal.div (∑ j : Fin 8192, wK A B i j * P (ix2 i j)) ((∑ j : Fin 8192, wK A B i j) + eps) + eps)

/-- The mean of the rows' terms. -/
def lossK (A B : Emb) (P : Mask) : EReal := Ideal.div (∑ i : Fin 8192, rowK A B P i) nRows

/-- Both directions, each weighted ½. -/
def outK (A B : Emb) (P : Mask) : EReal := lossK A B P * half + lossK B A P * half

/-! ## The normalised form -/

/-- The weight of the pair (i, j): exp (s / τ). -/
def wR (A B : Emb) (i j : Fin 8192) : EReal := Ideal.exp (Ideal.div (dotRows A B i j) tau)

/-- Row i's term: log (∑ j, w i j / (total + ε) * P i j + ε). -/
def rowR (A B : Emb) (P : Mask) (i : Fin 8192) : EReal :=
  Ideal.log ((∑ j : Fin 8192, Ideal.div (wR A B i j) ((∑ j' : Fin 8192, wR A B i j') + eps) * P (ix2 i j)) + eps)

/-- Minus the mean of the rows' terms. -/
def lossR (A B : Emb) (P : Mask) : EReal := -(Ideal.div (∑ i : Fin 8192, rowR A B P i) nRows)

/-- Both directions, each weighted ½. -/
def outR (A B : Emb) (P : Mask) : EReal := lossR A B P * half + lossR B A P * half

end Cert.Contrast

end
-- ==== Proof.Chain.lean ====
/-
  The embeddings both programs compare: a two-layer projection with an ELU between the layers, then each row divided
  by the larger of its Euclidean norm and 1e-12. Both programs apply exactly these host operations to their inputs
  before anything else, so the rest of the proof treats the result as one array and never looks inside it.

  elu x            = x where x > 0, and 1 * (exp y - 1) elsewhere, y being 0 where x > 0 and x elsewhere
  proj x W1 b1 W2 b2 = elu (x · W1ᵀ + b1) · W2ᵀ + b2
  rowNorm z        = sqrt of each row's sum of squares, as a column
  l2n z            = z / max (rowNorm z) 1e-12, the column repeated along the row
-/
import proofs.«154604_j34720515621627_1_alg».proof.KernelIdeal
import proofs.«154604_j34720515621627_1_alg».proof.Proof.Spec

noncomputable section

open Idealize.ShloMosaic Cert.KernelIdeal Cert.KernelIdeal.Facts₀

namespace Cert.Contrast

variable [Cert.KernelIdeal.Facts₀]

/-- The scalar zero repeated over an [8192, 64] array. -/
def zeros : FVec Ideal S8192x64 .f32 :=
  broadcastInDim S8192x64 ![] bcast_S_S8192x64 (constant (F := Ideal) S_ .f32 0x00000000#32)

/-- jax's elu, as it lowers: the argument of the exponential is masked to 0 where x > 0 before exp - 1 is taken. -/
def elu (x : FVec Ideal S8192x64 .f32) : FVec Ideal S8192x64 .f32 :=
  select (cmpf .ogt x zeros) x
    (mulf (broadcastInDim S8192x64 ![] bcast_S_S8192x64 (constant (F := Ideal) S_ .f32 0x3F800000#32))
      (Host.expm1 (select (cmpf .ogt x zeros)
        (broadcastInDim S8192x64 ![] bcast_S_S8192x64 (id (constant (F := Ideal) S_ .f32 0x00000000#32))) x)))

/-- One linear layer: x · Wᵀ + b, the bias laid down as a row and repeated. -/
def linear (x : FVec Ideal S8192x64 .f32) (W : FVec Ideal S64x64 .f32) (b : FVec Ideal S64 .f32) : FVec Ideal S8192x64 .f32 :=
  addf (Host.dotGeneral dot_S8192x64_S64x64_S8192x64_1_0_0_1_n_n none x (transpose S64x64 [1, 0] W transposes_S64x64_S64x64_1_0))
    (broadcastInDim S8192x64 ![0, 1] bcast_S1x64_S8192x64_0_1 (broadcastInDim S1x64 ![1] bcast_S64_S1x64_1 b))

/-- The projection: linear, elu, linear. -/
def proj (x : FVec Ideal S8192x64 .f32) (W1 : FVec Ideal S64x64 .f32) (b1 : FVec Ideal S64 .f32)
    (W2 : FVec Ideal S64x64 .f32) (b2 : FVec Ideal S64 .f32) : FVec Ideal S8192x64 .f32 :=
  linear (elu (linear x W1 b1)) W2 b2

/-- Each row's Euclidean norm, as an [8192, 1] column. -/
def rowNorm (z : FVec Ideal S8192x64 .f32) : FVec Ideal S8192x1 .f32 :=
  Host.sqrt (broadcastInDim S8192x1 ![0] bcast_S8192_S8192x1_0
    (Host.reduceAdd (mulf z z) (constant (F := Ideal) S_ .f32 0x00000000#32) reducesTo_S8192x64_S8192_d1 h_S_))

/-- Each row divided by the larger of its norm and 1e-12. -/
def l2n (z : FVec Ideal S8192x64 .f32) : FVec Ideal S8192x64 .f32 :=
  Host.divf z (broadcastInDim S8192x64 ![0, 1] bcast_S8192x1_S8192x64_0_1
    (maximumf (rowNorm z) (broadcastInDim S8192x1 ![] bcast_S_S8192x1 (constant (F := Ideal) S_ .f32 0x2B8CBCCC#32))))

/-- The normalised embedding of one input. -/
def zn (x : FVec Ideal S8192x64 .f32) (W1 : FVec Ideal S64x64 .f32) (b1 : FVec Ideal S64 .f32)
    (W2 : FVec Ideal S64x64 .f32) (b2 : FVec Ideal S64 .f32) : Emb :=
  l2n (proj x W1 b1 W2 b2)

end Cert.Contrast

end
-- ==== Proof.LibCallCasts.lean ====
/-
  The casts an inlined function call leaves around its values cancel.

  An operation of an inlined function call reads and writes its buffers through typed references: a value is carried
  to the buffer's own type when written (`toBuf`) and back when read (`ofBuf`), each a cast along the reference's
  type equation. So the fold of a line of such operations leaves one `ofBuf (toBuf v)` around every operand that
  another operation of the call produced. The two casts run along an equation and its inverse, so the pair is the
  identity; rewriting with that leaves the operations' plain composition.
-/
import Idealize.ShloMosaic.Lib.StableHlo

namespace Cert.LibCallCasts

open Idealize.ShloMosaic Idealize.ShloMosaic.StableHlo

variable {sig : RefSig} {Val : EltTy → Type}

/-- Contents carried to a buffer's type and back are the contents. -/
theorem ofBuf_toBuf {T : BufTy} (x : TRef sig T) (v : T.Contents Val) : x.ofBuf (x.toBuf v) = v := by
  unfold TRef.ofBuf TRef.toBuf
  simp only [cast_cast, cast_eq]

end Cert.LibCallCasts
-- ==== Proof.KerChain.lean ====
/-
  What the kernel program's region finds in its two embedding windows: the host operations before the region are the
  projection and the row normalisation, so the first window's array is zn of the first input and the second window's
  zn of the second, both over the shared weights; the mask's window holds the mask as launched.
-/
import proofs.«154604_j34720515621627_1_alg».proof.Proof.Gen.KernelIdeal.Frame.Runs
import proofs.«154604_j34720515621627_1_alg».proof.Proof.Chain
import proofs.«154604_j34720515621627_1_alg».proof.Proof.LibCallCasts

set_option maxRecDepth 16384

noncomputable section

namespace Cert.KernelIdeal.KerValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The normalised embedding of the first input, as a function of the launch memory. -/
def zA (c : Dev nD) : Cert.Contrast.Emb :=
  Cert.Contrast.zn (m ((c : Thread nD τ).loc main_arg0)) (m ((c : Thread nD τ).loc main_arg2)) (m ((c : Thread nD τ).loc main_arg3))
    (m ((c : Thread nD τ).loc main_arg4)) (m ((c : Thread nD τ).loc main_arg5))

/-- The normalised embedding of the second input. -/
def zB (c : Dev nD) : Cert.Contrast.Emb :=
  Cert.Contrast.zn (m ((c : Thread nD τ).loc main_arg1)) (m ((c : Thread nD τ).loc main_arg2)) (m ((c : Thread nD τ).loc main_arg3))
    (m ((c : Thread nD τ).loc main_arg4)) (m ((c : Thread nD τ).loc main_arg5))

set_option maxHeartbeats 4000000 in
/-- The first embedding window's array at the region's entry. -/
theorem V_v26 (c : Dev nD) : (V m c main_v26 : S8192x64.Idx → EReal) = zA m c := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [Cert.LibCallCasts.ofBuf_toBuf]
  rfl

set_option maxHeartbeats 4000000 in
/-- The second embedding window's array at the region's entry. -/
theorem V_v31 (c : Dev nD) : (V m c main_v31 : S8192x64.Idx → EReal) = zB m c := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [Cert.LibCallCasts.ofBuf_toBuf]
  rfl

end Cert.KernelIdeal.KerValue

end
-- ==== Proof.KerGrid.lean ====
/-
  The grid, point by point. Point t of the 16 x 8 grid is row block t / 8, column block t % 8. The body's two row
  offsets are 512 (t / 8) and 1024 (t % 8); the embedding windows stage their whole arrays at every point; the mask's
  window stages the 512 x 1024 block at (t / 8, t % 8); each output window's block is rows 512 (t / 8) … of its column.
  All of it is decided once over the 128 points. Then the three input blocks are read at an index.
-/
import proofs.«154604_j34720515621627_1_alg».proof.Proof.Gen.KernelIdeal.Frame
import proofs.«154604_j34720515621627_1_alg».proof.Proof.KerChain

set_option maxRecDepth 16384

noncomputable section

namespace Cert.KernelIdeal.KerValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The offsets and block indices of every point, decided over the grid. -/
theorem grid_facts : ∀ t : Fin cfg0.N,
    k0_off1 (grid0.coords t) (0 : Fin 2) = 512 * (t.val / 8) ∧ k0_off1 (grid0.coords t) (1 : Fin 2) = 0
    ∧ k0_off2 (grid0.coords t) (0 : Fin 2) = 1024 * (t.val % 8) ∧ k0_off2 (grid0.coords t) (1 : Fin 2) = 0
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-- A point's number is below 128. -/
theorem t_lt (t : Fin cfg0.N) : t.val < 128 := lt_of_lt_of_eq t.isLt (show cfg0.N = 128 from N_0)

/-- Row r of point t's row block is a row of the array. -/
theorem row_lt (t : Fin cfg0.N) (r : Fin 512) : 512 * (t.val / 8) + r.val < 8192 := by
  have := t_lt t; have := r.isLt; omega
/-- Column cc of point t's column block is a column of the array. -/
theorem col_lt' (t : Fin cfg0.N) (cc : Fin 1024) : 1024 * (t.val % 8) + cc.val < 8192 := by
  have := cc.isLt; omega

/-- The array row that row r of point t's row block is. -/
def rowOf (t : Fin cfg0.N) (r : Fin 512) : Fin 8192 := ⟨512 * (t.val / 8) + r.val, row_lt t r⟩
/-- The array column that column cc of point t's column block is. -/
def colOf (t : Fin cfg0.N) (cc : Fin 1024) : Fin 8192 := ⟨1024 * (t.val % 8) + cc.val, col_lt' t cc⟩

/-- The first embedding window's block at any point is the whole first embedding array. -/
theorem iblk0_apply (c : Dev nD) (t : Fin cfg0.N) (p : Fin 8192) (k : Fin 64) :
    iblk m c 0 t (ix2 p k) = zA m c (ix2 p k) := by
  obtain ⟨-, -, -, -, e0, e1, -⟩ := grid_facts t
  have e : ((cfg0.win 0).blk t).view.emb (ix2 p k) = ix2 p k := by
    funext a; apply Fin.ext
    match a with
    | ⟨0, _⟩ => show win0_0.index t (0 : Fin 2) * 8192 + 1 * p.val = p.val; omega
    | ⟨1, _⟩ => show win0_0.index t (1 : Fin 2) * 64 + 1 * k.val = k.val; omega
  show V m c main_v26 (((cfg0.win 0).blk t).view.emb (ix2 p k)) = _
  rw [e]
  exact congrFun (V_v26 m c) (ix2 p k)

/-- The second embedding window's block at any point is the whole second embedding array. -/
theorem iblk1_apply (c : Dev nD) (t : Fin cfg0.N) (p : Fin 8192) (k : Fin 64) :
    iblk m c 1 t (ix2 p k) = zB m c (ix2 p k) := by
  obtain ⟨-, -, -, -, -, -, e0, e1, -⟩ := grid_facts t
  have e : ((cfg0.win 1).blk t).view.emb (ix2 p k) = ix2 p k := by
    funext a; apply Fin.ext
    match a with
    | ⟨0, _⟩ => show win0_1.index t (0 : Fin 2) * 8192 + 1 * p.val = p.val; omega
    | ⟨1, _⟩ => show win0_1.index t (1 : Fin 2) * 64 + 1 * k.val = k.val; omega
  show V m c main_v31 (((cfg0.win 1).blk t).view.emb (ix2 p k)) = _
  rw [e]
  exact congrFun (V_v31 m c) (ix2 p k)

/-- The mask window's block at point t is the mask's rows and columns of that row and column block. -/
theorem iblk2_apply (c : Dev nD) (t : Fin cfg0.N) (r : Fin 512) (cc : Fin 1024) :
    iblk m c 2 t (ix2 r cc) = (m ((c : Thread nD τ).loc main_arg6) : S8192x8192.Idx → EReal) (ix2 (rowOf t r) (colOf t cc)) := by
  obtain ⟨-, -, -, -, -, -, -, -, e0, e1, -⟩ := grid_facts t
  have e : ((cfg0.win 2).blk t).view.emb (ix2 r cc) = ix2 (rowOf t r) (colOf t cc) := by
    funext a; apply Fin.ext
    match a with
    | ⟨0, _⟩ => show win0_2.index t (0 : Fin 2) * 512 + 1 * r.val = 512 * (t.val / 8) + r.val; omega
    | ⟨1, _⟩ => show win0_2.index t (1 : Fin 2) * 1024 + 1 * cc.val = 1024 * (t.val % 8) + cc.val; omega
  show V m c main_arg6 (((cfg0.win 2).blk t).view.emb (ix2 r cc)) = _
  rw [e, V_main_arg6]

end Cert.KernelIdeal.KerValue

end
-- ==== Proof.LibRowSum.lean ====
/-
  Row sums read at a row.

  A sum along the columns of an `[a, b]` array, read at row `p`, is the sum over `k : Fin b` of the entries `(p, k)`:
  for a kernel's lane reduction `vector.multi_reduction <add>` over axis 1 started from the zero word (`laneSum_row`),
  and for the host's `reduce` with `add` over axis 1, which puts its initial value in front (`hostSum_row`).
  Both at the ideal instance, where a float sum is the exact sum of extended reals in any order.
  `lift_row` is the index fact under both: over row `p`, the index with column `k` put back in is `(p, k)`.
-/
import Idealize.ShloMosaic.Lib.IdealHost

namespace Cert.LibRowSum

open Idealize.ShloMosaic Idealize.ShloMosaic.ValueIdx

/-- Over row `p` of an `[a, b]` array, the index whose dropped (column) coordinate is `k` is `(p, k)`. -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A kernel's f32 lane sum over the columns, started from the zero word, read at row `p`: the sum of the row. -/
theorem laneSum_row {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- The host's float sum over the columns from the initial array `init`, read at row `p`: the initial value plus
    the sum of the row. -/
theorem hostSum_row {a b : ℕ} {u : Shape} {φ : FTy} (x : FVec Ideal ⟨2, ![a, b]⟩ φ) (init : u.Idx → Ideal φ)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  refine (hostReduceAdd_apply x init h' hu (ix1 p)).trans ((Ideal.hostReduceAdd_single h' h x _ (ix1 p)).trans ?_)
  exact congrArg (init (Shape.Idx.first hu) + ·) (Finset.sum_congr rfl fun k _ => congrArg x (lift_row h p k))

end Cert.LibRowSum
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibMatmulCols.lean ====
/-
  A matrix product that contracts BOTH operands' leading axes, read at one entry.

  For dimension numbers that contract the left operand's first axis with the right operand's first axis — the left
  operand [n, a], the right operand [n, b], the result [a, b], no batch axes: the product of the left operand's
  transpose with the right operand, no transpose formed — the entry (p, q) of the product is the sum over k of
  left (k, p) times right (k, q).

  `matmul_zero_cols`   a `tpu.matmul` into the zero accumulator at the ideal instance.
-/
import Idealize.ShloMosaic.PureOps.Ideal.Laws
import Idealize.ShloMosaic.Lib.ValueIdx

noncomputable section

open scoped BigOperators

namespace Cert.Lib.MatmulCols

open Idealize.ShloMosaic Idealize.ShloMosaic.ValueIdx

variable {a n b : ℕ}

/-- A `tpu.matmul` of an [n, a] by an [n, b] operand contracting the two leading axes, into the zero accumulator, at
    the ideal instance, read at `(p, q)`: the sum over `k` of left `(k, p)` times right `(k, q)`. -/
theorem matmul_zero_cols {φ₁ φ₂ : FTy}
    (w : DotDims.WF ⟨2, ![n, a]⟩ ⟨2, ![n, b]⟩ ⟨2, ![a, b]⟩ [0] [0] [1] [1] [] [])
    (prec : Option ContractPrecision) (l : FVec Ideal ⟨2, ![n, a]⟩ φ₁) (r : FVec Ideal ⟨2, ![n, b]⟩ φ₂)
    (p : Fin a) (q : Fin b) :
    matmul (⟨[0], [0], [1], [1], [], [], w⟩ : DotDims ⟨2, ![n, a]⟩ ⟨2, ![n, b]⟩ ⟨2, ![a, b]⟩) prec l r
        (constant ⟨2, ![a, b]⟩ .f32 0x00000000#32) (ix2 p q)
      = ∑ k : Fin n, l (ix2 k p) * r (ix2 k q) := by
  refine (Ideal.matmul_constant_zero_apply (⟨[0], [0], [1], [1], [], [], w⟩ : DotDims ⟨2, ![n, a]⟩ ⟨2, ![n, b]⟩ ⟨2, ![a, b]⟩) prec l r (ix2 p q)).trans ?_
  rw [← Equiv.sum_comp (contrEquiv1 (⟨[0], [0], [1], [1], [], [], w⟩ : DotDims ⟨2, ![n, a]⟩ ⟨2, ![n, b]⟩ ⟨2, ![a, b]⟩) n rfl rfl).symm]
  refine Finset.sum_congr rfl fun k _ => ?_
  have c2 := contrEquiv1_symm_val
    (⟨[0], [0], [1], [1], [], [], w⟩ : DotDims ⟨2, ![n, a]⟩ ⟨2, ![n, b]⟩ ⟨2, ![a, b]⟩) n rfl rfl k
  have l2 : (⟨[0], [0], [1], [1], [], [], w⟩ : DotDims ⟨2, ![n, a]⟩ ⟨2, ![n, b]⟩ ⟨2, ![a, b]⟩).lhsIdx (ix2 p q)
      ((contrEquiv1 _ n rfl rfl).symm k) = ix2 k p := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![n, a]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

/-- The plain product of an [a, n] by an [n, b] operand as a `tpu.matmul` into the zero accumulator, at the ideal
    instance, read at `(p, q)`: the sum over `k` of left `(p, k)` times right `(k, q)`. -/
theorem matmul_zero_plain {φ₁ φ₂ : FTy}
    (w : DotDims.WF ⟨2, ![a, n]⟩ ⟨2, ![n, b]⟩ ⟨2, ![a, b]⟩ [1] [0] [0] [1] [] [])
    (prec : Option ContractPrecision) (l : FVec Ideal ⟨2, ![a, n]⟩ φ₁) (r : FVec Ideal ⟨2, ![n, b]⟩ φ₂)
    (p : Fin a) (q : Fin b) :
    matmul (⟨[1], [0], [0], [1], [], [], w⟩ : DotDims ⟨2, ![a, n]⟩ ⟨2, ![n, b]⟩ ⟨2, ![a, b]⟩) prec l r
        (constant ⟨2, ![a, b]⟩ .f32 0x00000000#32) (ix2 p q)
      = ∑ k : Fin n, l (ix2 p k) * r (ix2 k q) := by
  refine (Ideal.matmul_constant_zero_apply (⟨[1], [0], [0], [1], [], [], w⟩ : DotDims ⟨2, ![a, n]⟩ ⟨2, ![n, b]⟩ ⟨2, ![a, b]⟩) prec l r (ix2 p q)).trans ?_
  rw [← Equiv.sum_comp (contrEquiv1 (⟨[1], [0], [0], [1], [], [], w⟩ : DotDims ⟨2, ![a, n]⟩ ⟨2, ![n, b]⟩ ⟨2, ![a, b]⟩) n rfl rfl).symm]
  refine Finset.sum_congr rfl fun k _ => ?_
  have c2 := contrEquiv1_symm_val
    (⟨[1], [0], [0], [1], [], [], w⟩ : DotDims ⟨2, ![a, n]⟩ ⟨2, ![n, b]⟩ ⟨2, ![a, b]⟩) n rfl rfl k
  have l2 : (⟨[1], [0], [0], [1], [], [], w⟩ : DotDims ⟨2, ![a, n]⟩ ⟨2, ![n, b]⟩ ⟨2, ![a, b]⟩).lhsIdx (ix2 p q)
      ((contrEquiv1 _ n rfl rfl).symm k) = ix2 p k := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![a, n]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

end Cert.Lib.MatmulCols

end
-- ==== Proof.KerRead.lean ====
/-
  The kernel body's arithmetic read at an index, on the extended reals.

  Each value the body stores or carries is a pure function of the values read before it. At an index (r, c) of a
  512 × 1024 tile, or (r, u) of a 512 × 1 column:

  * the weight tile is exp ((∑ k, a (r, k) · b (c, k)) · c₀), c₀ the exact reciprocal of the temperature: the narrowing
    casts are the identity on the extended reals, the transposed right operand read at (k, c) is b (c, k), the product
    into the zero accumulator is the plain sum over k, and the named scalar denotes c₀;
  * an accumulator column is the previous column plus the row's sum of the tile (or of the tile times the mask tile);
  * a row's term is 0 - log (masked / (total + ε) + ε);
  * the initial columns are 0.
-/
import proofs.«154604_j34720515621627_1_alg».proof.Proof.Gen.KernelIdeal.Skeleton
import proofs.«154604_j34720515621627_1_alg».proof.Proof.Spec
import proofs.«154604_j34720515621627_1_alg».proof.Proof.LibRowSum
import proofs.«154604_j34720515621627_1_alg».proof.Proof.LibColumnCast
import proofs.«154604_j34720515621627_1_alg».proof.Proof.LibMatmulCols
import Idealize.ShloMosaic.Lib.ValueLayout
import Idealize.ShloMosaic.Lib.Pipeline.Value
import Idealize.ShloMosaic.PureOps.IdealRules

noncomputable section

open scoped BigOperators
open Idealize.ShloMosaic Idealize.ShloMosaic.ValueIdx Cert.KernelIdeal Cert.KernelIdeal.Gen Cert.KernelIdeal.Facts₀
  Cert.KernelIdeal.Facts

namespace Cert.KernelIdeal.KerRead

/-! ## Pieces -/

/-- The named scalar the body multiplies by denotes the exact reciprocal of the temperature. -/
theorem inv_tau_named :
    Named.named (F := Ideal) Cert.KernelIdeal.κ "inv_tau" (φ := .f32) 0x3FA00000#32 = Cert.Contrast.invTau :=
  IdealRules.named_const.ideal_named_scalar _ _ _ _ rfl

/-- A row's lane sum, stood up as a column, read at (r, u): the sum of row r. -/
theorem colSum_apply (w : FVec Ideal S512x1024 .f32) (r : Fin 512) (u : Fin 1) :
    shapeCast S512x1 (multiReduction .add [1] S512 w 0x00000000#32 Facts₀.reduces_S512x1024_S512 (.inl rfl) rfl)
        Facts₀.shapeCasts_S512_S512x1 (ix2 r u)
      = ∑ c : Fin 1024, w (ix2 r c) :=
  (Cert.LibColumnCast.shapeCast_a_a1_apply _ Facts₀.shapeCasts_S512_S512x1 r u).trans
    (Cert.LibRowSum.laneSum_row w Facts₀.reduces_S512x1024_S512 (.inl rfl) rfl r)

/-- The product of a [512, 64] tile with the transpose of a [1024, 64] tile, into the zero accumulator, at (r, c):
    the sum over k of a (r, k) · b (c, k). The narrowing casts are the identity on the extended reals. -/
theorem dot_apply (a : FVec Ideal S512x64 .f32) (b : FVec Ideal S1024x64 .f32) (r : Fin 512) (c : Fin 1024) :
    matmul dot_S512x64_S64x1024_S512x1024_1_0_0_1_n_n none (truncf .bf16 a Facts₀.bitsLt_bf16_f32)
        (transpose S64x1024 [1, 0] (truncf .bf16 b Facts₀.bitsLt_bf16_f32) Facts₀.transposes_S1024x64_p1_0_S64x1024)
        (constant S512x1024 .f32 0x00000000#32) (ix2 r c)
      = ∑ k : Fin 64, a (ix2 r k) * b (ix2 c k) := by
  refine (Cert.Lib.MatmulCols.matmul_zero_plain Facts₀.dot_S512x64_S64x1024_S512x1024_1_0_0_1_n_n_wf none _ _ r c).trans ?_
  refine Finset.sum_congr rfl fun k _ => ?_
  exact congrArg (a (ix2 r k) * ·)
    (transpose_ix2_apply (truncf .bf16 b Facts₀.bitsLt_bf16_f32) Facts₀.transposes_S1024x64_p1_0_S64x1024 k c)

/-! ## The weight tiles -/

theorem pay11_apply (v8 : FVec Ideal S512x64 .f32) (v17 : FVec Ideal S1024x64 .f32) (r : Fin 512) (c : Fin 1024) :
    k0_pay11 (F := Ideal) v8 v17 (ix2 r c)
      = Ideal.exp ((∑ k : Fin 64, v8 (ix2 r k) * v17 (ix2 c k)) * Cert.Contrast.invTau) := by
  unfold k0_pay11
  rw [shapeCast_self, shapeCast_self]
  refine (congrArg (fun s => Ideal.exp (_ * s)) inv_tau_named).trans ?_
  exact congrArg (fun s => Ideal.exp (s * Cert.Contrast.invTau)) (dot_apply v8 v17 r c)

theorem pay12_apply (v11 : FVec Ideal S512x64 .f32) (v14 : FVec Ideal S1024x64 .f32) (r : Fin 512) (c : Fin 1024) :
    k0_pay12 (F := Ideal) v11 v14 (ix2 r c)
      = Ideal.exp ((∑ k : Fin 64, v11 (ix2 r k) * v14 (ix2 c k)) * Cert.Contrast.invTau) := by
  unfold k0_pay12
  rw [shapeCast_self, shapeCast_self]
  refine (congrArg (fun s => Ideal.exp (_ * s)) inv_tau_named).trans ?_
  exact congrArg (fun s => Ideal.exp (s * Cert.Contrast.invTau)) (dot_apply v11 v14 r c)

/-! ## The accumulator columns -/

theorem pay13_apply (v8 : FVec Ideal S512x64 .f32) (v17 : FVec Ideal S1024x64 .f32) (v34 : FVec Ideal S512x1 .f32)
    (r : Fin 512) (u : Fin 1) :
    k0_pay13 (F := Ideal) v8 v17 v34 (ix2 r u)
      = v34 (ix2 r u) + ∑ c : Fin 1024, k0_pay11 (F := Ideal) v8 v17 (ix2 r c) := by
  unfold k0_pay13
  exact congrArg (v34 (ix2 r u) + ·) (colSum_apply (k0_pay11 (F := Ideal) v8 v17) r u)

theorem pay1_eq (v : FVec Ideal S512x1 .f32) : k0_pay1 (F := Ideal) v = v := by
  unfold k0_pay1
  exact shapeCast_self v Facts₀.shapeCasts_S512x1_S512x1

theorem pay2_apply (x2 w : FVec Ideal S512x1024 .f32) (prev : FVec Ideal S512x1 .f32) (r : Fin 512) (u : Fin 1) :
    k0_pay2 (F := Ideal) x2 w prev (ix2 r u) = prev (ix2 r u) + ∑ c : Fin 1024, w (ix2 r c) * x2 (ix2 r c) := by
  unfold k0_pay2
  refine (congrFun (shapeCast_self _ Facts₀.shapeCasts_S512x1_S512x1) (ix2 r u)).trans ?_
  exact congrArg (prev (ix2 r u) + ·) (colSum_apply (mulf w x2) r u)

theorem pay3_apply (w : FVec Ideal S512x1024 .f32) (prev : FVec Ideal S512x1 .f32) (r : Fin 512) (u : Fin 1) :
    k0_pay3 (F := Ideal) w prev (ix2 r u) = prev (ix2 r u) + ∑ c : Fin 1024, w (ix2 r c) := by
  unfold k0_pay3
  refine (congrFun (shapeCast_self _ Facts₀.shapeCasts_S512x1_S512x1) (ix2 r u)).trans ?_
  exact congrArg (prev (ix2 r u) + ·) (colSum_apply w r u)

theorem pay4_apply (x2 w : FVec Ideal S512x1024 .f32) (prev : FVec Ideal S512x1 .f32) (r : Fin 512) (u : Fin 1) :
    k0_pay4 (F := Ideal) x2 w prev (ix2 r u) = prev (ix2 r u) + ∑ c : Fin 1024, w (ix2 r c) * x2 (ix2 r c) := by
  unfold k0_pay4
  refine (congrFun (shapeCast_self _ Facts₀.shapeCasts_S512x1_S512x1) (ix2 r u)).trans ?_
  exact congrArg (prev (ix2 r u) + ·) (colSum_apply (mulf w x2) r u)

/-! ## The rows' terms -/

theorem pay5_apply (pm tot : FVec Ideal S512x1 .f32) (r : Fin 512) (u : Fin 1) :
    k0_pay5 (F := Ideal) pm tot (ix2 r u)
      = 0 - Ideal.log (Ideal.div (pm (ix2 r u)) (tot (ix2 r u) + Cert.Contrast.eps) + Cert.Contrast.eps) := by
  unfold k0_pay5
  exact congrArg (· - Ideal.log (Ideal.div (pm (ix2 r u)) (tot (ix2 r u) + Cert.Contrast.eps) + Cert.Contrast.eps))
    Ideal.ofBits_zero_f32

theorem pay6_apply (pm tot : FVec Ideal S512x1 .f32) (r : Fin 512) (u : Fin 1) :
    k0_pay6 (F := Ideal) pm tot (ix2 r u)
      = 0 - Ideal.log (Ideal.div (pm (ix2 r u)) (tot (ix2 r u) + Cert.Contrast.eps) + Cert.Contrast.eps) := by
  unfold k0_pay6
  exact congrArg (· - Ideal.log (Ideal.div (pm (ix2 r u)) (tot (ix2 r u) + Cert.Contrast.eps) + Cert.Contrast.eps))
    Ideal.ofBits_zero_f32

/-! ## The initial columns -/

theorem pay7_apply (r : Fin 512) (u : Fin 1) : k0_pay7 (F := Ideal) (ix2 r u) = 0 := by
  unfold k0_pay7
  exact (congrFun (shapeCast_self _ Facts₀.shapeCasts_S512x1_S512x1) (ix2 r u)).trans Ideal.ofBits_zero_f32

theorem pay8_apply (r : Fin 512) (u : Fin 1) : k0_pay8 (F := Ideal) (ix2 r u) = 0 := by
  unfold k0_pay8
  exact (congrFun (shapeCast_self _ Facts₀.shapeCasts_S512x1_S512x1) (ix2 r u)).trans Ideal.ofBits_zero_f32

theorem pay9_apply (r : Fin 512) (u : Fin 1) : k0_pay9 (F := Ideal) (ix2 r u) = 0 := by
  unfold k0_pay9
  exact (congrFun (shapeCast_self _ Facts₀.shapeCasts_S512x1_S512x1) (ix2 r u)).trans Ideal.ofBits_zero_f32

theorem pay10_apply (r : Fin 512) (u : Fin 1) : k0_pay10 (F := Ideal) (ix2 r u) = 0 := by
  unfold k0_pay10
  exact (congrFun (shapeCast_self _ Facts₀.shapeCasts_S512x1_S512x1) (ix2 r u)).trans Ideal.ofBits_zero_f32

end Cert.KernelIdeal.KerRead

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.Blocks.lean ====
/-
  A row of 8192 entries summed in eight consecutive blocks of 1024, the way a running total that is advanced once per
  column block sees it: the total after n blocks, its step, and that after all eight blocks it is the whole row's sum.
  Only commutativity and associativity of the extended reals' addition are used, so the entries may be infinite.
-/
import Mathlib
import proofs.«154604_j34720515621627_1_alg».proof.Proof.LibSumChunks

noncomputable section

open scoped BigOperators

namespace Cert.Contrast

/-- Column c of block b is a column of the row. -/
theorem col_lt (b : Fin 8) (c : Fin 1024) : c.val + 1024 * b.val < 8192 := by
  have hb := b.isLt; have hc := c.isLt; omega

/-- The sum of the row's entries in column block b. -/
def blockSum (f : Fin 8192 → EReal) (b : Fin 8) : EReal := ∑ c : Fin 1024, f ⟨c.val + 1024 * b.val, col_lt b c⟩

/-- The block's sum for a block number given as a natural number (0 past the last block). -/
def blockSumN (f : Fin 8192 → EReal) (b : ℕ) : EReal := if h : b < 8 then blockSum f ⟨b, h⟩ else 0

/-- The running total after the first n column blocks. -/
def acc (f : Fin 8192 → EReal) (n : ℕ) : EReal := ∑ b ∈ Finset.range n, blockSumN f b

theorem acc_zero (f : Fin 8192 → EReal) : acc f 0 = 0 := Finset.sum_range_zero _

/-- One more block: the total grows by that block's sum. -/
theorem acc_succ (f : Fin 8192 → EReal) (n : ℕ) (h : n < 8) : acc f (n + 1) = acc f n + blockSum f ⟨n, h⟩ := by
  unfold acc
  rw [Finset.sum_range_succ]
  unfold blockSumN
  rw [dif_pos h]

/-- The first block alone. -/
theorem acc_one (f : Fin 8192 → EReal) : acc f 1 = blockSum f ⟨0, by omega⟩ := by
  rw [acc_succ f 0 (by omega), acc_zero, zero_add]

/-- After all eight blocks the total is the whole row's sum. -/
theorem acc_eight (f : Fin 8192 → EReal) : acc f 8 = ∑ j : Fin 8192, f j := by
  unfold acc
  rw [Cert.Lib.SumChunks.sum_chunks 8 1024 (by norm_num) f, Finset.sum_range]
  refine Finset.sum_congr rfl fun b _ => ?_
  unfold blockSumN
  rw [dif_pos b.isLt]
  rfl

end Cert.Contrast

end
-- ==== Proof.KerStep.lean ====
/-
  One grid point's contribution. At point t the body's first block of weights, read at (r, cc), is the weight of array
  row 512 (t / 8) + r against array row 1024 (t % 8) + cc of the other embedding; the second block is the same with the
  two embeddings exchanged. Hence each of the four running totals, whatever it held before, is advanced at row r by the
  sum of one column block of that row: of the weights, or of the weights times the mask.
-/
import proofs.«154604_j34720515621627_1_alg».proof.Proof.KerPieces
import proofs.«154604_j34720515621627_1_alg».proof.Proof.KerGrid
import proofs.«154604_j34720515621627_1_alg».proof.Proof.KerRead
import proofs.«154604_j34720515621627_1_alg».proof.Proof.Blocks

set_option maxRecDepth 16384

noncomputable section

open scoped BigOperators

namespace Cert.KernelIdeal.KerValue

open Idealize.ShloMosaic Idealize.ShloMosaic.TcCoe Idealize.ShloMosaic.ValueIdx Idealize.SL.Sem
open Cert.KernelIdeal Cert.KernelIdeal.Gen Cert.KernelIdeal.KerRead Cert.Contrast

variable (m : (ℓ : Loc nD τ sig) → Buf (Elt Ideal) ℓ)

/-- The mask, as launched. -/
def zP (c : Dev nD) : Mask := m ((c : Thread nD τ).loc main_arg6)

/-- The column block of point t. -/
def blk8 (t : Fin cfg0.N) : Fin 8 := ⟨t.val % 8, Nat.mod_lt _ (by norm_num)⟩

/-- The 512 rows loaded at the row block's offset are the array's rows 512 (t / 8) + r. -/
theorem rowsI_apply (t : Fin cfg0.N) (x : Vec Ideal S8192x64 .f32) (r : Fin 512) (k : Fin 64) :
    rowsI (grid0.coords t) x (ix2 r k) = x (ix2 (rowOf t r) k) := by
  obtain ⟨e0, e1, -⟩ := grid_facts t
  unfold rowsI
  show x ((Rect.unit (s := S8192x64) (k0_off1 (grid0.coords t)) S512x64.size (k0_off1_inb (grid0.coords t))).idx (ix2 r k)) = _
  refine congrArg x ?_
  funext a; apply Fin.ext
  match a with
  | ⟨0, _⟩ => show k0_off1 (grid0.coords t) (0 : Fin 2) + 1 * r.val = 512 * (t.val / 8) + r.val; omega
  | ⟨1, _⟩ => show k0_off1 (grid0.coords t) (1 : Fin 2) + 1 * k.val = k.val; omega

/-- The 1024 rows loaded at the column block's offset are the array's rows 1024 (t % 8) + cc. -/
theorem rowsJ_apply (t : Fin cfg0.N) (x : Vec Ideal S8192x64 .f32) (cc : Fin 1024) (k : Fin 64) :
    rowsJ (grid0.coords t) x (ix2 cc k) = x (ix2 (colOf t cc) k) := by
  obtain ⟨-, -, e0, e1, -⟩ := grid_facts t
  unfold rowsJ
  show x ((Rect.unit (s := S8192x64) (k0_off2 (grid0.coords t)) S1024x64.size (k0_off2_inb (grid0.coords t))).idx (ix2 cc k)) = _
  refine congrArg x ?_
  funext a; apply Fin.ext
  match a with
  | ⟨0, _⟩ => show k0_off2 (grid0.coords t) (0 : Fin 2) + 1 * cc.val = 1024 * (t.val % 8) + cc.val; omega
  | ⟨1, _⟩ => show k0_off2 (grid0.coords t) (1 : Fin 2) + 1 * k.val = k.val; omega

/-- The first block of weights at (r, cc): the first embedding's row against the second's. -/
theorem w1_apply (c : Dev nD) (t : Fin cfg0.N) (r : Fin 512) (cc : Fin 1024) :
    k0_pay11 (F := Ideal) (rowsI (grid0.coords t) (iblk m c 0 t)) (rowsJ (grid0.coords t) (iblk m c 1 t)) (ix2 r cc)
      = wK (zA m c) (zB m c) (rowOf t r) (colOf t cc) := by
  refine (pay11_apply _ _ r cc).trans ?_
  unfold wK dotRows
  refine congrArg (fun s => Ideal.exp (s * invTau)) (Finset.sum_congr rfl fun k _ => ?_)
  rw [rowsI_apply, rowsJ_apply, iblk0_apply, iblk1_apply]

/-- The second block of weights at (r, cc): the second embedding's row against the first's. -/
theorem w2_apply (c : Dev nD) (t : Fin cfg0.N) (r : Fin 512) (cc : Fin 1024) :
    k0_pay12 (F := Ideal) (rowsI (grid0.coords t) (iblk m c 1 t)) (rowsJ (grid0.coords t) (iblk m c 0 t)) (ix2 r cc)
      = wK (zB m c) (zA m c) (rowOf t r) (colOf t cc) := by
  refine (pay12_apply _ _ r cc).trans ?_
  unfold wK dotRows
  refine congrArg (fun s => Ideal.exp (s * invTau)) (Finset.sum_congr rfl fun k _ => ?_)
  rw [rowsI_apply, rowsJ_apply, iblk1_apply, iblk0_apply]

/-- Column cc of point t's column block, as the block sum spells it. -/
theorem colOf_eq (t : Fin cfg0.N) (cc : Fin 1024) : colOf t cc = ⟨cc.val + 1024 * (blk8 t).val, col_lt (blk8 t) cc⟩ :=
  Fin.ext (Nat.add_comm _ _)

/-- The first direction's row totals advance by the block's sum of weights. -/
theorem advT1_block (c : Dev nD) (t : Fin cfg0.N) (pv : Vec Ideal S512x1 .f32) (r : Fin 512) :
    advT1 (grid0.coords t) (iblk m c 0 t) (iblk m c 1 t) pv (ix2 r 0)
      = pv (ix2 r 0) + blockSum (fun j => wK (zA m c) (zB m c) (rowOf t r) j) (blk8 t) := by
  unfold advT1
  rw [pay1_eq]
  refine (pay13_apply _ _ pv r 0).trans (congrArg (pv (ix2 r 0) + ·) ?_)
  unfold blockSum
  refine Finset.sum_congr rfl fun cc _ => ?_
  rw [w1_apply, colOf_eq]

/-- The first direction's masked totals advance by the block's sum of weights times mask. -/
theorem advM1_block (c : Dev nD) (t : Fin cfg0.N) (pv : Vec Ideal S512x1 .f32) (r : Fin 512) :
    advM1 (grid0.coords t) (iblk m c 0 t) (iblk m c 1 t) (iblk m c 2 t) pv (ix2 r 0)
      = pv (ix2 r 0) + blockSum (fun j => wK (zA m c) (zB m c) (rowOf t r) j * zP m c (ix2 (rowOf t r) j)) (blk8 t) := by
  unfold advM1
  refine (pay2_apply _ _ pv r 0).trans (congrArg (pv (ix2 r 0) + ·) ?_)
  unfold blockSum
  refine Finset.sum_congr rfl fun cc _ => ?_
  rw [w1_apply, iblk2_apply, colOf_eq]
  rfl

/-- The second direction's row totals advance by the block's sum of weights. -/
theorem advT2_block (c : Dev nD) (t : Fin cfg0.N) (pv : Vec Ideal S512x1 .f32) (r : Fin 512) :
    advT2 (grid0.coords t) (iblk m c 0 t) (iblk m c 1 t) pv (ix2 r 0)
      = pv (ix2 r 0) + blockSum (fun j => wK (zB m c) (zA m c) (rowOf t r) j) (blk8 t) := by
  unfold advT2
  refine (pay3_apply _ pv r 0).trans (congrArg (pv (ix2 r 0) + ·) ?_)
  unfold blockSum
  refine Finset.sum_congr rfl fun cc _ => ?_
  rw [w2_apply, colOf_eq]

/-- The second direction's masked totals advance by the block's sum of weights times mask. -/
theorem advM2_block (c : Dev nD) (t : Fin cfg0.N) (pv : Vec Ideal S512x1 .f32) (r : Fin 512) :
    advM2 (grid0.coords t) (iblk m c 0 t) (iblk m c 1 t) (iblk m c 2 t) pv (ix2 r 0)
      = pv (ix2 r 0) + blockSum (fun j => wK (zB m c) (zA m c) (rowOf t r) j * zP m c (ix2 (rowOf t r) j)) (blk8 t) := by
  unfold advM2
  refine (pay4_apply _ _ pv r 0).trans (congrArg (pv (ix2 r 0) + ·) ?_)
  unfold blockSum
  refine Finset.sum_congr rfl fun cc _ => ?_
  rw [w2_apply, iblk2_apply, colOf_eq]
  rfl

end Cert.KernelIdeal.KerValue

end
-- ==== Proof.KerInv.lean ====
/-
  The accumulation. After grid point t (row block t / 8, column block t % 8) each of the four running totals holds, at
  row r, the sum over the first t % 8 + 1 column blocks of array row 512 (t / 8) + r: of the weights (first and second
  direction) and of the weights times the mask. At a row block's first point the totals start from the zeros stored just
  before; at any other point they advance what the point before left, which belongs to the same row block. At the last
  column block all eight blocks are in, the totals are the whole row's sums, and the two outputs are the rows' terms.
-/
import proofs.«154604_j34720515621627_1_alg».proof.Proof.KerStep

set_option maxRecDepth 16384

noncomputable section

open scoped BigOperators

namespace Cert.KernelIdeal.KerValue

open Idealize.ShloMosaic Idealize.ShloMosaic.TcCoe Idealize.ShloMosaic.ValueIdx Idealize.SL.Sem
open Cert.KernelIdeal Cert.KernelIdeal.Gen Cert.KernelIdeal.KerRead Cert.Contrast

variable (m : (ℓ : Loc nD τ sig) → Buf (Elt Ideal) ℓ)

/-- The four families summed along a row: the two directions' weights, plain and times the mask. -/
def fT1 (c : Dev nD) (i : Fin 8192) : Fin 8192 → EReal := fun j => wK (zA m c) (zB m c) i j
def fM1 (c : Dev nD) (i : Fin 8192) : Fin 8192 → EReal := fun j => wK (zA m c) (zB m c) i j * zP m c (ix2 i j)
def fT2 (c : Dev nD) (i : Fin 8192) : Fin 8192 → EReal := fun j => wK (zB m c) (zA m c) i j
def fM2 (c : Dev nD) (i : Fin 8192) : Fin 8192 → EReal := fun j => wK (zB m c) (zA m c) i j * zP m c (ix2 i j)

/-- After point t the four totals hold the first t % 8 + 1 blocks of their rows. -/
def Inv (c : Dev nD) (t : Fin cfg0.N) : Prop := ∀ r : Fin 512,
  (outsAt0 m c t.val t.isLt).2.2.1 (ix2 r 0) = acc (fT1 m c (rowOf t r)) (t.val % 8 + 1)
  ∧ (outsAt0 m c t.val t.isLt).2.2.2.1 (ix2 r 0) = acc (fM1 m c (rowOf t r)) (t.val % 8 + 1)
  ∧ (outsAt0 m c t.val t.isLt).2.2.2.2.1 (ix2 r 0) = acc (fT2 m c (rowOf t r)) (t.val % 8 + 1)
  ∧ (outsAt0 m c t.val t.isLt).2.2.2.2.2 (ix2 r 0) = acc (fM2 m c (rowOf t r)) (t.val % 8 + 1)

/-- A row block's first point: the totals are the first block alone. -/
theorem inv_first (c : Dev nD) (t : Fin cfg0.N) (h0 : t.val % 8 = 0) : Inv m c t := by
  have h1 : ¬t.val % 8 = 7 := by omega
  have hb : blk8 t = ⟨0, by omega⟩ := Fin.ext h0
  intro r
  rw [outsAt0_A m c t h0 h1]
  dsimp only
  rw [sout0_A_0_eq, sout0_A_1_eq, sout0_A_2_eq, sout0_A_3_eq, advT1_block, advM1_block, advT2_block, advM2_block,
    pay7_apply, pay8_apply, pay9_apply, pay10_apply, h0, hb]
  simp only [zero_add, acc_one]
  exact ⟨rfl, rfl, rfl, rfl⟩

/-- The point before t, when t is not a row block's first point. -/
abbrev before (t : Fin cfg0.N) : Fin cfg0.N := ⟨t.val - 1, Nat.lt_of_le_of_lt (Nat.sub_le _ _) t.isLt⟩

/-- The point before belongs to the same row block. -/
theorem rowOf_before (t : Fin cfg0.N) (h0 : ¬t.val % 8 = 0) (r : Fin 512) : rowOf (before t) r = rowOf t r :=
  Fin.ext (by show 512 * ((t.val - 1) / 8) + r.val = 512 * (t.val / 8) + r.val; omega)

/-- Any later point of a row block: the totals advance by this point's block. -/
theorem inv_next (c : Dev nD) (t : Fin cfg0.N) (h0 : ¬t.val % 8 = 0) (ih : Inv m c (before t)) : Inv m c t := by
  intro r
  obtain ⟨i0, i1, i2, i3⟩ := ih r
  rw [rowOf_before t h0 r] at i0 i1 i2 i3
  have hk : (before t).val % 8 + 1 = t.val % 8 := by show (t.val - 1) % 8 + 1 = t.val % 8; omega
  rw [hk] at i0 i1 i2 i3
  have hlt : t.val % 8 < 8 := Nat.mod_lt _ (by norm_num)
  by_cases h1 : t.val % 8 = 7
  · rw [outsAt0_C m c t h0 h1]
    dsimp only
    rw [sout0_C_0_eq, sout0_C_1_eq, sout0_C_2_eq, sout0_C_3_eq, advT1_block, advM1_block, advT2_block, advM2_block,
      i0, i1, i2, i3]
    exact ⟨(acc_succ _ _ hlt).symm, (acc_succ _ _ hlt).symm, (acc_succ _ _ hlt).symm, (acc_succ _ _ hlt).symm⟩
  · rw [outsAt0_B m c t h0 h1]
    dsimp only
    rw [sout0_B_0_eq, sout0_B_1_eq, sout0_B_2_eq, sout0_B_3_eq, advT1_block, advM1_block, advT2_block, advM2_block,
      i0, i1, i2, i3]
    exact ⟨(acc_succ _ _ hlt).symm, (acc_succ _ _ hlt).symm, (acc_succ _ _ hlt).symm, (acc_succ _ _ hlt).symm⟩

/-- The accumulation holds after every point. -/
theorem inv_all (c : Dev nD) : ∀ (n : ℕ) (hn : n < cfg0.N), Inv m c ⟨n, hn⟩
  | 0, hn => inv_first m c ⟨0, hn⟩ (Nat.zero_mod 8)
  | n + 1, hn => by
    by_cases h0 : (n + 1) % 8 = 0
    · exact inv_first m c ⟨n + 1, hn⟩ h0
    · exact inv_next m c ⟨n + 1, hn⟩ h0 (inv_all c n (Nat.lt_of_succ_lt hn))

/-- At a row block's last point the first output is the first direction's row term, row by row. -/
theorem out3_last (c : Dev nD) (t : Fin cfg0.N) (h1 : t.val % 8 = 7) (r : Fin 512) :
    (outsAt0 m c t.val t.isLt).1 (ix2 r 0) = rowK (zA m c) (zB m c) (zP m c) (rowOf t r) := by
  have h0 : ¬t.val % 8 = 0 := by omega
  obtain ⟨i0, i1, -, -⟩ := inv_all m c (before t).val (before t).isLt r
  rw [rowOf_before t h0 r] at i0 i1
  have hk : (before t).val % 8 + 1 = 7 := by show (t.val - 1) % 8 + 1 = 7; omega
  rw [hk] at i0 i1
  have hb : blk8 t = ⟨7, by omega⟩ := Fin.ext h1
  rw [outsAt0_C m c t h0 h1]
  dsimp only
  rw [out0_C_3_eq]
  refine (pay5_apply _ _ r 0).trans ?_
  rw [advM1_block, advT1_block, i0, i1, hb]
  have eM : acc (fM1 m c (rowOf t r)) 7 + blockSum (fun j => wK (zA m c) (zB m c) (rowOf t r) j * zP m c (ix2 (rowOf t r) j)) ⟨7, by omega⟩
      = ∑ j : Fin 8192, fM1 m c (rowOf t r) j := (acc_succ (fM1 m c (rowOf t r)) 7 (by omega)).symm.trans (acc_eight _)
  have eT : acc (fT1 m c (rowOf t r)) 7 + blockSum (fun j => wK (zA m c) (zB m c) (rowOf t r) j) ⟨7, by omega⟩
      = ∑ j : Fin 8192, fT1 m c (rowOf t r) j := (acc_succ (fT1 m c (rowOf t r)) 7 (by omega)).symm.trans (acc_eight _)
  rw [eM, eT]
  rfl

/-- At a row block's last point the second output is the second direction's row term. -/
theorem out4_last (c : Dev nD) (t : Fin cfg0.N) (h1 : t.val % 8 = 7) (r : Fin 512) :
    (outsAt0 m c t.val t.isLt).2.1 (ix2 r 0) = rowK (zB m c) (zA m c) (zP m c) (rowOf t r) := by
  have h0 : ¬t.val % 8 = 0 := by omega
  obtain ⟨-, -, i2, i3⟩ := inv_all m c (before t).val (before t).isLt r
  rw [rowOf_before t h0 r] at i2 i3
  have hk : (before t).val % 8 + 1 = 7 := by show (t.val - 1) % 8 + 1 = 7; omega
  rw [hk] at i2 i3
  have hb : blk8 t = ⟨7, by omega⟩ := Fin.ext h1
  rw [outsAt0_C m c t h0 h1]
  dsimp only
  rw [out0_C_4_eq]
  refine (pay6_apply _ _ r 0).trans ?_
  rw [advM2_block, advT2_block, i2, i3, hb]
  have eM : acc (fM2 m c (rowOf t r)) 7 + blockSum (fun j => wK (zB m c) (zA m c) (rowOf t r) j * zP m c (ix2 (rowOf t r) j)) ⟨7, by omega⟩
      = ∑ j : Fin 8192, fM2 m c (rowOf t r) j := (acc_succ (fM2 m c (rowOf t r)) 7 (by omega)).symm.trans (acc_eight _)
  have eT : acc (fT2 m c (rowOf t r)) 7 + blockSum (fun j => wK (zB m c) (zA m c) (rowOf t r) j) ⟨7, by omega⟩
      = ∑ j : Fin 8192, fT2 m c (rowOf t r) j := (acc_succ (fT2 m c (rowOf t r)) 7 (by omega)).symm.trans (acc_eight _)
  rw [eM, eT]
  rfl

end Cert.KernelIdeal.KerValue

end
-- ==== Proof.KerFinal.lean ====
/-
  The kernel program's result. Each output window writes its [512, 1] block back only at a row block's last column
  block, and there the block holds the rows' terms (the accumulation). Those sixteen write-backs tile the [8192, 1]
  column, so after the region the first column holds the first direction's row terms and the second the second
  direction's. The host operations after the region sum each column, divide by 8192, weight each mean by one half and
  add: that is the accumulated form of the loss.
-/
import proofs.«154604_j34720515621627_1_alg».proof.Proof.KerInv
import Idealize.ShloMosaic.Lib.StableHlo.Run
import Idealize.ShloMosaic.Lib.IdealHost
import Idealize.ShloMosaic.PureOps.Ideal.Laws

set_option maxRecDepth 16384

noncomputable section

open scoped BigOperators

namespace Cert.KernelIdeal.KerValue

open Idealize.ShloMosaic Idealize.ShloMosaic.TcCoe Idealize.ShloMosaic.ValueIdx Idealize.SL.Sem Idealize.ShloMosaic.StableHlo
open Cert.KernelIdeal Cert.KernelIdeal.Gen Cert.KernelIdeal.Facts₀ Cert.KernelIdeal.Facts Cert.Contrast

variable (m : (ℓ : Loc nD τ sig) → Buf (Elt Ideal) ℓ) (ρ : Dev nD → PrngReg)

/-- The first output column after the run: the first direction's row terms. -/
def G3 (c : Dev nD) : S8192x1.Idx → EReal := fun idx => rowK (zA m c) (zB m c) (zP m c) (idx 0)
/-- The second output column after the run: the second direction's row terms. -/
def G4 (c : Dev nD) : S8192x1.Idx → EReal := fun idx => rowK (zB m c) (zA m c) (zP m c) (idx 0)

/-- The output windows write back exactly at a row block's last column block. -/
theorem flush_facts : ∀ t : Fin cfg0.N, ((cfg0.win 3).flush t = true ↔ t.val % 8 = 7) ∧ ((cfg0.win 4).flush t = true ↔ t.val % 8 = 7) :=
  (by decide +kernel : ∀ t : Fin grid0.N, _)

/-- What a last point writes back into the first column is its block of G3. -/
theorem flushed3_eq (c : Dev nD) (t : Fin cfg0.N) (hf : (cfg0.win 3).flush t = true) :
    (dats m 0 c).flushed 3 t = ((cfg0.win 3).blk t).view.read (Elt Ideal) (G3 m c) := by
  have h1 : t.val % 8 = 7 := (flush_facts t).1.mp hf
  obtain ⟨-, -, -, -, -, -, -, -, -, -, e0, e1, -⟩ := grid_facts t
  show (cfg0.win 3).cut (grid0.coords t) ((dats m 0 c).after 3 t) = _
  rw [after0_3]
  funext j
  obtain ⟨r, u, rfl⟩ : ∃ (r : Fin 512) (u : Fin 1), j = ix2 r u := ⟨j 0, j 1, eq_ix2 j⟩
  obtain rfl : u = 0 := Subsingleton.elim _ _
  show (outsAt0 m c t.val t.isLt).1 (ix2 r 0) = G3 m c (((cfg0.win 3).blk t).view.emb (ix2 r 0))
  rw [out3_last m c t h1 r]
  unfold G3
  refine congrArg (rowK (zA m c) (zB m c) (zP m c)) (Fin.ext ?_)
  show 512 * (t.val / 8) + r.val = win0_3.index t (0 : Fin 2) * 512 + 1 * r.val
  omega

/-- What a last point writes back into the second column is its block of G4. -/
theorem flushed4_eq (c : Dev nD) (t : Fin cfg0.N) (hf : (cfg0.win 4).flush t = true) :
    (dats m 0 c).flushed 4 t = ((cfg0.win 4).blk t).view.read (Elt Ideal) (G4 m c) := by
  have h1 : t.val % 8 = 7 := (flush_facts t).2.mp hf
  obtain ⟨-, -, -, -, -, -, -, -, -, -, -, -, e0, e1⟩ := grid_facts t
  show (cfg0.win 4).cut (grid0.coords t) ((dats m 0 c).after 4 t) = _
  rw [after0_4]
  funext j
  obtain ⟨r, u, rfl⟩ : ∃ (r : Fin 512) (u : Fin 1), j = ix2 r u := ⟨j 0, j 1, eq_ix2 j⟩
  obtain rfl : u = 0 := Subsingleton.elim _ _
  show (outsAt0 m c t.val t.isLt).2.1 (ix2 r 0) = G4 m c (((cfg0.win 4).blk t).view.emb (ix2 r 0))
  rw [out4_last m c t h1 r]
  unfold G4
  refine congrArg (rowK (zB m c) (zA m c) (zP m c)) (Fin.ext ?_)
  show 512 * (t.val / 8) + r.val = win0_4.index t (0 : Fin 2) * 512 + 1 * r.val
  omega

/-- An index of the first column is in point t's block iff its row is in the block's range. -/
theorem mem_blk3 (t : Fin cfg0.N) (i : S8192x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v32_0).slice (win0_3.rect t)).set ↔ _
  rw [View.set_slice_whole, Rect.mem_set_unit]
  exact Iff.rfl

theorem mem_blk4 (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v32_1).slice (win0_4.rect t)).set ↔ _
  rw [View.set_slice_whole, Rect.mem_set_unit]
  exact Iff.rfl

/-- The last point of the row block that holds row p. -/
def lastOf (p : ℕ) (hp : p < 8192) : Fin cfg0.N := ⟨8 * (p / 512) + 7, by rw [show cfg0.N = 128 from N_0]; omega⟩

/-- Every row of the first column is written back by its row block's last point. -/
theorem cover3 (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  refine ⟨lastOf (i 0).val hi0, (flush_facts _).1.mpr (by show (8 * ((i 0).val / 512) + 7) % 8 = 7; omega), ?_⟩
  obtain ⟨-, -, -, -, -, -, -, -, -, -, e0, e1, -⟩ := grid_facts (lastOf (i 0).val hi0)
  have ev : (lastOf (i 0).val hi0).val = 8 * ((i 0).val / 512) + 7 := rfl
  rw [mem_blk3]
  intro a
  match a with
  | ⟨0, _⟩ => show win0_3.index _ (0 : Fin 2) * 512 ≤ (i 0).val ∧ (i 0).val < win0_3.index _ (0 : Fin 2) * 512 + 512; omega
  | ⟨1, _⟩ => show win0_3.index _ (1 : Fin 2) * 1 ≤ (i 1).val ∧ (i 1).val < win0_3.index _ (1 : Fin 2) * 1 + 1; omega

theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  refine ⟨lastOf (i 0).val hi0, (flush_facts _).2.mpr (by show (8 * ((i 0).val / 512) + 7) % 8 = 7; omega), ?_⟩
  obtain ⟨-, -, -, -, -, -, -, -, -, -, -, -, e0, e1⟩ := grid_facts (lastOf (i 0).val hi0)
  have ev : (lastOf (i 0).val hi0).val = 8 * ((i 0).val / 512) + 7 := rfl
  rw [mem_blk4]
  intro a
  match a with
  | ⟨0, _⟩ => show win0_4.index _ (0 : Fin 2) * 512 ≤ (i 0).val ∧ (i 0).val < win0_4.index _ (0 : Fin 2) * 512 + 512; omega
  | ⟨1, _⟩ => show win0_4.index _ (1 : Fin 2) * 1 ≤ (i 1).val ∧ (i 1).val < win0_4.index _ (1 : Fin 2) * 1 + 1; omega

/-- The first output column after the region. -/
theorem final3 (c : Dev nD) : (dats m 0 c).arrAt 3 cfg0.N = G3 m c :=
  (dats m 0 c).arrAt_eq_of_cover 3 (G3 m c) (fun t hf => flushed3_eq m c t hf) cover3
/-- The second output column after the region. -/
theorem final4 (c : Dev nD) : (dats m 0 c).arrAt 4 cfg0.N = G4 m c :=
  (dats m 0 c).arrAt_eq_of_cover 4 (G4 m c) (fun t hf => flushed4_eq m c t hf) cover4

/-! ## The host operations after the region -/

/-- The thirteen operations after the region as one function of the two output columns: each column summed from the
    zero word, divided by the word of 8192, weighted by the word of one half; the two added. -/
def tailFn (X3 X4 : FVec Ideal S8192x1 .f32) : FVec Ideal S_ .f32 :=
  addf (mulf (Host.divf (Host.reduceAdd X3 (constant (F := Ideal) S_ .f32 0x00000000#32) Facts₀.reducesTo_S8192x1_S_d0_1 Facts₀.h_S_)
        (constant (F := Ideal) S_ .f32 0x46000000#32)) (constant (F := Ideal) S_ .f32 0x3F000000#32))
    (mulf (Host.divf (Host.reduceAdd X4 (constant (F := Ideal) S_ .f32 0x00000000#32) Facts₀.reducesTo_S8192x1_S_d0_1 Facts₀.h_S_)
        (constant (F := Ideal) S_ .f32 0x46000000#32)) (constant (F := Ideal) S_ .f32 0x3F000000#32))

/-- From any contents, the operations after the region leave tailFn of the two output columns in the result. -/
theorem tail_generic (W : Valuation τ sig (Elt Ideal)) :
    StableHlo.after (hostOps1 (F := Ideal)) W (Proc.devRef .tc main_v39)
      = tailFn (W (Proc.devRef .tc main_v32_0)) (W (Proc.devRef .tc main_v32_1)) := by
  simp only [hostOps1]
  after_results
  rfl

/-- A sum over the indices of an [8192, 1] column is the sum over its rows. -/
theorem sum_col (f : S8192x1.Idx → EReal) : ∑ i, f i = ∑ p : Fin 8192, f (ix2 p 0) := by
  rw [sum_idx2]
  exact Finset.sum_congr rfl fun p _ => Fin.sum_univ_one _

/-- The tail of the two columns of row terms is the accumulated form of the loss. -/
theorem tailFn_eq (c : Dev nD) (i : S_.Idx) : tailFn (G3 m c) (G4 m c) i = outK (zA m c) (zB m c) (zP m c) := by
  unfold tailFn outK lossK
  simp only [addf_apply, mulf_apply, constant_apply]
  show Ideal.div (Host.reduceAdd (G3 m c) (constant (F := Ideal) S_ .f32 0x00000000#32) Facts₀.reducesTo_S8192x1_S_d0_1 Facts₀.h_S_ i) _ * _
      + Ideal.div (Host.reduceAdd (G4 m c) (constant (F := Ideal) S_ .f32 0x00000000#32) Facts₀.reducesTo_S8192x1_S_d0_1 Facts₀.h_S_ i) _ * _ = _
  rw [hostReduceAdd_apply, hostReduceAdd_apply, Ideal.hostReduceAdd_total _ (fun b => b.elim0), Ideal.hostReduceAdd_total _ (fun b => b.elim0),
    constant_apply, Ideal.ofBits_zero_f32, zero_add, zero_add, sum_col, sum_col]
  rfl

/-- The result buffer after the whole program. -/
theorem tail_eq (c : Dev nD) :
    Pipeline.afterTail₀ cfgs (dats m) 0 (V0 m) [hostOps1] c main_v39 = fun _ => outK (zA m c) (zB m c) (zP m c) := by
  unfold Pipeline.afterTail₀
  show StableHlo.after hostOps1 _ (Proc.devRef .tc main_v39) = _
  rw [tail_generic]
  have e3 := (Pipeline.withArrays_arr spec0 launch0.win.arr_inj c (V0 m c) (fun w => (dats m 0 c).arrAt w cfg0.N) 3).trans (final3 m c)
  have e4 := (Pipeline.withArrays_arr spec0 launch0.win.arr_inj c (V0 m c) (fun w => (dats m 0 c).arrAt w cfg0.N) 4).trans (final4 m c)
  funext i
  exact (congrFun (congrArg₂ tailFn e3 e4) i).trans (tailFn_eq m c i)

/-- What the kernel program returns, as a function of the launch memory. -/
def out (c : Dev nD) : Buf (Elt Ideal) ((c.tc : Thread nD τ).loc main_v39) := fun _ => outK (zA m c) (zB m c) (zP m c)

/-- Every weakly fair execution of the kernel program terminates with its result at the accumulated form of the loss
    of the two normalised embeddings and the mask, and its arguments unchanged. -/
theorem run : θ_run defs (onTc (τ := τ) (main (F := Ideal))) ⟨m, fun _ => 0, ρ⟩ (fun r => ∀ c : Dev nD,
      r.2.mem ((c.tc : Thread nD τ).loc main_v39) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v39 (Pipeline.mem_restRefs_of main_v39 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 2).trans (((dats m 0 c).arrAt_in 2 rfl _).trans ((A_eq m c 2).trans (V_main_arg6 m c)))⟩)
    (run_main m ρ)

end Cert.KernelIdeal.KerValue

end
-- ==== Proof.RefOps.lean ====
/-
  The reference program as a list of its 147 host operations, in order, with every function call replaced by the
  callee's operations over that call's own buffers, cut into twelve consecutive pieces: the projection of each input,
  the row normalisation of each projection (computed twice each), the two similarity matrices with their exponentials,
  the two losses, and the final mean of the two. Beside each piece, the list of the buffers its operations write.
-/
import proofs.«154604_j34720515621627_1_alg».proof.ReferenceIdeal
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- Operations 1 … 25 of 147. -/
abbrev opsProjA : List (HloOp τ sig (Elt F)) :=
  [ StableHlo.unary main_arg2 main_v0 ((transpose S64x64 [1, 0] · transposes_S64x64_S64x64_1_0) : (⟨S64x64, .f32⟩ : BufTy).Contents (Elt F) → (⟨S64x64, .f32⟩ : BufTy).Contents (Elt F)),
    StableHlo.binary main_arg0 main_v0 main_v1 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    StableHlo.unary main_arg3 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S8192x64 ![0, 1] bcast_S1x64_S8192x64_0_1 : (⟨S1x64, .f32⟩ : BufTy).Contents (Elt F) → (⟨S8192x64, .f32⟩ : BufTy).Contents (Elt F)),
    StableHlo.binary main_v1 main_v3 main_v4 (addf : (⟨S8192x64, .f32⟩ : BufTy).Contents (Elt F) → (⟨S8192x64, .f32⟩ : BufTy).Contents (Elt F) → (⟨S8192x64, .f32⟩ : BufTy).Contents (Elt F)),
    StableHlo.TRef.nullary main_call0.cst (constant S_ .f32 0x00000000#32),
    StableHlo.TRef.unary main_call0.cst main_call0.v0 (broadcastInDim S8192x64 ![] bcast_S_S8192x64),
    StableHlo.TRef.binary (.of main_v4 : StableHlo.TRef sig ⟨S8192x64, .f32⟩) main_call0.v0 main_call0.v1 (cmpf .ogt),
    StableHlo.TRef.nullary main_call0.cst_0 (constant S_ .f32 0x00000000#32),
    StableHlo.TRef.unary main_call0.cst_0 main_call0.v2 (broadcastInDim S8192x64 ![] bcast_S_S8192x64),
    StableHlo.TRef.binary (.of main_v4 : StableHlo.TRef sig ⟨S8192x64, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S8192x64 ![] bcast_S_S8192x64),
    StableHlo.TRef.ternary main_call0.v3 main_call0.call0.v1 (.of main_v4 : StableHlo.TRef sig ⟨S8192x64, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S8192x64 ![] bcast_S_S8192x64),
    StableHlo.TRef.binary main_call0.v6 main_call0.v5 main_call0.v7 mulf,
    StableHlo.TRef.ternary main_call0.v1 (.of main_v4 : StableHlo.TRef sig ⟨S8192x64, .f32⟩) main_call0.v7 main_call0.call1.v0 select,
    StableHlo.unary main_arg4 main_v6 ((transpose S64x64 [1, 0] · transposes_S64x64_S64x64_1_0) : (⟨S64x64, .f32⟩ : BufTy).Contents (Elt F) → (⟨S64x64, .f32⟩ : BufTy).Contents (Elt F)),
    StableHlo.binary main_v5 main_v6 main_v7 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    StableHlo.unary main_arg5 main_v8 (broadcastInDim S1x64 ![1] bcast_S64_S1x64_1 : (⟨S64, .f32⟩ : BufTy).Contents (Elt F) → (⟨S1x64, .f32⟩ : BufTy).Contents (Elt F)),
    StableHlo.unary main_v8 main_v9 (broadcastInDim S8192x64 ![0, 1] bcast_S1x64_S8192x64_0_1 : (⟨S1x64, .f32⟩ : BufTy).Contents (Elt F) → (⟨S8192x64, .f32⟩ : BufTy).Contents (Elt F)),
    StableHlo.binary main_v7 main_v9 main_v10 (addf : (⟨S8192x64, .f32⟩ : BufTy).Contents (Elt F) → (⟨S8192x64, .f32⟩ : BufTy).Contents (Elt F) → (⟨S8192x64, .f32⟩ : BufTy).Contents (Elt F)) ]
/-- The buffers those operations write. -/
abbrev opsProjA_W : List (Ref sig .tc) := [main_v0, main_v1, main_v2, main_v3, main_v4, main_call0.cst.ref, main_call0.v0.ref, main_call0.v1.ref, main_call0.cst_0.ref, main_call0.v2.ref, main_call0.v3.ref, main_call0.cst_1.ref, main_call0.call0.v0.ref, main_call0.call0.v1.ref, main_call0.call0.v2.ref, main_call0.v5.ref, main_call0.cst_2.ref, main_call0.v6.ref, main_call0.v7.ref, main_call0.call1.v0.ref, main_v6, main_v7, main_v8, main_v9, main_v10]
/-- Each of them touches TensorCore buffers only. -/
theorem opsProjA_sub : (opsProjA : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., unary_bufs_sub .., binary_bufs_sub ..⟩

/-- Operations 26 … 50 of 147. -/
abbrev opsProjB : List (HloOp τ sig (Elt F)) :=
  [ StableHlo.unary main_arg2 main_v11 ((transpose S64x64 [1, 0] · transposes_S64x64_S64x64_1_0) : (⟨S64x64, .f32⟩ : BufTy).Contents (Elt F) → (⟨S64x64, .f32⟩ : BufTy).Contents (Elt F)),
    StableHlo.binary main_arg1 main_v11 main_v12 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    StableHlo.unary main_arg3 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S8192x64 ![0, 1] bcast_S1x64_S8192x64_0_1 : (⟨S1x64, .f32⟩ : BufTy).Contents (Elt F) → (⟨S8192x64, .f32⟩ : BufTy).Contents (Elt F)),
    StableHlo.binary main_v12 main_v14 main_v15 (addf : (⟨S8192x64, .f32⟩ : BufTy).Contents (Elt F) → (⟨S8192x64, .f32⟩ : BufTy).Contents (Elt F) → (⟨S8192x64, .f32⟩ : BufTy).Contents (Elt F)),
    StableHlo.TRef.nullary main_call1.cst (constant S_ .f32 0x00000000#32),
    StableHlo.TRef.unary main_call1.cst main_call1.v0 (broadcastInDim S8192x64 ![] bcast_S_S8192x64),
    StableHlo.TRef.binary (.of main_v15 : StableHlo.TRef sig ⟨S8192x64, .f32⟩) main_call1.v0 main_call1.v1 (cmpf .ogt),
    StableHlo.TRef.nullary main_call1.cst_0 (constant S_ .f32 0x00000000#32),
    StableHlo.TRef.unary main_call1.cst_0 main_call1.v2 (broadcastInDim S8192x64 ![] bcast_S_S8192x64),
    StableHlo.TRef.binary (.of main_v15 : StableHlo.TRef sig ⟨S8192x64, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S8192x64 ![] bcast_S_S8192x64),
    StableHlo.TRef.ternary main_call1.v3 main_call1.call0.v1 (.of main_v15 : StableHlo.TRef sig ⟨S8192x64, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S8192x64 ![] bcast_S_S8192x64),
    StableHlo.TRef.binary main_call1.v6 main_call1.v5 main_call1.v7 mulf,
    StableHlo.TRef.ternary main_call1.v1 (.of main_v15 : StableHlo.TRef sig ⟨S8192x64, .f32⟩) main_call1.v7 main_call1.call1.v0 select,
    StableHlo.unary main_arg4 main_v17 ((transpose S64x64 [1, 0] · transposes_S64x64_S64x64_1_0) : (⟨S64x64, .f32⟩ : BufTy).Contents (Elt F) → (⟨S64x64, .f32⟩ : BufTy).Contents (Elt F)),
    StableHlo.binary main_v16 main_v17 main_v18 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    StableHlo.unary main_arg5 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S8192x64 ![0, 1] bcast_S1x64_S8192x64_0_1 : (⟨S1x64, .f32⟩ : BufTy).Contents (Elt F) → (⟨S8192x64, .f32⟩ : BufTy).Contents (Elt F)),
    StableHlo.binary main_v18 main_v20 main_v21 (addf : (⟨S8192x64, .f32⟩ : BufTy).Contents (Elt F) → (⟨S8192x64, .f32⟩ : BufTy).Contents (Elt F) → (⟨S8192x64, .f32⟩ : BufTy).Contents (Elt F)) ]
/-- The buffers those operations write. -/
abbrev opsProjB_W : List (Ref sig .tc) := [main_v11, main_v12, main_v13, main_v14, main_v15, main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref, main_v17, main_v18, main_v19, main_v20, main_v21]
/-- Each of them touches TensorCore buffers only. -/
theorem opsProjB_sub : (opsProjB : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., unary_bufs_sub .., binary_bufs_sub ..⟩

/-- Operations 51 … 60 of 147. -/
abbrev opsUnitA : List (HloOp τ sig (Elt F)) :=
  [ StableHlo.TRef.binary (.of main_v10 : StableHlo.TRef sig ⟨S8192x64, .f32⟩) (.of main_v10 : StableHlo.TRef sig ⟨S8192x64, .f32⟩) main_call2.v0 mulf,
    StableHlo.TRef.nullary main_call2.cst (constant S_ .f32 0x00000000#32),
    StableHlo.TRef.binary main_call2.v0 main_call2.cst main_call2.v1 (fun x v => Host.reduceAdd x v reducesTo_S8192x64_S8192_d1 h_S_),
    StableHlo.TRef.unary main_call2.v1 main_call2.v2 (broadcastInDim S8192x1 ![0] bcast_S8192_S8192x1_0),
    StableHlo.TRef.unary main_call2.v2 main_call2.v3 Host.sqrt,
    StableHlo.nullary main_cst (constant S_ .f32 0x2B8CBCCC#32),
    StableHlo.unary main_cst main_v23 (broadcastInDim S8192x1 ![] bcast_S_S8192x1 : (⟨S_, .f32⟩ : BufTy).Contents (Elt F) → (⟨S8192x1, .f32⟩ : BufTy).Contents (Elt F)),
    StableHlo.binary main_v22 main_v23 main_v24 (maximumf : (⟨S8192x1, .f32⟩ : BufTy).Contents (Elt F) → (⟨S8192x1, .f32⟩ : BufTy).Contents (Elt F) → (⟨S8192x1, .f32⟩ : BufTy).Contents (Elt F)),
    StableHlo.unary main_v24 main_v25 (broadcastInDim S8192x64 ![0, 1] bcast_S8192x1_S8192x64_0_1 : (⟨S8192x1, .f32⟩ : BufTy).Contents (Elt F) → (⟨S8192x64, .f32⟩ : BufTy).Contents (Elt F)),
    StableHlo.binary main_v10 main_v25 main_v26 (Host.divf : (⟨S8192x64, .f32⟩ : BufTy).Contents (Elt F) → (⟨S8192x64, .f32⟩ : BufTy).Contents (Elt F) → (⟨S8192x64, .f32⟩ : BufTy).Contents (Elt F)) ]
/-- The buffers those operations write. -/
abbrev opsUnitA_W : List (Ref sig .tc) := [main_call2.v0.ref, main_call2.cst.ref, main_call2.v1.ref, main_call2.v2.ref, main_call2.v3.ref, main_cst, main_v23, main_v24, main_v25, main_v26]
/-- Each of them touches TensorCore buffers only. -/
theorem opsUnitA_sub : (opsUnitA : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

/-- Operations 61 … 70 of 147. -/
abbrev opsUnitB : List (HloOp τ sig (Elt F)) :=
  [ StableHlo.TRef.binary (.of main_v21 : StableHlo.TRef sig ⟨S8192x64, .f32⟩) (.of main_v21 : StableHlo.TRef sig ⟨S8192x64, .f32⟩) main_call3.v0 mulf,
    StableHlo.TRef.nullary main_call3.cst (constant S_ .f32 0x00000000#32),
    StableHlo.TRef.binary main_call3.v0 main_call3.cst main_call3.v1 (fun x v => Host.reduceAdd x v reducesTo_S8192x64_S8192_d1 h_S_),
    StableHlo.TRef.unary main_call3.v1 main_call3.v2 (broadcastInDim S8192x1 ![0] bcast_S8192_S8192x1_0),
    StableHlo.TRef.unary main_call3.v2 main_call3.v3 Host.sqrt,
    StableHlo.nullary main_cst_0 (constant S_ .f32 0x2B8CBCCC#32),
    StableHlo.unary main_cst_0 main_v28 (broadcastInDim S8192x1 ![] bcast_S_S8192x1 : (⟨S_, .f32⟩ : BufTy).Contents (Elt F) → (⟨S8192x1, .f32⟩ : BufTy).Contents (Elt F)),
    StableHlo.binary main_v27 main_v28 main_v29 (maximumf : (⟨S8192x1, .f32⟩ : BufTy).Contents (Elt F) → (⟨S8192x1, .f32⟩ : BufTy).Contents (Elt F) → (⟨S8192x1, .f32⟩ : BufTy).Contents (Elt F)),
    StableHlo.unary main_v29 main_v30 (broadcastInDim S8192x64 ![0, 1] bcast_S8192x1_S8192x64_0_1 : (⟨S8192x1, .f32⟩ : BufTy).Contents (Elt F) → (⟨S8192x64, .f32⟩ : BufTy).Contents (Elt F)),
    StableHlo.binary main_v21 main_v30 main_v31 (Host.divf : (⟨S8192x64, .f32⟩ : BufTy).Contents (Elt F) → (⟨S8192x64, .f32⟩ : BufTy).Contents (Elt F) → (⟨S8192x64, .f32⟩ : BufTy).Contents (Elt F)) ]
/-- The buffers those operations write. -/
abbrev opsUnitB_W : List (Ref sig .tc) := [main_call3.v0.ref, main_call3.cst.ref, main_call3.v1.ref, main_call3.v2.ref, main_call3.v3.ref, main_cst_0, main_v28, main_v29, main_v30, main_v31]
/-- Each of them touches TensorCore buffers only. -/
theorem opsUnitB_sub : (opsUnitB : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

/-- Operations 71 … 76 of 147. -/
abbrev opsSimAB : List (HloOp τ sig (Elt F)) :=
  [ StableHlo.unary main_v31 main_v32 ((transpose S64x8192 [1, 0] · transposes_S8192x64_S64x8192_1_0) : (⟨S8192x64, .f32⟩ : BufTy).Contents (Elt F) → (⟨S64x8192, .f32⟩ : BufTy).Contents (Elt F)),
    StableHlo.binary main_v26 main_v32 main_v33 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.nullary main_cst_1 (constant S_ .f32 0x3F4CCCCD#32),
    StableHlo.unary main_cst_1 main_v34 (broadcastInDim S8192x8192 ![] bcast_S_S8192x8192 : (⟨S_, .f32⟩ : BufTy).Contents (Elt F) → (⟨S8192x8192, .f32⟩ : BufTy).Contents (Elt F)),
    StableHlo.binary main_v33 main_v34 main_v35 (Host.divf : (⟨S8192x8192, .f32⟩ : BufTy).Contents (Elt F) → (⟨S8192x8192, .f32⟩ : BufTy).Contents (Elt F) → (⟨S8192x8192, .f32⟩ : BufTy).Contents (Elt F)),
    StableHlo.unary main_v35 main_v36 (Host.exp : (⟨S8192x8192, .f32⟩ : BufTy).Contents (Elt F) → (⟨S8192x8192, .f32⟩ : BufTy).Contents (Elt F)) ]
/-- The buffers those operations write. -/
abbrev opsSimAB_W : List (Ref sig .tc) := [main_v32, main_v33, main_cst_1, main_v34, main_v35, main_v36]
/-- Each of them touches TensorCore buffers only. -/
theorem opsSimAB_sub : (opsSimAB : List (HloOp τ sig (Elt F))).Forall fun op => op.bufs ⊆ tcRefs τ sig :=
  ⟨unary_bufs_sub .., binary_bufs_sub .., nullary_bufs_sub .., unary_bufs_sub .., binary_bufs_sub .., unary_bufs_sub ..⟩

/-- Operations 77 … 86 of 147. -/
abbrev opsUnitB2 : List (HloOp τ sig (Elt F)) :=
  [ StableHlo.TRef.binary (.of main_v21 : StableHlo.TRef sig ⟨S8192x64, .f32⟩) (.of main_v21 : StableHlo.TRef sig ⟨S8192x64, .f32⟩) main_call4.v0 mulf,
    StableHlo.TRef.nullary main_call4.cst (constant S_ .f32 0x00000000#32),
    StableHlo.TRef.binary main_call4.v0 main_call4.cst main_call4.v1 (fun x v => Host.reduceAdd x v reducesTo_S8192x64_S8192_d1 h_S_),
    StableHlo.TRef.unary main_call4.v1 main_call4.v2 (broadcastInDim S8192x1 ![0] bcast_S8192_S8192x1_0),
    StableHlo.TRef.unary main_call4.v2 main_call4.v3 Host.sqrt,
    StableHlo.nullary main_cst_2 (constant S_ .f32 0x2B8CBCCC#32),
    StableHlo.unary main_cst_2 main_v38 (broadcastInDim S8192x1 ![] bcast_S_S8192x1 : (⟨S_, .f32⟩ : BufTy).Contents (Elt F) → (⟨S8192x1, .f32⟩ : BufTy).Contents (Elt F)),
    StableHlo.binary main_v37 main_v38 main_v39 (maximumf : (⟨S8192x1, .f32⟩ : BufTy).Contents (Elt F) → (⟨S8192x1, .f32⟩ : BufTy).Contents (Elt F) → (⟨S8192x1, .f32⟩ : BufTy).Contents (Elt F)),
    StableHlo.unary main_v39 main_v40 (broadcastInDim S8192x64 ![0, 1] bcast_S8192x1_S8192x64_0_1 : (⟨S8192x1, .f32⟩ : BufTy).Contents (Elt F) → (⟨S8192x64, .f32⟩ : BufTy).Contents (Elt F)),
    StableHlo.binary main_v21 main_v40 main_v41 (Host.divf : (⟨S8192x64, .f32⟩ : BufTy).Contents (Elt F) → (⟨S8192x64, .f32⟩ : BufTy).Contents (Elt F) → (⟨S8192x64, .f32⟩ : BufTy).Contents (Elt F)) ]
/-- The buffers those operations write. -/
abbrev opsUnitB2_W : List (Ref sig .tc) := [main_call4.v0.ref, main_call4.cst.ref, main_call4.v1.ref, main_call4.v2.ref, main_call4.v3.ref, main_cst_2, main_v38, main_v39, main_v40, main_v41]
/-- Each of them touches TensorCore buffers only. -/
theorem opsUnitB2_sub : (opsUnitB2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

/-- Operations 87 … 96 of 147. -/
abbrev opsUnitA2 : List (HloOp τ sig (Elt F)) :=
  [ StableHlo.TRef.binary (.of main_v10 : StableHlo.TRef sig ⟨S8192x64, .f32⟩) (.of main_v10 : StableHlo.TRef sig ⟨S8192x64, .f32⟩) main_call5.v0 mulf,
    StableHlo.TRef.nullary main_call5.cst (constant S_ .f32 0x00000000#32),
    StableHlo.TRef.binary main_call5.v0 main_call5.cst main_call5.v1 (fun x v => Host.reduceAdd x v reducesTo_S8192x64_S8192_d1 h_S_),
    StableHlo.TRef.unary main_call5.v1 main_call5.v2 (broadcastInDim S8192x1 ![0] bcast_S8192_S8192x1_0),
    StableHlo.TRef.unary main_call5.v2 main_call5.v3 Host.sqrt,
    StableHlo.nullary main_cst_3 (constant S_ .f32 0x2B8CBCCC#32),
    StableHlo.unary main_cst_3 main_v43 (broadcastInDim S8192x1 ![] bcast_S_S8192x1 : (⟨S_, .f32⟩ : BufTy).Contents (Elt F) → (⟨S8192x1, .f32⟩ : BufTy).Contents (Elt F)),
    StableHlo.binary main_v42 main_v43 main_v44 (maximumf : (⟨S8192x1, .f32⟩ : BufTy).Contents (Elt F) → (⟨S8192x1, .f32⟩ : BufTy).Contents (Elt F) → (⟨S8192x1, .f32⟩ : BufTy).Contents (Elt F)),
    StableHlo.unary main_v44 main_v45 (broadcastInDim S8192x64 ![0, 1] bcast_S8192x1_S8192x64_0_1 : (⟨S8192x1, .f32⟩ : BufTy).Contents (Elt F) → (⟨S8192x64, .f32⟩ : BufTy).Contents (Elt F)),
    StableHlo.binary main_v10 main_v45 main_v46 (Host.divf : (⟨S8192x64, .f32⟩ : BufTy).Contents (Elt F) → (⟨S8192x64, .f32⟩ : BufTy).Contents (Elt F) → (⟨S8192x64, .f32⟩ : BufTy).Contents (Elt F)) ]
/-- The buffers those operations write. -/
abbrev opsUnitA2_W : List (Ref sig .tc) := [main_call5.v0.ref, main_call5.cst.ref, main_call5.v1.ref, main_call5.v2.ref, main_call5.v3.ref, main_cst_3, main_v43, main_v44, main_v45, main_v46]
/-- Each of them touches TensorCore buffers only. -/
theorem opsUnitA2_sub : (opsUnitA2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

/-- Operations 97 … 102 of 147. -/
abbrev opsSimBA : List (HloOp τ sig (Elt F)) :=
  [ StableHlo.unary main_v46 main_v47 ((transpose S64x8192 [1, 0] · transposes_S8192x64_S64x8192_1_0) : (⟨S8192x64, .f32⟩ : BufTy).Contents (Elt F) → (⟨S64x8192, .f32⟩ : BufTy).Contents (Elt F)),
    StableHlo.binary main_v41 main_v47 main_v48 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.nullary main_cst_4 (constant S_ .f32 0x3F4CCCCD#32),
    StableHlo.unary main_cst_4 main_v49 (broadcastInDim S8192x8192 ![] bcast_S_S8192x8192 : (⟨S_, .f32⟩ : BufTy).Contents (Elt F) → (⟨S8192x8192, .f32⟩ : BufTy).Contents (Elt F)),
    StableHlo.binary main_v48 main_v49 main_v50 (Host.divf : (⟨S8192x8192, .f32⟩ : BufTy).Contents (Elt F) → (⟨S8192x8192, .f32⟩ : BufTy).Contents (Elt F) → (⟨S8192x8192, .f32⟩ : BufTy).Contents (Elt F)),
    StableHlo.unary main_v50 main_v51 (Host.exp : (⟨S8192x8192, .f32⟩ : BufTy).Contents (Elt F) → (⟨S8192x8192, .f32⟩ : BufTy).Contents (Elt F)) ]
/-- The buffers those operations write. -/
abbrev opsSimBA_W : List (Ref sig .tc) := [main_v47, main_v48, main_cst_4, main_v49, main_v50, main_v51]
/-- Each of them touches TensorCore buffers only. -/
theorem opsSimBA_sub : (opsSimBA : List (HloOp τ sig (Elt F))).Forall fun op => op.bufs ⊆ tcRefs τ sig :=
  ⟨unary_bufs_sub .., binary_bufs_sub .., nullary_bufs_sub .., unary_bufs_sub .., binary_bufs_sub .., unary_bufs_sub ..⟩

/-- Operations 103 … 104 of 147. -/
abbrev opsRowTotal : List (HloOp τ sig (Elt F)) :=
  [ StableHlo.nullary main_cst_5 (constant S_ .f32 0x00000000#32),
    StableHlo.binary main_v36 main_cst_5 main_v52 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]
/-- The buffers those operations write. -/
abbrev opsRowTotal_W : List (Ref sig .tc) := [main_cst_5, main_v52]
/-- Each of them touches TensorCore buffers only. -/
theorem opsRowTotal_sub : (opsRowTotal : List (HloOp τ sig (Elt F))).Forall fun op => op.bufs ⊆ tcRefs τ sig :=
  ⟨nullary_bufs_sub .., binary_bufs_sub ..⟩

/-- Operations 105 … 122 of 147. -/
abbrev opsLossAB : List (HloOp τ sig (Elt F)) :=
  [ StableHlo.unary main_v52 main_v53 (broadcastInDim S8192x1 ![0] bcast_S8192_S8192x1_0 : (⟨S8192, .f32⟩ : BufTy).Contents (Elt F) → (⟨S8192x1, .f32⟩ : BufTy).Contents (Elt F)),
    StableHlo.nullary main_cst_6 (constant S_ .f32 0x322BCC77#32),
    StableHlo.unary main_cst_6 main_v54 (broadcastInDim S8192x1 ![] bcast_S_S8192x1 : (⟨S_, .f32⟩ : BufTy).Contents (Elt F) → (⟨S8192x1, .f32⟩ : BufTy).Contents (Elt F)),
    StableHlo.binary main_v53 main_v54 main_v55 (addf : (⟨S8192x1, .f32⟩ : BufTy).Contents (Elt F) → (⟨S8192x1, .f32⟩ : BufTy).Contents (Elt F) → (⟨S8192x1, .f32⟩ : BufTy).Contents (Elt F)),
    StableHlo.unary main_v55 main_v56 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v36 main_v56 main_v57 (Host.divf : (⟨S8192x8192, .f32⟩ : BufTy).Contents (Elt F) → (⟨S8192x8192, .f32⟩ : BufTy).Contents (Elt F) → (⟨S8192x8192, .f32⟩ : BufTy).Contents (Elt F)),
    StableHlo.binary main_v57 main_arg6 main_v58 (mulf : (⟨S8192x8192, .f32⟩ : BufTy).Contents (Elt F) → (⟨S8192x8192, .f32⟩ : BufTy).Contents (Elt F) → (⟨S8192x8192, .f32⟩ : BufTy).Contents (Elt F)),
    StableHlo.nullary main_cst_7 (constant S_ .f32 0x00000000#32),
    StableHlo.binary main_v58 main_cst_7 main_v59 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_8 (constant S_ .f32 0x322BCC77#32),
    StableHlo.unary main_cst_8 main_v60 (broadcastInDim S8192 ![] bcast_S_S8192 : (⟨S_, .f32⟩ : BufTy).Contents (Elt F) → (⟨S8192, .f32⟩ : BufTy).Contents (Elt F)),
    StableHlo.binary main_v59 main_v60 main_v61 (addf : (⟨S8192, .f32⟩ : BufTy).Contents (Elt F) → (⟨S8192, .f32⟩ : BufTy).Contents (Elt F) → (⟨S8192, .f32⟩ : BufTy).Contents (Elt F)),
    StableHlo.unary main_v61 main_v62 (Host.log : (⟨S8192, .f32⟩ : BufTy).Contents (Elt F) → (⟨S8192, .f32⟩ : BufTy).Contents (Elt F)),
    StableHlo.nullary main_cst_9 (constant S_ .f32 0x00000000#32),
    StableHlo.binary main_v62 main_cst_9 main_v63 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_10 (constant S_ .f32 0x46000000#32),
    StableHlo.binary main_v63 main_cst_10 main_v64 (Host.divf : (⟨S_, .f32⟩ : BufTy).Contents (Elt F) → (⟨S_, .f32⟩ : BufTy).Contents (Elt F) → (⟨S_, .f32⟩ : BufTy).Contents (Elt F)),
    StableHlo.unary main_v64 main_v65 (Host.negf : (⟨S_, .f32⟩ : BufTy).Contents (Elt F) → (⟨S_, .f32⟩ : BufTy).Contents (Elt F)) ]
/-- The buffers those operations write. -/
abbrev opsLossAB_W : List (Ref sig .tc) := [main_v53, main_cst_6, main_v54, main_v55, main_v56, main_v57, main_v58, main_cst_7, main_v59, main_cst_8, main_v60, main_v61, main_v62, main_cst_9, main_v63, main_cst_10, main_v64, main_v65]
/-- Each of them touches TensorCore buffers only. -/
theorem opsLossAB_sub : (opsLossAB : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., nullary_bufs_sub .., binary_bufs_sub .., nullary_bufs_sub .., binary_bufs_sub .., unary_bufs_sub ..⟩

/-- Operations 123 … 142 of 147. -/
abbrev opsLossBA : List (HloOp τ sig (Elt F)) :=
  [ StableHlo.nullary main_cst_11 (constant S_ .f32 0x00000000#32),
    StableHlo.binary main_v51 main_cst_11 main_v66 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v66 main_v67 (broadcastInDim S8192x1 ![0] bcast_S8192_S8192x1_0 : (⟨S8192, .f32⟩ : BufTy).Contents (Elt F) → (⟨S8192x1, .f32⟩ : BufTy).Contents (Elt F)),
    StableHlo.nullary main_cst_12 (constant S_ .f32 0x322BCC77#32),
    StableHlo.unary main_cst_12 main_v68 (broadcastInDim S8192x1 ![] bcast_S_S8192x1 : (⟨S_, .f32⟩ : BufTy).Contents (Elt F) → (⟨S8192x1, .f32⟩ : BufTy).Contents (Elt F)),
    StableHlo.binary main_v67 main_v68 main_v69 (addf : (⟨S8192x1, .f32⟩ : BufTy).Contents (Elt F) → (⟨S8192x1, .f32⟩ : BufTy).Contents (Elt F) → (⟨S8192x1, .f32⟩ : BufTy).Contents (Elt F)),
    StableHlo.unary main_v69 main_v70 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v51 main_v70 main_v71 (Host.divf : (⟨S8192x8192, .f32⟩ : BufTy).Contents (Elt F) → (⟨S8192x8192, .f32⟩ : BufTy).Contents (Elt F) → (⟨S8192x8192, .f32⟩ : BufTy).Contents (Elt F)),
    StableHlo.binary main_v71 main_arg6 main_v72 (mulf : (⟨S8192x8192, .f32⟩ : BufTy).Contents (Elt F) → (⟨S8192x8192, .f32⟩ : BufTy).Contents (Elt F) → (⟨S8192x8192, .f32⟩ : BufTy).Contents (Elt F)),
    StableHlo.nullary main_cst_13 (constant S_ .f32 0x00000000#32),
    StableHlo.binary main_v72 main_cst_13 main_v73 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_14 (constant S_ .f32 0x322BCC77#32),
    StableHlo.unary main_cst_14 main_v74 (broadcastInDim S8192 ![] bcast_S_S8192 : (⟨S_, .f32⟩ : BufTy).Contents (Elt F) → (⟨S8192, .f32⟩ : BufTy).Contents (Elt F)),
    StableHlo.binary main_v73 main_v74 main_v75 (addf : (⟨S8192, .f32⟩ : BufTy).Contents (Elt F) → (⟨S8192, .f32⟩ : BufTy).Contents (Elt F) → (⟨S8192, .f32⟩ : BufTy).Contents (Elt F)),
    StableHlo.unary main_v75 main_v76 (Host.log : (⟨S8192, .f32⟩ : BufTy).Contents (Elt F) → (⟨S8192, .f32⟩ : BufTy).Contents (Elt F)),
    StableHlo.nullary main_cst_15 (constant S_ .f32 0x00000000#32),
    StableHlo.binary main_v76 main_cst_15 main_v77 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_16 (constant S_ .f32 0x46000000#32),
    StableHlo.binary main_v77 main_cst_16 main_v78 (Host.divf : (⟨S_, .f32⟩ : BufTy).Contents (Elt F) → (⟨S_, .f32⟩ : BufTy).Contents (Elt F) → (⟨S_, .f32⟩ : BufTy).Contents (Elt F)),
    StableHlo.unary main_v78 main_v79 (Host.negf : (⟨S_, .f32⟩ : BufTy).Contents (Elt F) → (⟨S_, .f32⟩ : BufTy).Contents (Elt F)) ]
/-- The buffers those operations write. -/
abbrev opsLossBA_W : List (Ref sig .tc) := [main_cst_11, main_v66, main_v67, main_cst_12, main_v68, main_v69, main_v70, main_v71, main_v72, main_cst_13, main_v73, main_cst_14, main_v74, main_v75, main_v76, main_cst_15, main_v77, main_cst_16, main_v78, main_v79]
/-- Each of them touches TensorCore buffers only. -/
theorem opsLossBA_sub : (opsLossBA : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., nullary_bufs_sub .., binary_bufs_sub .., nullary_bufs_sub .., binary_bufs_sub .., unary_bufs_sub ..⟩

/-- Operations 143 … 147 of 147. -/
abbrev opsMean : List (HloOp τ sig (Elt F)) :=
  [ StableHlo.nullary main_cst_17 (constant S_ .f32 0x3F000000#32),
    StableHlo.binary main_v65 main_cst_17 main_v80 (mulf : (⟨S_, .f32⟩ : BufTy).Contents (Elt F) → (⟨S_, .f32⟩ : BufTy).Contents (Elt F) → (⟨S_, .f32⟩ : BufTy).Contents (Elt F)),
    StableHlo.nullary main_cst_18 (constant S_ .f32 0x3F000000#32),
    StableHlo.binary main_v79 main_cst_18 main_v81 (mulf : (⟨S_, .f32⟩ : BufTy).Contents (Elt F) → (⟨S_, .f32⟩ : BufTy).Contents (Elt F) → (⟨S_, .f32⟩ : BufTy).Contents (Elt F)),
    StableHlo.binary main_v80 main_v81 main_v82 (addf : (⟨S_, .f32⟩ : BufTy).Contents (Elt F) → (⟨S_, .f32⟩ : BufTy).Contents (Elt F) → (⟨S_, .f32⟩ : BufTy).Contents (Elt F)) ]
/-- The buffers those operations write. -/
abbrev opsMean_W : List (Ref sig .tc) := [main_cst_17, main_v80, main_cst_18, main_v81, main_v82]
/-- Each of them touches TensorCore buffers only. -/
theorem opsMean_sub : (opsMean : List (HloOp τ sig (Elt F))).Forall fun op => op.bufs ⊆ tcRefs τ sig :=
  ⟨nullary_bufs_sub .., binary_bufs_sub .., nullary_bufs_sub .., binary_bufs_sub .., binary_bufs_sub ..⟩

end Cert.ReferenceIdeal.RefValue

end
-- ==== Proof.RefRun.lean ====
/-
  The reference program runs as the straight line of its 147 host operations.

  Each of @main's two printed windows is that window's operations in order once every function call is replaced by the
  callee's body over the call's buffers (the definitions unfolded, sequencing re-associated); the two lines run one after
  the other are their concatenation. No buffer of the program is scoped and no operation leaves a buffer's contents
  undetermined, so from any memory with zero counters every weakly fair execution terminates with each buffer at the
  fold of the operations' results over the launch contents.
-/
import proofs.«154604_j34720515621627_1_alg».proof.Proof.RefOps

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The first window's operations: both projections, the four row normalisations, both similarity matrices, and the
    first loss's row totals. -/
abbrev opsWindow0 : List (HloOp τ sig (Elt F)) :=
  opsProjA ++ (opsProjB ++ (opsUnitA ++ (opsUnitB ++ (opsSimAB ++ (opsUnitB2 ++ (opsUnitA2 ++ (opsSimBA ++ opsRowTotal)))))))

/-- The second window's operations: the rest of the first loss, the second loss, the mean. -/
abbrev opsWindow1 : List (HloOp τ sig (Elt F)) := opsLossAB ++ (opsLossBA ++ opsMean)

/-- The reference's 147 operations, in order. -/
abbrev ops : List (HloOp τ sig (Elt F)) := opsWindow0 ++ opsWindow1

/-- The first window is its operations in a line. -/
theorem main_part0_eq (c : Dev nD) : main_part0 (F := F) c = seq opsWindow0 := by
  simp only [main_part0, fn_elu.body, fn_where.body, fn_where_0.body, fn_norm.body, opsWindow0, opsProjA, opsProjB, opsUnitA,
    opsUnitB, opsSimAB, opsUnitB2, opsUnitA2, opsSimBA, opsRowTotal, seq_append, seq, bind_assoc, pure_bind]
  rfl

/-- The second window is its operations in a line. -/
theorem main_part1_eq (c : Dev nD) : main_part1 (F := F) c = seq opsWindow1 := by
  simp only [main_part1, opsWindow1, opsLossAB, opsLossBA, opsMean, seq_append, seq, bind_assoc, pure_bind]

/-- @main is the whole line. -/
theorem main_eq (c : Dev nD) : main (F := F) c = seq ops := by
  rw [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  List.forall_iff_forall_mem.mpr fun op h => by
    simp only [ops, opsWindow0, opsWindow1, List.mem_append] at h
    rcases h with (h | h | h | h | h | h | h | h | h) | h | h | h
    exacts [List.forall_iff_forall_mem.mp opsProjA_sub op h, List.forall_iff_forall_mem.mp opsProjB_sub op h,
      List.forall_iff_forall_mem.mp opsUnitA_sub op h, List.forall_iff_forall_mem.mp opsUnitB_sub op h,
      List.forall_iff_forall_mem.mp opsSimAB_sub op h, List.forall_iff_forall_mem.mp opsUnitB2_sub op h,
      List.forall_iff_forall_mem.mp opsUnitA2_sub op h, List.forall_iff_forall_mem.mp opsSimBA_sub op h,
      List.forall_iff_forall_mem.mp opsRowTotal_sub op h, List.forall_iff_forall_mem.mp opsLossAB_sub op h,
      List.forall_iff_forall_mem.mp opsLossBA_sub op h, List.forall_iff_forall_mem.mp opsMean_sub op h]

/-- An operation of a literal line determines its result: membership is walked, each case by computation. -/
local macro "fresh_of_mem" : tactic =>
  `(tactic| (intro _ h; (repeat (cases h with | head => rfl | tail _ h => ?_)); exact nomatch h))

theorem opsProjA_fresh : ∀ op ∈ (opsProjA : List (HloOp τ sig (Elt F))), op.fresh = ∅ := by fresh_of_mem
theorem opsProjB_fresh : ∀ op ∈ (opsProjB : List (HloOp τ sig (Elt F))), op.fresh = ∅ := by fresh_of_mem
theorem opsUnitA_fresh : ∀ op ∈ (opsUnitA : List (HloOp τ sig (Elt F))), op.fresh = ∅ := by fresh_of_mem
theorem opsUnitB_fresh : ∀ op ∈ (opsUnitB : List (HloOp τ sig (Elt F))), op.fresh = ∅ := by fresh_of_mem
theorem opsSimAB_fresh : ∀ op ∈ (opsSimAB : List (HloOp τ sig (Elt F))), op.fresh = ∅ := by fresh_of_mem
theorem opsUnitB2_fresh : ∀ op ∈ (opsUnitB2 : List (HloOp τ sig (Elt F))), op.fresh = ∅ := by fresh_of_mem
theorem opsUnitA2_fresh : ∀ op ∈ (opsUnitA2 : List (HloOp τ sig (Elt F))), op.fresh = ∅ := by fresh_of_mem
theorem opsSimBA_fresh : ∀ op ∈ (opsSimBA : List (HloOp τ sig (Elt F))), op.fresh = ∅ := by fresh_of_mem
theorem opsRowTotal_fresh : ∀ op ∈ (opsRowTotal : List (HloOp τ sig (Elt F))), op.fresh = ∅ := by fresh_of_mem
theorem opsLossAB_fresh : ∀ op ∈ (opsLossAB : List (HloOp τ sig (Elt F))), op.fresh = ∅ := by fresh_of_mem
theorem opsLossBA_fresh : ∀ op ∈ (opsLossBA : List (HloOp τ sig (Elt F))), op.fresh = ∅ := by fresh_of_mem
theorem opsMean_fresh : ∀ op ∈ (opsMean : List (HloOp τ sig (Elt F))), op.fresh = ∅ := by fresh_of_mem

/-- No operation of the line leaves a buffer's contents undetermined. -/
theorem ops_fresh : ∀ op ∈ (ops : List (HloOp τ sig (Elt F))), op.fresh = ∅ := fun op h => by
  simp only [ops, opsWindow0, opsWindow1, List.mem_append] at h
  rcases h with (h | h | h | h | h | h | h | h | h) | h | h | h
  exacts [opsProjA_fresh op h, opsProjB_fresh op h, opsUnitA_fresh op h, opsUnitB_fresh op h, opsSimAB_fresh op h,
    opsUnitB2_fresh op h, opsUnitA2_fresh op h, opsSimBA_fresh op h, opsRowTotal_fresh op h, opsLossAB_fresh op h,
    opsLossBA_fresh op h, opsMean_fresh op h]

/-- From any memory with zero counters every weakly fair execution of @main on the TensorCores terminates, and every
    final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefChunkProj.lean ====
/-
  The first two pieces of the reference's line: the projection of each input.

  From any contents of the buffers, the 25 operations that project the first input leave, in the buffer of their last
  sum, the two-layer projection of the first input by the four parameter arrays: the bias of each layer is laid down as
  a row and repeated, the ELU between the layers is the callee's seven operations with its two selects, and the casts the
  inlined call puts around its operands cancel. The next 25 do the same for the second input. Either piece leaves every
  buffer it does not write as it found it.
-/
import proofs.«154604_j34720515621627_1_alg».proof.Proof.RefOps
import proofs.«154604_j34720515621627_1_alg».proof.Proof.Chain
import proofs.«154604_j34720515621627_1_alg».proof.Proof.LibCallCasts

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable [Cert.KernelIdeal.Facts₀] [Cert.ReferenceIdeal.Facts]

/-- An operation writes its result buffer, which is in the piece's list. -/
local macro "writes_one" : tactic =>
  `(tactic| (simp only [nullary_writes, unary_writes, binary_writes, ternary_writes, Finset.singleton_subset_iff, List.mem_toFinset];
              exact List.mem_map_of_mem (by decide)))

theorem opsProjA_writes : (opsProjA : List (HloOp τ sig (Elt Ideal))).Forall fun op =>
    op.writes ⊆ (opsProjA_W.map (Proc.devRef (τ := τ) .tc)).toFinset := by
  simp only [List.Forall]
  and_intros <;> writes_one

/-- A buffer the first projection does not write keeps its contents through it. -/
theorem opsProjA_keep (V : Valuation τ sig (Elt Ideal)) (r : Ref sig .tc) (h : r ∉ opsProjA_W) :
    after opsProjA V (Proc.devRef .tc r) = V (Proc.devRef .tc r) :=
  after_of_writes_sub opsProjA V opsProjA_writes h

/-- The first projection's result. -/
theorem opsProjA_v10 (V : Valuation τ sig (Elt Ideal)) :
    after opsProjA V (main_v10 : DevRef τ sig)
      = Cert.Contrast.proj (V (main_arg0 : DevRef τ sig)) (V (main_arg2 : DevRef τ sig)) (V (main_arg3 : DevRef τ sig))
          (V (main_arg4 : DevRef τ sig)) (V (main_arg5 : DevRef τ sig)) := by
  simp only [opsProjA]
  after_results_simp
  simp only [Cert.LibCallCasts.ofBuf_toBuf]
  rfl

theorem opsProjB_writes : (opsProjB : List (HloOp τ sig (Elt Ideal))).Forall fun op =>
    op.writes ⊆ (opsProjB_W.map (Proc.devRef (τ := τ) .tc)).toFinset := by
  simp only [List.Forall]
  and_intros <;> writes_one

/-- A buffer the second projection does not write keeps its contents through it. -/
theorem opsProjB_keep (V : Valuation τ sig (Elt Ideal)) (r : Ref sig .tc) (h : r ∉ opsProjB_W) :
    after opsProjB V (Proc.devRef .tc r) = V (Proc.devRef .tc r) :=
  after_of_writes_sub opsProjB V opsProjB_writes h

/-- The second projection's result. -/
theorem opsProjB_v21 (V : Valuation τ sig (Elt Ideal)) :
    after opsProjB V (main_v21 : DevRef τ sig)
      = Cert.Contrast.proj (V (main_arg1 : DevRef τ sig)) (V (main_arg2 : DevRef τ sig)) (V (main_arg3 : DevRef τ sig))
          (V (main_arg4 : DevRef τ sig)) (V (main_arg5 : DevRef τ sig)) := by
  simp only [opsProjB]
  after_results_simp
  simp only [Cert.LibCallCasts.ofBuf_toBuf]
  rfl

end Cert.ReferenceIdeal.RefValue

end
-- ==== Proof.RefPure.lean ====
/-
  The reference's arithmetic after the row normalisation, as three functions of whole arrays.

  weights a b   exp ((a · bᵀ) / τ): the 8192 × 8192 matrix of exponentiated similarities of the rows of a against the
                rows of b, τ the temperature word;
  lossOf w p    from weights w and mask p: each row of w divided by (its total + ε), times the mask, summed along the
                row; the logarithm of (that sum + ε); the rows' logarithms summed, divided by 8192, negated;
  meanOf x y    x · ½ + y · ½.

  Each is the composition of the host operations the reference applies, in its order, with its constants' words; the
  sums start from the zero word, as the reference's do.
-/
import proofs.«154604_j34720515621627_1_alg».proof.ReferenceIdeal
import Idealize.ShloMosaic.PureOps.Ideal

noncomputable section

namespace Cert.ReferenceIdeal.RefValue

open Cert.ReferenceIdeal Cert.ReferenceIdeal.Facts₀ Idealize.ShloMosaic

variable [Cert.ReferenceIdeal.Facts]

/-- The exponentiated similarities of the rows of `a` against the rows of `b`. -/
def weights (a b : FVec Ideal S8192x64 .f32) : FVec Ideal S8192x8192 .f32 :=
  Host.exp (Host.divf
    (Host.dotGeneral dot_S8192x64_S64x8192_S8192x8192_1_0_0_1_n_n none a
      (transpose S64x8192 [1, 0] b transposes_S8192x64_S64x8192_1_0))
    (broadcastInDim S8192x8192 ![] bcast_S_S8192x8192 (constant (F := Ideal) S_ .f32 0x3F4CCCCD#32)))

/-- Each row's total of the weights, as a vector. -/
def rowTotal (w : FVec Ideal S8192x8192 .f32) : FVec Ideal S8192 .f32 :=
  Host.reduceAdd w (constant (F := Ideal) S_ .f32 0x00000000#32) reducesTo_S8192x8192_S8192_d1 h_S_

/-- From the weights, their row totals and the mask: minus the mean over the rows of log (∑ w / (total + ε) · p + ε). -/
def lossFrom (w : FVec Ideal S8192x8192 .f32) (t : FVec Ideal S8192 .f32) (p : FVec Ideal S8192x8192 .f32) : FVec Ideal S_ .f32 :=
  Host.negf (Host.divf
    (Host.reduceAdd
      (Host.log (addf
        (Host.reduceAdd
          (mulf
            (Host.divf w
              (broadcastInDim S8192x8192 ![0, 1] bcast_S8192x1_S8192x8192_0_1
                (addf (broadcastInDim S8192x1 ![0] bcast_S8192_S8192x1_0 t)
                  (broadcastInDim S8192x1 ![] bcast_S_S8192x1 (constant (F := Ideal) S_ .f32 0x322BCC77#32)))))
            p)
          (constant (F := Ideal) S_ .f32 0x00000000#32) reducesTo_S8192x8192_S8192_d1 h_S_)
        (broadcastInDim S8192 ![] bcast_S_S8192 (constant (F := Ideal) S_ .f32 0x322BCC77#32))))
      (constant (F := Ideal) S_ .f32 0x00000000#32) reducesTo_S8192_S_d0 h_S_)
    (constant (F := Ideal) S_ .f32 0x46000000#32))

/-- The loss of weights `w` against the mask `p`. -/
def lossOf (w p : FVec Ideal S8192x8192 .f32) : FVec Ideal S_ .f32 := lossFrom w (rowTotal w) p

/-- The two losses, each weighted ½. -/
def meanOf (x y : FVec Ideal S_ .f32) : FVec Ideal S_ .f32 :=
  addf (mulf x (constant (F := Ideal) S_ .f32 0x3F000000#32)) (mulf y (constant (F := Ideal) S_ .f32 0x3F000000#32))

end Cert.ReferenceIdeal.RefValue

end
-- ==== Proof.RefChunkUnit.lean ====
/-
  The middle pieces of the reference's line: the four row normalisations and the two similarity matrices.

  From any contents of the buffers, the ten operations of a row normalisation (the callee's five: squares, the zero word,
  the row sums, the column, its square root; then the floor word, its column, the larger of the two, the column repeated
  along the rows, the quotient) leave in their last buffer the input with each row divided by the larger of its
  Euclidean norm and the floor; the casts the inlined call puts around its operands cancel. The six operations of a
  similarity matrix (the transposed operand, the product, the temperature word, its broadcast, the quotient, the
  exponential) leave the exponentiated similarities of their two operands. Each piece leaves every buffer it does not
  write as it found it.
-/
import proofs.«154604_j34720515621627_1_alg».proof.Proof.RefOps
import proofs.«154604_j34720515621627_1_alg».proof.Proof.RefPure
import proofs.«154604_j34720515621627_1_alg».proof.Proof.Chain
import proofs.«154604_j34720515621627_1_alg».proof.Proof.LibCallCasts

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable [Cert.KernelIdeal.Facts₀] [Cert.ReferenceIdeal.Facts]

/-- An operation writes its result buffer, which is in the piece's list. -/
local macro "writes_one" : tactic =>
  `(tactic| (simp only [nullary_writes, unary_writes, binary_writes, ternary_writes, Finset.singleton_subset_iff, List.mem_toFinset];
              exact List.mem_map_of_mem (by decide)))

theorem opsUnitA_writes : (opsUnitA : List (HloOp τ sig (Elt Ideal))).Forall fun op =>
    op.writes ⊆ (opsUnitA_W.map (Proc.devRef (τ := τ) .tc)).toFinset := by
  simp only [List.Forall]
  and_intros <;> writes_one

/-- A buffer the first normalisation of the first projection does not write keeps its contents through it. -/
theorem opsUnitA_keep (V : Valuation τ sig (Elt Ideal)) (r : Ref sig .tc) (h : r ∉ opsUnitA_W) :
    after opsUnitA V (Proc.devRef .tc r) = V (Proc.devRef .tc r) :=
  after_of_writes_sub opsUnitA V opsUnitA_writes h

/-- The first projection, row-normalised. -/
theorem opsUnitA_v26 (V : Valuation τ sig (Elt Ideal)) :
    after opsUnitA V (main_v26 : DevRef τ sig) = Cert.Contrast.l2n (V (main_v10 : DevRef τ sig)) := by
  simp only [opsUnitA]
  after_results_simp
  simp only [Cert.LibCallCasts.ofBuf_toBuf]
  rfl

theorem opsUnitB_writes : (opsUnitB : List (HloOp τ sig (Elt Ideal))).Forall fun op =>
    op.writes ⊆ (opsUnitB_W.map (Proc.devRef (τ := τ) .tc)).toFinset := by
  simp only [List.Forall]
  and_intros <;> writes_one

/-- A buffer the first normalisation of the second projection does not write keeps its contents through it. -/
theorem opsUnitB_keep (V : Valuation τ sig (Elt Ideal)) (r : Ref sig .tc) (h : r ∉ opsUnitB_W) :
    after opsUnitB V (Proc.devRef .tc r) = V (Proc.devRef .tc r) :=
  after_of_writes_sub opsUnitB V opsUnitB_writes h

/-- The second projection, row-normalised. -/
theorem opsUnitB_v31 (V : Valuation τ sig (Elt Ideal)) :
    after opsUnitB V (main_v31 : DevRef τ sig) = Cert.Contrast.l2n (V (main_v21 : DevRef τ sig)) := by
  simp only [opsUnitB]
  after_results_simp
  simp only [Cert.LibCallCasts.ofBuf_toBuf]
  rfl

theorem opsSimAB_writes : (opsSimAB : List (HloOp τ sig (Elt Ideal))).Forall fun op =>
    op.writes ⊆ (opsSimAB_W.map (Proc.devRef (τ := τ) .tc)).toFinset := by
  simp only [List.Forall]
  and_intros <;> writes_one

/-- A buffer the first similarity matrix's operations do not write keeps its contents through them. -/
theorem opsSimAB_keep (V : Valuation τ sig (Elt Ideal)) (r : Ref sig .tc) (h : r ∉ opsSimAB_W) :
    after opsSimAB V (Proc.devRef .tc r) = V (Proc.devRef .tc r) :=
  after_of_writes_sub opsSimAB V opsSimAB_writes h

/-- The exponentiated similarities of the first normalised embedding against the second. -/
theorem opsSimAB_v36 (V : Valuation τ sig (Elt Ideal)) :
    after opsSimAB V (main_v36 : DevRef τ sig) = weights (V (main_v26 : DevRef τ sig)) (V (main_v31 : DevRef τ sig)) := by
  simp only [opsSimAB]
  after_results_simp
  rfl

theorem opsUnitB2_writes : (opsUnitB2 : List (HloOp τ sig (Elt Ideal))).Forall fun op =>
    op.writes ⊆ (opsUnitB2_W.map (Proc.devRef (τ := τ) .tc)).toFinset := by
  simp only [List.Forall]
  and_intros <;> writes_one

/-- A buffer the second normalisation of the second projection does not write keeps its contents through it. -/
theorem opsUnitB2_keep (V : Valuation τ sig (Elt Ideal)) (r : Ref sig .tc) (h : r ∉ opsUnitB2_W) :
    after opsUnitB2 V (Proc.devRef .tc r) = V (Proc.devRef .tc r) :=
  after_of_writes_sub opsUnitB2 V opsUnitB2_writes h

/-- The second projection, row-normalised again. -/
theorem opsUnitB2_v41 (V : Valuation τ sig (Elt Ideal)) :
    after opsUnitB2 V (main_v41 : DevRef τ sig) = Cert.Contrast.l2n (V (main_v21 : DevRef τ sig)) := by
  simp only [opsUnitB2]
  after_results_simp
  simp only [Cert.LibCallCasts.ofBuf_toBuf]
  rfl

theorem opsUnitA2_writes : (opsUnitA2 : List (HloOp τ sig (Elt Ideal))).Forall fun op =>
    op.writes ⊆ (opsUnitA2_W.map (Proc.devRef (τ := τ) .tc)).toFinset := by
  simp only [List.Forall]
  and_intros <;> writes_one

/-- A buffer the second normalisation of the first projection does not write keeps its contents through it. -/
theorem opsUnitA2_keep (V : Valuation τ sig (Elt Ideal)) (r : Ref sig .tc) (h : r ∉ opsUnitA2_W) :
    after opsUnitA2 V (Proc.devRef .tc r) = V (Proc.devRef .tc r) :=
  after_of_writes_sub opsUnitA2 V opsUnitA2_writes h

/-- The first projection, row-normalised again. -/
theorem opsUnitA2_v46 (V : Valuation τ sig (Elt Ideal)) :
    after opsUnitA2 V (main_v46 : DevRef τ sig) = Cert.Contrast.l2n (V (main_v10 : DevRef τ sig)) := by
  simp only [opsUnitA2]
  after_results_simp
  simp only [Cert.LibCallCasts.ofBuf_toBuf]
  rfl

theorem opsSimBA_writes : (opsSimBA : List (HloOp τ sig (Elt Ideal))).Forall fun op =>
    op.writes ⊆ (opsSimBA_W.map (Proc.devRef (τ := τ) .tc)).toFinset := by
  simp only [List.Forall]
  and_intros <;> writes_one

/-- A buffer the second similarity matrix's operations do not write keeps its contents through them. -/
theorem opsSimBA_keep (V : Valuation τ sig (Elt Ideal)) (r : Ref sig .tc) (h : r ∉ opsSimBA_W) :
    after opsSimBA V (Proc.devRef .tc r) = V (Proc.devRef .tc r) :=
  after_of_writes_sub opsSimBA V opsSimBA_writes h

/-- The exponentiated similarities of the second normalised embedding against the first. -/
theorem opsSimBA_v51 (V : Valuation τ sig (Elt Ideal)) :
    after opsSimBA V (main_v51 : DevRef τ sig) = weights (V (main_v41 : DevRef τ sig)) (V (main_v46 : DevRef τ sig)) := by
  simp only [opsSimBA]
  after_results_simp
  rfl

end Cert.ReferenceIdeal.RefValue

end
-- ==== Proof.RefChunkLoss.lean ====
/-
  The last pieces of the reference's line: the two losses and their mean.

  From any contents of the buffers: the two operations after the similarity matrices leave the first weights' row
  totals; the next eighteen leave the loss computed from the first weights, those totals and the mask; the next twenty
  (the second weights' row totals first) leave the loss of the second weights against the mask; the last five leave the
  two losses weighted ½ each and added. Each piece leaves every buffer it does not write as it found it.
-/
import proofs.«154604_j34720515621627_1_alg».proof.Proof.RefOps
import proofs.«154604_j34720515621627_1_alg».proof.Proof.RefPure

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable [Cert.ReferenceIdeal.Facts]

/-- An operation writes its result buffer, which is in the piece's list. -/
local macro "writes_one" : tactic =>
  `(tactic| (simp only [nullary_writes, unary_writes, binary_writes, ternary_writes, Finset.singleton_subset_iff, List.mem_toFinset];
              exact List.mem_map_of_mem (by decide)))

theorem opsRowTotal_writes : (opsRowTotal : List (HloOp τ sig (Elt Ideal))).Forall fun op =>
    op.writes ⊆ (opsRowTotal_W.map (Proc.devRef (τ := τ) .tc)).toFinset := by
  simp only [List.Forall]
  and_intros <;> writes_one

/-- A buffer the row totals' two operations do not write keeps its contents through them. -/
theorem opsRowTotal_keep (V : Valuation τ sig (Elt Ideal)) (r : Ref sig .tc) (h : r ∉ opsRowTotal_W) :
    after opsRowTotal V (Proc.devRef .tc r) = V (Proc.devRef .tc r) :=
  after_of_writes_sub opsRowTotal V opsRowTotal_writes h

/-- The first weights' row totals. -/
theorem opsRowTotal_v52 (V : Valuation τ sig (Elt Ideal)) :
    after opsRowTotal V (main_v52 : DevRef τ sig) = rowTotal (V (main_v36 : DevRef τ sig)) := by
  simp only [opsRowTotal]
  after_results_simp
  rfl

theorem opsLossAB_writes : (opsLossAB : List (HloOp τ sig (Elt Ideal))).Forall fun op =>
    op.writes ⊆ (opsLossAB_W.map (Proc.devRef (τ := τ) .tc)).toFinset := by
  simp only [List.Forall]
  and_intros <;> writes_one

/-- A buffer the first loss's operations do not write keeps its contents through them. -/
theorem opsLossAB_keep (V : Valuation τ sig (Elt Ideal)) (r : Ref sig .tc) (h : r ∉ opsLossAB_W) :
    after opsLossAB V (Proc.devRef .tc r) = V (Proc.devRef .tc r) :=
  after_of_writes_sub opsLossAB V opsLossAB_writes h

/-- The first loss, from the first weights, their row totals and the mask. -/
theorem opsLossAB_v65 (V : Valuation τ sig (Elt Ideal)) :
    after opsLossAB V (main_v65 : DevRef τ sig)
      = lossFrom (V (main_v36 : DevRef τ sig)) (V (main_v52 : DevRef τ sig)) (V (main_arg6 : DevRef τ sig)) := by
  simp only [opsLossAB]
  after_results_simp
  rfl

theorem opsLossBA_writes : (opsLossBA : List (HloOp τ sig (Elt Ideal))).Forall fun op =>
    op.writes ⊆ (opsLossBA_W.map (Proc.devRef (τ := τ) .tc)).toFinset := by
  simp only [List.Forall]
  and_intros <;> writes_one

/-- A buffer the second loss's operations do not write keeps its contents through them. -/
theorem opsLossBA_keep (V : Valuation τ sig (Elt Ideal)) (r : Ref sig .tc) (h : r ∉ opsLossBA_W) :
    after opsLossBA V (Proc.devRef .tc r) = V (Proc.devRef .tc r) :=
  after_of_writes_sub opsLossBA V opsLossBA_writes h

/-- The second loss, of the second weights against the mask. -/
theorem opsLossBA_v79 (V : Valuation τ sig (Elt Ideal)) :
    after opsLossBA V (main_v79 : DevRef τ sig) = lossOf (V (main_v51 : DevRef τ sig)) (V (main_arg6 : DevRef τ sig)) := by
  simp only [opsLossBA]
  after_results_simp
  rfl

theorem opsMean_writes : (opsMean : List (HloOp τ sig (Elt Ideal))).Forall fun op =>
    op.writes ⊆ (opsMean_W.map (Proc.devRef (τ := τ) .tc)).toFinset := by
  simp only [List.Forall]
  and_intros <;> writes_one

/-- A buffer the last five operations do not write keeps its contents through them. -/
theorem opsMean_keep (V : Valuation τ sig (Elt Ideal)) (r : Ref sig .tc) (h : r ∉ opsMean_W) :
    after opsMean V (Proc.devRef .tc r) = V (Proc.devRef .tc r) :=
  after_of_writes_sub opsMean V opsMean_writes h

/-- The result: the two losses weighted ½ each. -/
theorem opsMean_v82 (V : Valuation τ sig (Elt Ideal)) :
    after opsMean V (main_v82 : DevRef τ sig) = meanOf (V (main_v65 : DevRef τ sig)) (V (main_v79 : DevRef τ sig)) := by
  simp only [opsMean]
  after_results_simp
  rfl

end Cert.ReferenceIdeal.RefValue

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibBcastRowCol.lean ====
/-
  Rows and columns repeated by `broadcast_in_dim`, read at an entry.

  The host lays a vector down as one row (`dims = [1]`) or stands it up as one column (`dims = [0]`) and then repeats the
  row down the rows or the column along the lanes (`dims = [0, 1]`). Read at (p, q):
  * `vecRow_apply`     an [n] vector as a [1, n] row reads, at (0, k), the vector at k;
  * `vecRows_apply`    that row repeated to [m, n] reads, at (p, k), the vector at k;
  * `vecCol_apply`     an [m] vector as an [m, 1] column reads, at (p, 0), the vector at p;
  * `colSpread_apply`  an [m, 1] column repeated to [m, n] reads, at (p, q), the column at (p, 0).
  Companions of the library's `broadcastInDim_oneRow_apply` (a [1, n] row repeated to [m, n]).
-/
import Idealize.ShloMosaic.Lib.Pipeline.Value
import Idealize.ShloMosaic.Lib.ValueIdx
import Idealize.ShloMosaic.Lib.KernelVsHost

namespace Cert.LibBcastRowCol

open Idealize.ShloMosaic Idealize.ShloMosaic.ValueIdx

variable {α : Type}

/-- A vector laid down as one row reads, at (0, k), the vector at k. -/
theorem vecRow_apply {n : ℕ} (h : (⟨1, ![n]⟩ : Shape).BroadcastsInDim ⟨2, ![1, n]⟩ ![1])
    (b : (⟨1, ![n]⟩ : Shape).Idx → α) (k : Fin n) : broadcastInDim ⟨2, ![1, n]⟩ ![1] h b (ix2 (0 : Fin 1) k) = b (ix1 k) := by
  refine broadcastInDim_apply ![1] h b (ix2 (0 : Fin 1) k) (ix1 k) ?_
  intro a
  fin_cases a
  show k.val = if n = 1 then 0 else k.val
  split_ifs with hn
  · have := k.isLt; omega
  · rfl

/-- A vector repeated down the rows reads, at (p, k), the vector at k. -/
theorem vecRows_apply {m n : ℕ} (h : (⟨1, ![n]⟩ : Shape).BroadcastsInDim ⟨2, ![1, n]⟩ ![1])
    (h' : (⟨2, ![1, n]⟩ : Shape).BroadcastsInDim ⟨2, ![m, n]⟩ ![0, 1]) (b : (⟨1, ![n]⟩ : Shape).Idx → α) (p : Fin m) (k : Fin n) :
    broadcastInDim ⟨2, ![m, n]⟩ ![0, 1] h' (broadcastInDim ⟨2, ![1, n]⟩ ![1] h b) (ix2 p k) = b (ix1 k) := by
  rw [broadcastInDim_oneRow_apply, vecRow_apply]

/-- A per-row value stood up as a column reads, at (p, 0), the value of row p. -/
theorem vecCol_apply {m : ℕ} (h : (⟨1, ![m]⟩ : Shape).BroadcastsInDim ⟨2, ![m, 1]⟩ ![0])
    (u : (⟨1, ![m]⟩ : Shape).Idx → α) (p : Fin m) : broadcastInDim ⟨2, ![m, 1]⟩ ![0] h u (ix2 p (0 : Fin 1)) = u (ix1 p) := by
  refine broadcastInDim_apply ![0] h u (ix2 p (0 : Fin 1)) (ix1 p) ?_
  intro a
  fin_cases a
  show p.val = if m = 1 then 0 else p.val
  split_ifs with hm
  · have := p.isLt; omega
  · rfl

/-- A column repeated along the rows reads, at (p, q), the column at row p. -/
theorem colSpread_apply {m n : ℕ} (h : (⟨2, ![m, 1]⟩ : Shape).BroadcastsInDim ⟨2, ![m, n]⟩ ![0, 1])
    (v : (⟨2, ![m, 1]⟩ : Shape).Idx → α) (p : Fin m) (q : Fin n) :
    broadcastInDim ⟨2, ![m, n]⟩ ![0, 1] h v (ix2 p q) = v (ix2 p (0 : Fin 1)) := by
  refine broadcastInDim_apply ![0, 1] h v (ix2 p q) (ix2 p (0 : Fin 1)) ?_
  intro a
  fin_cases a
  · show p.val = if m = 1 then 0 else p.val
    split_ifs with hm
    · have := p.isLt; omega
    · rfl
  · show (0 : ℕ) = if (1 : ℕ) = 1 then 0 else _
    simp

end Cert.LibBcastRowCol
-- ==== Proof.LibHostRead.lean ====
/-
  Two host idioms read at an index, at the ideal instance.

  `splat_at`     a scalar float constant broadcast to any shape (`broadcast_in_dim` with no dimensions), read at
                 an index: the extended real the constant's word denotes, whatever the index;
  `hostDivf_at`  the host's quotient of two arrays, read at an index: the quotient of the two entries.

  Both keep a later unification from having to open a constant's word or a broadcast: after rewriting with
  them a goal mentions the word and the two entries, nothing else.
-/
import Idealize.ShloMosaic.PureOps.Ideal.Laws
import Idealize.ShloMosaic.Lib.ValueIdx
import Idealize.ShloMosaic.Lib.Pipeline.Value

noncomputable section

namespace Idealize.ShloMosaic.HostRead

open Idealize.ShloMosaic Idealize.ShloMosaic.ValueIdx

/-- A constant splat to any shape, read at an index: the constant's word. -/
theorem splat_at {t : Shape} (h : (⟨0, ![]⟩ : Shape).BroadcastsInDim t ![]) (w : BitVec 32) (j : t.Idx) :
    broadcastInDim t ![] h (constant (F := Ideal) ⟨0, ![]⟩ .f32 w) j = Ideal.ofBits .f32 w := by
  rw [broadcastInDim_apply ![] h _ j ix0 (fun a => a.elim0), constant_apply]

/-- The host's quotient of two arrays, read at an index. -/
theorem hostDivf_at {s : Shape} {φ : FTy} (a b : FVec Ideal s φ) (i : s.Idx) :
    Host.divf a b i = Ideal.div (a i) (b i) := rfl

end Idealize.ShloMosaic.HostRead

end
-- ==== Proof.RefRead.lean ====
/-
  The reference's arithmetic after the row normalisation, read index by index.

  * The weight of the pair (i, k): the product a · bᵀ at (i, k) is the sum over the 64 columns of a (i, c) · b (k, c)
    (the transposed operand read back at its own index), divided by the temperature word, exponentiated.
  * The loss: the outer quotient and negation act on the one entry of a scalar; the sum of a vector into a scalar is
    the initial value plus the sum of its entries; at row i the logarithm's argument is the row sum, from the zero
    word, of (weight / (total + ε)) · mask, plus ε, the total being that row's entry of the column of totals repeated
    along the row. The zero word is 0, so both initial values drop.
  * With the totals the rows' own sums of the weights, that is the normalised form of the loss; two of them weighted ½
    each are the normalised form of the result.
-/
import proofs.«154604_j34720515621627_1_alg».proof.Proof.RefPure
import proofs.«154604_j34720515621627_1_alg».proof.Proof.Spec
import proofs.«154604_j34720515621627_1_alg».proof.Proof.LibMatmulAt
import proofs.«154604_j34720515621627_1_alg».proof.Proof.LibRowSum
import proofs.«154604_j34720515621627_1_alg».proof.Proof.LibBcastRowCol
import proofs.«154604_j34720515621627_1_alg».proof.Proof.LibHostRead
import Idealize.ShloMosaic.Lib.ValueLayout
import Idealize.ShloMosaic.Lib.IdealHost

noncomputable section

open scoped BigOperators

namespace Cert.ReferenceIdeal.RefValue

open Cert.ReferenceIdeal Cert.ReferenceIdeal.Facts₀ Idealize.ShloMosaic Idealize.ShloMosaic.ValueIdx

variable [Cert.ReferenceIdeal.Facts]

/-- The weight of the pair (i, k). -/
theorem weights_apply (a b : FVec Ideal S8192x64 .f32) (i k : Fin 8192) :
    weights a b (ix2 i k) = Cert.Contrast.wR a b i k := by
  unfold weights Cert.Contrast.wR Cert.Contrast.dotRows Cert.Contrast.tau
  show Ideal.exp (Ideal.div
      (Host.dotGeneral dot_S8192x64_S64x8192_S8192x8192_1_0_0_1_n_n none a
        (transpose S64x8192 [1, 0] b transposes_S8192x64_S64x8192_1_0) (ix2 i k))
      (broadcastInDim S8192x8192 ![] bcast_S_S8192x8192 (constant (F := Ideal) S_ .f32 0x3F4CCCCD#32) (ix2 i k))) = _
  rw [HostRead.splat_at,
    MatmulAt.dotGeneral_ix2 dot_S8192x64_S64x8192_S8192x8192_1_0_0_1_n_n rfl rfl (fun _ _ => rfl) (fun _ _ => rfl)
      (fun _ _ => rfl) (fun _ _ => rfl)]
  refine congrArg (fun s => Ideal.exp (Ideal.div s (Ideal.ofBits .f32 0x3F4CCCCD#32))) (Finset.sum_congr rfl fun c _ => ?_)
  exact congrArg (a (ix2 i c) * ·) (transpose_ix2_apply b transposes_S8192x64_S64x8192_1_0 c k)

/-- A rank-1 index set is its one coordinate's range … -/
def idxEquiv1 {n : ℕ} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The host's float sum of a vector into a scalar from the initial array `init`: the initial value plus the sum of
    the entries (every entry is summed: the scalar has no axis left to index by). -/
theorem hostSum_all {n : ℕ} {u : Shape} {φ : FTy} (x : FVec Ideal ⟨1, ![n]⟩ φ) (init : u.Idx → Ideal φ)
    (h' : (⟨1, ![n]⟩ : Shape).ReducesTo [0] ⟨0, ![]⟩) (hu : 0 < u.numel) (j : (⟨0, ![]⟩ : Shape).Idx) :
    Host.reduceAdd x init h' hu j = init (Shape.Idx.first hu) + ∑ k : Fin n, x (ix1 k) := by
  refine (hostReduceAdd_apply x init h' hu j).trans ((Ideal.hostReduceAdd_total h' (fun b => b.elim0) x _ j).trans ?_)
  rw [sum_idx1]

/-- Row i's total of the weights. -/
theorem rowTotal_apply (w : FVec Ideal S8192x8192 .f32) (i : Fin 8192) :
    rowTotal w (ix1 i) = ∑ k : Fin 8192, w (ix2 i k) := by
  unfold rowTotal
  rw [Cert.LibRowSum.hostSum_row, constant_apply, Ideal.ofBits_zero_f32, zero_add]

/-- Row i's masked sum of the normalised weights, with the guard added: the logarithm's argument. -/
theorem rowArg_apply (w : FVec Ideal S8192x8192 .f32) (t : FVec Ideal S8192 .f32) (p : FVec Ideal S8192x8192 .f32) (i : Fin 8192) :
    addf
        (Host.reduceAdd
          (mulf
            (Host.divf w
              (broadcastInDim S8192x8192 ![0, 1] bcast_S8192x1_S8192x8192_0_1
                (addf (broadcastInDim S8192x1 ![0] bcast_S8192_S8192x1_0 t)
                  (broadcastInDim S8192x1 ![] bcast_S_S8192x1 (constant (F := Ideal) S_ .f32 0x322BCC77#32)))))
            p)
          (constant (F := Ideal) S_ .f32 0x00000000#32) reducesTo_S8192x8192_S8192_d1 h_S_)
        (broadcastInDim S8192 ![] bcast_S_S8192 (constant (F := Ideal) S_ .f32 0x322BCC77#32)) (ix1 i)
      = (∑ k : Fin 8192, Ideal.div (w (ix2 i k)) (t (ix1 i) + Cert.Contrast.eps) * p (ix2 i k)) + Cert.Contrast.eps := by
  rw [addf_apply, HostRead.splat_at, Cert.LibRowSum.hostSum_row, constant_apply, Ideal.ofBits_zero_f32, zero_add]
  unfold Cert.Contrast.eps
  refine congrArg (· + Ideal.ofBits .f32 0x322BCC77#32) (Finset.sum_congr rfl fun k _ => ?_)
  rw [mulf_apply, HostRead.hostDivf_at, Cert.LibBcastRowCol.colSpread_apply, addf_apply, Cert.LibBcastRowCol.vecCol_apply,
    HostRead.splat_at]

/-- The loss from weights, totals and mask, at its one index. -/
theorem lossFrom_apply (w : FVec Ideal S8192x8192 .f32) (t : FVec Ideal S8192 .f32) (p : FVec Ideal S8192x8192 .f32)
    (j : S_.Idx) :
    lossFrom w t p j
      = -(Ideal.div
          (∑ i : Fin 8192,
            Ideal.log ((∑ k : Fin 8192, Ideal.div (w (ix2 i k)) (t (ix1 i) + Cert.Contrast.eps) * p (ix2 i k)) + Cert.Contrast.eps))
          Cert.Contrast.nRows) := by
  unfold lossFrom
  show -(Ideal.div (Host.reduceAdd _ (constant (F := Ideal) S_ .f32 0x00000000#32) reducesTo_S8192_S_d0 h_S_ j)
      (constant (F := Ideal) S_ .f32 0x46000000#32 j)) = _
  rw [hostSum_all, constant_apply, constant_apply, Ideal.ofBits_zero_f32, zero_add]
  unfold Cert.Contrast.nRows
  refine congrArg (fun s => -(Ideal.div s (Ideal.ofBits .f32 0x46000000#32))) (Finset.sum_congr rfl fun i _ => ?_)
  show Ideal.log (_ : EReal) = _
  rw [rowArg_apply]

/-- The loss of the exponentiated similarities of `a` against `b` is the normalised form of the loss. -/
theorem lossOf_weights (a b : FVec Ideal S8192x64 .f32) (p : FVec Ideal S8192x8192 .f32) (j : S_.Idx) :
    lossOf (weights a b) p j = Cert.Contrast.lossR a b p := by
  unfold lossOf Cert.Contrast.lossR Cert.Contrast.rowR
  rw [lossFrom_apply]
  simp only [rowTotal_apply, weights_apply]

/-- Two losses weighted ½ each, at the one index. -/
theorem meanOf_apply (x y : FVec Ideal S_ .f32) (j : S_.Idx) :
    meanOf x y j = x j * Cert.Contrast.half + y j * Cert.Contrast.half := rfl

/-- The reference's result, as a function of the two normalised embeddings and the mask, is the normalised form. -/
theorem meanOf_losses (a b : FVec Ideal S8192x64 .f32) (p : FVec Ideal S8192x8192 .f32) :
    meanOf (lossOf (weights a b) p) (lossOf (weights b a) p) = fun _ => Cert.Contrast.outR a b p := by
  funext j
  rw [meanOf_apply, lossOf_weights, lossOf_weights]
  rfl

end Cert.ReferenceIdeal.RefValue

end
-- ==== Proof.RefValue.lean ====
/-
  What the reference returns.

  The reference's line of 147 operations is twelve pieces in a row, so the contents after the line are the pieces' folds
  composed. Reading the result buffer back through them: the last piece gives the mean of the two loss buffers; each
  loss buffer is the loss of a weight matrix against the mask (the first with its row totals computed two operations
  earlier); each weight matrix is the exponentiated similarities of two row-normalised projections; each of those is the
  row normalisation of a projection of an input; and a buffer is unchanged by every piece that does not write it, the
  seven arguments by all twelve. The composed term is the mean of the two losses of the exponentiated similarities, which
  read at its one index is the normalised form of the contrastive loss of the two normalised embeddings and the mask.
  Every weakly fair execution of the reference ends with exactly those contents.
-/
import proofs.«154604_j34720515621627_1_alg».proof.Proof.RefRun
import proofs.«154604_j34720515621627_1_alg».proof.Proof.RefChunkProj
import proofs.«154604_j34720515621627_1_alg».proof.Proof.RefChunkUnit
import proofs.«154604_j34720515621627_1_alg».proof.Proof.RefChunkLoss
import proofs.«154604_j34720515621627_1_alg».proof.Proof.RefRead
import Idealize.ShloMosaic.Lib.Pipeline.Frame

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable [Cert.KernelIdeal.Facts₀] [Cert.ReferenceIdeal.Facts]

/-- The line is its twelve pieces in a row. -/
theorem ops_pieces : (ops : List (HloOp τ sig (Elt Ideal)))
    = opsProjA ++ (opsProjB ++ (opsUnitA ++ (opsUnitB ++ (opsSimAB ++ (opsUnitB2 ++ (opsUnitA2 ++ (opsSimBA ++ (opsRowTotal
        ++ (opsLossAB ++ (opsLossBA ++ opsMean)))))))))) := by
  simp only [ops, opsWindow0, opsWindow1, List.append_assoc]

/-- The contents after the line: the pieces' folds, composed. -/
theorem after_ops (V : Valuation τ sig (Elt Ideal)) :
    after ops V
      = after opsMean (after opsLossBA (after opsLossAB (after opsRowTotal (after opsSimBA (after opsUnitA2 (after opsUnitB2
          (after opsSimAB (after opsUnitB (after opsUnitA (after opsProjB (after opsProjA V))))))))))) := by
  rw [ops_pieces]
  simp only [after_append]

/-- A buffer none of the pieces writes keeps its contents through the line. -/
theorem ops_keep (V : Valuation τ sig (Elt Ideal)) (r : Ref sig .tc)
    (h : r ∉ opsProjA_W ++ (opsProjB_W ++ (opsUnitA_W ++ (opsUnitB_W ++ (opsSimAB_W ++ (opsUnitB2_W ++ (opsUnitA2_W ++ (opsSimBA_W
        ++ (opsRowTotal_W ++ (opsLossAB_W ++ (opsLossBA_W ++ opsMean_W))))))))))) :
    after ops V (Proc.devRef .tc r) = V (Proc.devRef .tc r) := by
  simp only [List.mem_append, not_or] at h
  obtain ⟨h1, h2, h3, h4, h5, h6, h7, h8, h9, h10, h11, h12⟩ := h
  rw [after_ops, opsMean_keep _ r h12, opsLossBA_keep _ r h11, opsLossAB_keep _ r h10, opsRowTotal_keep _ r h9,
    opsSimBA_keep _ r h8, opsUnitA2_keep _ r h7, opsUnitB2_keep _ r h6, opsSimAB_keep _ r h5, opsUnitB_keep _ r h4,
    opsUnitA_keep _ r h3, opsProjB_keep _ r h2, opsProjA_keep _ r h1]

/-- The result buffer after the line: the normalised form of the loss of the two normalised embeddings and the mask. -/
theorem ops_v82 (V : Valuation τ sig (Elt Ideal)) :
    after ops V (main_v82 : DevRef τ sig)
      = fun _ => Cert.Contrast.outR
          (Cert.Contrast.zn (V (main_arg0 : DevRef τ sig)) (V (main_arg2 : DevRef τ sig)) (V (main_arg3 : DevRef τ sig))
            (V (main_arg4 : DevRef τ sig)) (V (main_arg5 : DevRef τ sig)))
          (Cert.Contrast.zn (V (main_arg1 : DevRef τ sig)) (V (main_arg2 : DevRef τ sig)) (V (main_arg3 : DevRef τ sig))
            (V (main_arg4 : DevRef τ sig)) (V (main_arg5 : DevRef τ sig)))
          (V (main_arg6 : DevRef τ sig)) := by
  rw [after_ops]
  -- the mean of the two loss buffers
  rw [opsMean_v82, opsLossBA_keep _ main_v65 (by decide), opsLossBA_v79]
  -- the first loss, from the first weights, their totals and the mask
  rw [opsLossAB_v65, opsLossAB_keep _ main_v51 (by decide), opsLossAB_keep _ main_arg6 (by decide)]
  rw [opsRowTotal_v52, opsRowTotal_keep _ main_v36 (by decide), opsRowTotal_keep _ main_v51 (by decide),
    opsRowTotal_keep _ main_arg6 (by decide)]
  -- the second weights, of the two second normalisations
  rw [opsSimBA_v51, opsSimBA_keep _ main_v36 (by decide), opsSimBA_keep _ main_arg6 (by decide)]
  rw [opsUnitA2_v46, opsUnitA2_keep _ main_v41 (by decide), opsUnitA2_keep _ main_v36 (by decide),
    opsUnitA2_keep _ main_arg6 (by decide)]
  rw [opsUnitB2_v41, opsUnitB2_keep _ main_v10 (by decide), opsUnitB2_keep _ main_v36 (by decide),
    opsUnitB2_keep _ main_arg6 (by decide)]
  -- the first weights, of the two first normalisations
  rw [opsSimAB_v36, opsSimAB_keep _ main_v21 (by decide), opsSimAB_keep _ main_v10 (by decide),
    opsSimAB_keep _ main_arg6 (by decide)]
  rw [opsUnitB_v31, opsUnitB_keep _ main_v26 (by decide), opsUnitB_keep _ main_v21 (by decide),
    opsUnitB_keep _ main_v10 (by decide), opsUnitB_keep _ main_arg6 (by decide)]
  rw [opsUnitA_v26, opsUnitA_keep _ main_v21 (by decide), opsUnitA_keep _ main_v10 (by decide),
    opsUnitA_keep _ main_arg6 (by decide)]
  -- the two projections
  rw [opsProjB_v21, opsProjB_keep _ main_v10 (by decide), opsProjB_keep _ main_arg6 (by decide)]
  rw [opsProjA_v10, opsProjA_keep _ main_arg1 (by decide), opsProjA_keep _ main_arg2 (by decide),
    opsProjA_keep _ main_arg3 (by decide), opsProjA_keep _ main_arg4 (by decide), opsProjA_keep _ main_arg5 (by decide),
    opsProjA_keep _ main_arg6 (by decide)]
  exact meanOf_losses _ _ _

/-- What the reference returns, as a function of the launch memory. -/
def out (m : (ℓ : Loc nD τ sig) → Buf (Elt Ideal) ℓ) (c : Dev nD) : Buf (Elt Ideal) ((c.tc : Thread nD τ).loc main_v82) :=
  fun _ => Cert.Contrast.outR
    (Cert.Contrast.zn (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
    (Cert.Contrast.zn (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
    (m ((c.tc : Thread nD τ).loc main_arg6))

/-- From any memory with zero counters every weakly fair execution of the reference terminates with its result at `out`
    and its seven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v82) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c main_v82).trans (ops_v82 (launchContents m c)),
        (h c main_arg0).trans (ops_keep _ main_arg0 (by decide)),
        (h c main_arg1).trans (ops_keep _ main_arg1 (by decide)),
        (h c main_arg2).trans (ops_keep _ main_arg2 (by decide)),
        (h c main_arg3).trans (ops_keep _ main_arg3 (by decide)),
        (h c main_arg4).trans (ops_keep _ main_arg4 (by decide)),
        (h c main_arg5).trans (ops_keep _ main_arg5 (by decide)),
        (h c main_arg6).trans (ops_keep _ main_arg6 (by decide))⟩)
    (run_main m ρ)

end Cert.ReferenceIdeal.RefValue

end
-- ==== Proof.LibNonnegScale.lean ====
/-
  A nonnegative real factor and sums of extended reals.

  On the extended reals a product does not distribute over a sum in general (the sum of +inf and -inf is junk), but a
  nonnegative REAL factor does, over two terms and over any finite sum: scaling by it is additive. Also: a finite sum
  of ones is the number of terms, a real.
-/
import Mathlib

namespace Cert.LibNonnegScale

open Finset

/-- A nonnegative real factor distributes over a sum of two extended reals. -/
theorem coe_mul_add (r : ℝ) (hr : 0 ≤ r) (y z : EReal) : (r : EReal) * (y + z) = (r : EReal) * y + (r : EReal) * z :=
  EReal.left_distrib_of_nonneg_of_ne_top (EReal.coe_nonneg.mpr hr) (EReal.coe_ne_top r) y z

/-- A nonnegative real factor distributes over a finite sum of extended reals. -/
theorem coe_mul_sum {ι : Type*} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add r hr, ih]

/-- A finite sum of ones is the number of terms. -/
theorem sum_ones {ι : Type*} (s : Finset ι) : (∑ _e ∈ s, (1 : EReal)) = ((s.card : ℝ) : EReal) := by
  classical
  induction s using Finset.induction_on with
  | empty => simp
  | insert a s ha ih =>
    rw [Finset.sum_insert ha, ih, Finset.card_insert_of_notMem ha]
    push_cast
    rw [add_comm]

end Cert.LibNonnegScale
-- ==== Proof.LibRealClosed.lean ====
/-
  Closure of the real numbers inside the extended reals.

  An extended real is called real here when it is the image of some real number. Zero and every coerced real are real, and
  the reals are closed under the sum, the difference and the product of the extended reals (whose values at the infinities
  are conventions that never come into play), hence under every finite sum.
-/
import Mathlib

open scoped BigOperators

namespace Cert.Lib.RealClosed

/-- An extended real that is the image of a real number. -/
def IsReal (e : EReal) : Prop := ∃ r : ℝ, e = (r : EReal)

theorem isReal_coe (r : ℝ) : IsReal (r : EReal) := ⟨r, rfl⟩

theorem isReal_zero : IsReal (0 : EReal) := ⟨0, rfl⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- A finite sum of reals is a real. -/
theorem isReal_sum {ι : Type*} (s : Finset ι) (f : ι → EReal) (hf : ∀ k ∈ s, IsReal (f k)) :
    IsReal (∑ k ∈ s, f k) := by
  classical
  induction s using Finset.induction_on with
  | empty => simpa using isReal_zero
  | insert a s ha ih =>
    rw [Finset.sum_insert ha]
    exact (hf a (Finset.mem_insert_self a s)).add (ih fun k hk => hf k (Finset.mem_insert_of_mem hk))

/-- A sum over a whole finite type of reals is a real. -/
theorem isReal_sum_univ {ι : Type*} [Fintype ι] (f : ι → EReal) (hf : ∀ k, IsReal (f k)) :
    IsReal (∑ k, f k) :=
  isReal_sum Finset.univ f fun k _ => hf k

end Cert.Lib.RealClosed
-- ==== Proof.BridgeAux.lean ====
/-
  Arithmetic of the extended reals behind the two forms of the contrastive loss.

  * exp is never negative, and log is +∞ only at +∞.
  * Division by an extended real d in (0, +∞] is multiplication by a non-negative real number (the reciprocal of d,
    which is 0 when d = +∞). A non-negative real factor distributes over every finite sum of extended reals, so
    dividing each weight of a row by d and then summing the quotients times the mask is the same as summing the
    weights times the mask and dividing once.
  * If the weights are non-negative, the mask entries are real and ε is a positive real, then
    (∑ w·P) / (∑ w + ε) + ε is never +∞: either ∑ w = +∞ and the quotient is 0, or ∑ w is finite, then every weight
    is a real number and so is everything in sight.
  * Negation commutes with a finite sum none of whose terms is +∞.
-/
import Idealize.ShloMosaic.PureOps.Ideal
import proofs.«154604_j34720515621627_1_alg».proof.Proof.LibNonnegScale
import proofs.«154604_j34720515621627_1_alg».proof.Proof.LibRealClosed

noncomputable section

open scoped BigOperators
open Idealize.ShloMosaic

namespace Cert.Contrast.Aux

/-- exp takes no negative value: it is 0 at -∞, +∞ at +∞ and the real exponential in between. -/
theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

/-- log is +∞ only at +∞. -/
theorem log_ne_top {x : EReal} (h : x ≠ ⊤) : Ideal.log x ≠ ⊤ := by
  induction x using EReal.rec with
  | bot => rw [Ideal.log_bot]; exact bot_ne_top
  | coe r =>
    rw [Ideal.log_coe]
    split_ifs
    · exact bot_ne_top
    · exact EReal.coe_ne_top _
  | top => exact absurd rfl h

/-- Division by d in (0, +∞] is multiplication by a non-negative real ρ (the reciprocal of d; 0 when d = +∞). -/
theorem div_pos_eq_mul {d : EReal} (hd : 0 < d) :
    ∃ ρ : ℝ, 0 ≤ ρ ∧ (∀ x : EReal, Ideal.div x d = x * (ρ : EReal)) := by
  induction d using EReal.rec with
  | bot => exact absurd hd (not_lt_bot)
  | coe r =>
    have hr : 0 < r := by exact_mod_cast hd
    exact ⟨1 / r, by positivity, fun x => Ideal.div_coe hr.ne' x⟩
  | top =>
    refine ⟨0, le_rfl, fun x => ?_⟩
    rw [Ideal.div, if_neg EReal.top_ne_zero, EReal.inv_top, EReal.coe_zero]

/-- Dividing every weight by d in (0, +∞] before summing against the mask, or dividing the masked sum once. -/
theorem sum_div_mul {ι : Type*} [Fintype ι] (w P : ι → EReal) {d : EReal} (hd : 0 < d) :
    ∑ j, Ideal.div (w j) d * P j = Ideal.div (∑ j, w j * P j) d := by
  obtain ⟨ρ, hρ, hdiv⟩ := div_pos_eq_mul hd
  simp only [hdiv]
  rw [mul_comm (∑ j, w j * P j) (ρ : EReal), Cert.LibNonnegScale.coe_mul_sum ρ hρ]
  refine Finset.sum_congr rfl fun j _ => ?_
  rw [mul_comm (w j) (ρ : EReal), mul_assoc]

/-- A non-negative extended real below +∞ is a real number. -/
theorem real_of_nonneg_of_ne_top {x : EReal} (h0 : 0 ≤ x) (ht : x ≠ ⊤) : ∃ r : ℝ, 0 ≤ r ∧ x = (r : EReal) := by
  induction x using EReal.rec with
  | bot => exact absurd h0 (by simp)
  | coe r => exact ⟨r, by exact_mod_cast h0, rfl⟩
  | top => exact absurd rfl ht

/-- With non-negative weights, a real mask and a positive real ε, (∑ w·P) / (∑ w + ε) + ε is not +∞. -/
theorem masked_ne_top {ι : Type*} [Fintype ι] (w P : ι → EReal) (hw : ∀ j, 0 ≤ w j)
    (hP : ∀ j, ∃ r : ℝ, P j = (r : EReal)) (e : ℝ) (he : 0 < e) :
    Ideal.div (∑ j, w j * P j) ((∑ j, w j) + (e : EReal)) + (e : EReal) ≠ ⊤ := by
  have hT0 : 0 ≤ ∑ j, w j := Finset.sum_nonneg fun j _ => hw j
  by_cases hT : (∑ j, w j) = ⊤
  · -- the total is +∞: the divisor is +∞ and the quotient is 0
    rw [hT, EReal.top_add_coe, Ideal.div, if_neg EReal.top_ne_zero, EReal.inv_top, mul_zero, zero_add]
    exact EReal.coe_ne_top e
  · -- the total is finite: every weight is a real number
    obtain ⟨t, ht0, ht⟩ := real_of_nonneg_of_ne_top hT0 hT
    have hwr : ∀ j, Cert.Lib.RealClosed.IsReal (w j) := by
      intro j
      have hle : w j ≤ ∑ j, w j := Finset.single_le_sum (fun i _ => hw i) (Finset.mem_univ j)
      have hne : w j ≠ ⊤ := fun h => hT (top_le_iff.mp (h ▸ hle))
      obtain ⟨r, -, hr⟩ := real_of_nonneg_of_ne_top (hw j) hne
      exact ⟨r, hr⟩
    obtain ⟨s, hs⟩ := Cert.Lib.RealClosed.isReal_sum_univ (fun j => w j * P j) fun j => (hwr j).mul (hP j)
    have hte : t + e ≠ 0 := by positivity
    rw [hs, ht, ← EReal.coe_add, Ideal.div_coe hte, ← EReal.coe_mul, ← EReal.coe_add]
    exact EReal.coe_ne_top _

/-- Negation commutes with a finite sum none of whose terms is +∞ (and such a sum is not +∞). -/
theorem sum_neg_of_ne_top {ι : Type*} (s : Finset ι) (L : ι → EReal) (hL : ∀ i ∈ s, L i ≠ ⊤) :
    (∑ i ∈ s, -(L i)) = -(∑ i ∈ s, L i) ∧ (∑ i ∈ s, L i) ≠ ⊤ := by
  classical
  induction s using Finset.induction_on with
  | empty => simp
  | insert a s ha ih =>
    obtain ⟨ih1, ih2⟩ := ih fun i hi => hL i (Finset.mem_insert_of_mem hi)
    have hLa : L a ≠ ⊤ := hL a (Finset.mem_insert_self a s)
    rw [Finset.sum_insert ha, Finset.sum_insert ha, ih1]
    refine ⟨?_, EReal.add_ne_top hLa ih2⟩
    rw [EReal.neg_add (Or.inr ih2) (Or.inl hLa), sub_eq_add_neg]

/-- Dividing by a positive real commutes with negation. -/
theorem div_neg_coe {n : ℝ} (hn : n ≠ 0) (x : EReal) : Ideal.div (-x) (n : EReal) = -(Ideal.div x (n : EReal)) := by
  rw [Ideal.div_coe hn, Ideal.div_coe hn, neg_mul]

end Cert.Contrast.Aux

end
-- ==== Proof.Bridge.lean ====
/-
  The accumulated form and the normalised form of the contrastive loss are equal when every mask entry is real.

  * The temperature word is the real 13421773/16777216, so dividing by it is multiplying by its exact reciprocal at
    every extended real: the two forms have the same weights.
  * In a row the weights lie in [0, +∞] and ε is a positive real, so total + ε lies in (0, +∞]; dividing each weight by
    it and summing against the mask equals dividing the masked sum by it once. The two logarithms therefore have the
    same argument, and a row's term of the accumulated form is minus that of the normalised form.
  * That argument is never +∞ when the mask is real, so no row's logarithm is +∞, and negation commutes with the sum
    over the rows and with the division by the positive real 8192.
-/
import proofs.«154604_j34720515621627_1_alg».proof.Proof.Spec
import proofs.«154604_j34720515621627_1_alg».proof.Proof.BridgeAux

noncomputable section

open scoped BigOperators
open Idealize.ShloMosaic Idealize.ShloMosaic.ValueIdx

namespace Cert.Contrast

/-! ## The constants -/

/-- The temperature word denotes 13421773/16777216 (about 0.8). -/
theorem tau_eq : tau = ((13421773 / 16777216 : ℝ) : EReal) := by
  simp [tau, Ideal.ofBits, Ideal.ieee, -EReal.coe_mul]; norm_num

/-- The row count's word denotes 8192. -/
theorem nRows_eq : nRows = ((8192 : ℝ) : EReal) := by
  simp [nRows, Ideal.ofBits, Ideal.ieee, -EReal.coe_mul]; norm_num

/-- The guard's word denotes 11258999 / 2^50 (about 1e-8). -/
theorem eps_eq : eps = ((11258999 / 1125899906842624 : ℝ) : EReal) := by
  simp [eps, Ideal.ofBits, Ideal.ieee, -EReal.coe_mul]; norm_num

theorem eps_real_pos : (0 : ℝ) < 11258999 / 1125899906842624 := by norm_num

/-- Dividing by the temperature word is multiplying by its exact reciprocal, at every extended real. -/
theorem div_tau (s : EReal) : Ideal.div s tau = s * invTau := by
  have h : (1 / (13421773 / 16777216 : ℝ)) = (16777216 / 13421773 : ℝ) := by norm_num
  rw [tau_eq, Ideal.div_coe (by norm_num), h, invTau]

/-! ## The weights and a row -/

/-- The two forms have the same weights. -/
theorem wR_eq_wK (A B : Emb) (i j : Fin 8192) : wR A B i j = wK A B i j := by
  rw [wR, wK, div_tau]

/-- A row's total plus ε lies in (0, +∞]. -/
theorem den_pos (A B : Emb) (i : Fin 8192) : 0 < (∑ j : Fin 8192, wK A B i j) + eps := by
  have hT : 0 ≤ ∑ j : Fin 8192, wK A B i j := Finset.sum_nonneg fun j _ => Aux.exp_nonneg _
  have he : (0 : EReal) < eps := by rw [eps_eq]; exact_mod_cast eps_real_pos
  exact he.trans_le (le_add_of_nonneg_left hT)

/-- The normalised form's row, written with the accumulated form's weights and one division. -/
theorem rowR_eq (A B : Emb) (P : Mask) (i : Fin 8192) :
    rowR A B P i
      = Ideal.log (Ideal.div (∑ j : Fin 8192, wK A B i j * P (ix2 i j)) ((∑ j : Fin 8192, wK A B i j) + eps) + eps) := by
  rw [rowR]
  simp only [wR_eq_wK]
  rw [Aux.sum_div_mul (fun j => wK A B i j) (fun j => P (ix2 i j)) (den_pos A B i)]

/-- A row's term of the accumulated form is minus that of the normalised form. -/
theorem rowK_eq_neg_rowR (A B : Emb) (P : Mask) (i : Fin 8192) : rowK A B P i = -(rowR A B P i) := by
  rw [rowR_eq, rowK, zero_sub]

/-- With a real mask no row's logarithm is +∞. -/
theorem rowR_ne_top (A B : Emb) (P : Mask) (hP : ∀ idx, ∃ r : ℝ, P idx = (r : EReal)) (i : Fin 8192) :
    rowR A B P i ≠ ⊤ := by
  rw [rowR_eq, eps_eq]
  exact Aux.log_ne_top (Aux.masked_ne_top (fun j => wK A B i j) (fun j => P (ix2 i j))
    (fun j => Aux.exp_nonneg _) (fun j => hP _) _ eps_real_pos)

/-! ## The loss -/

/-- One direction's loss is the same in both forms. -/
theorem lossK_eq_lossR (A B : Emb) (P : Mask) (hP : ∀ idx, ∃ r : ℝ, P idx = (r : EReal)) :
    lossK A B P = lossR A B P := by
  rw [lossK, lossR]
  simp only [rowK_eq_neg_rowR]
  rw [(Aux.sum_neg_of_ne_top Finset.univ (fun i => rowR A B P i) (fun i _ => rowR_ne_top A B P hP i)).1, nRows_eq,
    Aux.div_neg_coe (by norm_num)]

/-- The two forms of the contrastive loss agree when every mask entry is a real number. -/
theorem outK_eq_outR (A B : Emb) (P : Mask) (hP : ∀ idx, ∃ r : ℝ, P idx = (r : EReal)) : outK A B P = outR A B P := by
  rw [outK, outR, lossK_eq_lossR A B P hP, lossK_eq_lossR B A P hP]

end Cert.Contrast

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.LibAllFinite.lean ====
/-
  A printed "all entries finite" test read back over the extended reals.

  A program tests an array for finiteness by comparing the absolute value of every entry with `+∞` and folding the
  one-bit answers by `and` over all axes into one bit. At the ideal instance a float is an extended real, so if that
  bit is 1 every comparison is 1 and every entry is a real number. The array of `+∞` may be any array whose every
  entry is the word 0x7F800000 (a broadcast constant). Nothing here mentions a program.
-/
import proofs.«154604_j34720515621627_1_alg».proof.Proof.LibFinite
import Idealize.ShloMosaic.Lib.ReduceAll

noncomputable section

namespace Cert.Lib.AllFinite

open Idealize.ShloMosaic

/-- An array `A` of any shape is compared entry by entry, `|A i| < top i`, against an array `top` whose every entry is
    `+∞`, and the answers are folded by `and` over the reduced axes into a result of one index. If the fold is 1,
    every comparison is 1, so every entry of `A` is a real number. -/
theorem real_of_all_abs_lt_top {s t u : Shape} [Subsingleton t.Idx] {axes : List (Fin s.rank)}
    (A top : FVec Ideal s .f32) (htop : ∀ i, top i = Ideal.ofBits .f32 0x7F800000#32)
    (init : IVec u 1) (h : s.ReducesTo axes t) (hu : 0 < u.numel) (j : t.Idx)
    (e : Host.reduce IntOp.andi (cmpf .olt (Host.absf A) top) init h hu j = 1#1) :
    ∀ i, ∃ r : ℝ, A i = (r : EReal) := by
  intro i
  have hi : cmpf .olt (Host.absf A) top i = 1#1 := Host.reduce_andi_all _ init h hu j e i
  refine Cert.Lib.Finite.real_of_cmp (A i) ?_
  rw [← htop i]
  exact hi

end Cert.Lib.AllFinite

end
-- ==== Proof.MaskReal.lean ====
/-
  The precondition makes the mask real.

  The precondition is a conjunction of "all entries finite" tests, one per argument; the last conjunct tests the mask:
  every |P i| is compared with +∞ and the one-bit answers are folded by "and" over both axes. If the whole conjunction
  is 1, that last fold is 1, so every comparison is 1 and every mask entry is a real number.
-/
import proofs.«154604_j34720515621627_1_alg».proof.Pre_finite_inputs
import proofs.«154604_j34720515621627_1_alg».proof.Proof.LibAllFinite
import Idealize.ShloMosaic.Lib.ValueIdx

noncomputable section

open Idealize.ShloMosaic

namespace Cert.Contrast

/-- If the precondition holds at the ideal instance, every mask entry is a real number. -/
theorem mask_real [Cert.Pre_finite_inputs.Facts]
    (x1 x2 : FVec Ideal Cert.Pre_finite_inputs.S8192x64 .f32) (W1 : FVec Ideal Cert.Pre_finite_inputs.S64x64 .f32)
    (b1 : FVec Ideal Cert.Pre_finite_inputs.S64 .f32) (W2 : FVec Ideal Cert.Pre_finite_inputs.S64x64 .f32)
    (b2 : FVec Ideal Cert.Pre_finite_inputs.S64 .f32) (P : FVec Ideal Cert.Pre_finite_inputs.S8192x8192 .f32)
    (h : Cert.Pre_finite_inputs.fn (F := Ideal) x1 x2 W1 b1 W2 b2 P = fun _ => 1#1) :
    ∀ idx, ∃ r : ℝ, P idx = (r : EReal) := by
  have h0 := congrFun h ValueIdx.ix0
  dsimp only [Cert.Pre_finite_inputs.fn, Cert.Pre_finite_inputs.fn_part1] at h0
  -- the outermost "and" of the conjunction: its right operand is the mask's test
  have h1 := (IntOp.andi_eq_one.1 h0).2
  exact Cert.Lib.AllFinite.real_of_all_abs_lt_top P _ (fun _ => rfl) _ _ _ ValueIdx.ix0 h1

end Cert.Contrast

end
-- ==== Proof.lean ====
/-
  A contrastive loss between two views: each view's embeddings are projected (linear, ELU, linear), every row divided
  by the larger of its norm and 1e-12, and for both directions every pair of rows weighted by exp (inner product / τ);
  a row's term is -log (its mask-weighted share of the row's total weight, guarded by ε twice), and the result is the
  two directions' mean terms, each weighted one half.

  The kernel keeps, per block of 512 rows, running totals of the weights and of the weights times the mask over eight
  column blocks of 1024, and forms the row terms once the last block is in; it multiplies the inner products by the
  reciprocal 1/τ folded to a literal, which the statement names as the exact reciprocal of the reference's temperature
  word. The reference divides by that word, normalises every weight of a row by (total + ε) before it sums them against
  the mask, and negates the mean of the logs where the kernel takes the mean of the negated logs.

  Both programs apply the same host operations up to the normalised embeddings (Chain), so the proof never looks inside
  them: the kernel's run ends at the accumulated form of the loss of those embeddings (KerFinal), the reference's at the
  normalised form (RefValue), and the two forms agree whenever the mask's entries are real numbers (Bridge), which the
  precondition gives (MaskReal). The embeddings themselves may be any extended reals: a row's total plus ε lies in
  (0, ⊤], so dividing by it is multiplying by a non-negative real, which distributes over every sum; and the log of a
  real number is never ⊤, so negation commutes with the sum over rows.
-/
import proofs.«154604_j34720515621627_1_alg».proof.Defs
import proofs.«154604_j34720515621627_1_alg».proof.Proof.Gen.Kernel
import proofs.«154604_j34720515621627_1_alg».proof.Proof.Gen.Kernel.Frame
import proofs.«154604_j34720515621627_1_alg».proof.Proof.Gen.KernelIdeal
import proofs.«154604_j34720515621627_1_alg».proof.Proof.Gen.KernelIdeal.Frame
import proofs.«154604_j34720515621627_1_alg».proof.Proof.Gen.ReferenceIdeal
import proofs.«154604_j34720515621627_1_alg».proof.Proof.Gen.Pre_finite_inputs
import proofs.«154604_j34720515621627_1_alg».proof.Proof.KerFinal
import proofs.«154604_j34720515621627_1_alg».proof.Proof.RefValue
import proofs.«154604_j34720515621627_1_alg».proof.Proof.Bridge
import proofs.«154604_j34720515621627_1_alg».proof.Proof.MaskReal
import Idealize.ShloMosaic.PureOps.IdealRules
import Idealize.ShloMosaic.Adequacy
import Idealize.ShloMosaic.Init

noncomputable section

namespace Cert.Proof

open Idealize.ShloMosaic Idealize.SL.Sem

/-- The kernel as printed runs and leaves its arguments alone: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.RefValue.run m ρ)

/-- The two uses of the folded reciprocal: the table gives the name the exact reciprocal of the temperature word. -/
theorem preserves : Cert.preserves_Kernel_KernelIdeal :=
  ⟨IdealRules.named_const.statement Cert.KernelIdeal.κ "inv_tau" .f32 0x3FA00000#32 ((16777216 / 13421773 : ℝ) : EReal) rfl,
    IdealRules.named_const.statement Cert.KernelIdeal.κ "inv_tau" .f32 0x3FA00000#32 ((16777216 / 13421773 : ℝ) : EReal) rfl⟩

/-- From memories agreeing on the arguments the two idealized programs end with the same loss: the kernel at the
    accumulated form, the reference at the normalised form of the same embeddings and mask, and the mask is real. -/
theorem algebraic : Cert.algebraic_KernelIdeal_ReferenceIdeal := by
  intro m ρ m' ρ' hpre hagree
  refine ⟨fun c => Cert.KernelIdeal.KerValue.out m c, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6⟩ := hagree c
  unfold Cert.ReferenceIdeal.RefValue.out Cert.KernelIdeal.KerValue.out
  rw [a0, a1, a2, a3, a4, a5, a6]
  funext _
  exact (Cert.Contrast.outK_eq_outR _ _ _ (Cert.Contrast.mask_real _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
